-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S2x10000x128 : Shape := ⟨3, ![2, 10000, 128]⟩
abbrev S1x10000x128 : Shape := ⟨3, ![1, 10000, 128]⟩
abbrev S400 : Shape := ⟨1, ![400]⟩
abbrev S400x1 : Shape := ⟨2, ![400, 1]⟩
abbrev S1x400x128 : Shape := ⟨3, ![1, 400, 128]⟩

abbrev nBuf : Space → Nat
  | .hbm => 17
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S128x128, .f32⟩
  | .hbm, ⟨15, _⟩ => ⟨S1x128, .f32⟩
  | .hbm, ⟨16, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S400x128, .f32⟩
  | .local _ .vmem, ⟨12, _⟩ => ⟨S400x128, .f32⟩
  | .local _ .vmem, ⟨13, _⟩ => ⟨S2x10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![2, 25], ![false, false]⟩

def k0_off1 (i : grid0.Coords) : Fin 3 → Nat :=
  let arg0 : BitVec 32 := BitVec.ofNat 32 (i 0).val
  let v6 : Index := Scalar.indexCast arg0
  let c0_3 : Index := 0#32
  let c0_4 : Index := 0#32
  ![v6.toNat, 0, 0]
def k0_cond2 (i : grid0.Coords) : BitVec 1 :=
  let arg0 : BitVec 32 := BitVec.ofNat 32 (i 0).val
  let c0_i32_27 : BitVec 32 := 0#32
  let v55 : BitVec 1 := Scalar.cmpi .eq arg0 c0_i32_27
  let v56 : BitVec 32 := Scalar.extui v55
  let c0_i32_28 : BitVec 32 := 0#32
  let v57 : BitVec 1 := Scalar.cmpi .ne v56 c0_i32_28
  v57

def k0_off2 (i : grid0.Coords) : Fin 3 → Nat :=
  let c1 : Index := 1#32
  let arg1 : BitVec 32 := BitVec.ofNat 32 (i 1).val
  let c400_i32 : BitVec 32 := 400#32
  let v61 : BitVec 32 := Scalar.muli arg1 c400_i32
  let v62 : Index := Scalar.indexCast v61
  let c0_30 : Index := 0#32
  ![1, v62.toNat, 0]
def k0_cond3 (i : grid0.Coords) : BitVec 1 :=
  let arg0 : BitVec 32 := BitVec.ofNat 32 (i 0).val
  let c1_i32 : BitVec 32 := 1#32
  let v58 : BitVec 1 := Scalar.cmpi .eq arg0 c1_i32
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S400x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S128_S1x128 : S128.ShapeCasts S1x128
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S2x10000x128_S1x10000x128_0_0_0 : ∀ a, (![0, 0, 0] : Fin 3 → Nat) a + S1x10000x128.size a ≤ S2x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  shapeCasts_S128x128_S128x128 : S128x128.ShapeCasts S128x128
  h_S1x400x128 : 0 < S1x400x128.numel
  shapeCasts_S1x400x128_S400x128 : S1x400x128.ShapeCasts S400x128
  shapeCasts_S400x128_S1x400x128 : S400x128.ShapeCasts S1x400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S1x10000x128.size a ≤ S2x10000x128.size a
  k0_off2_inb : ∀ i : grid0.Coords, ∀ (k0_h2 : k0_cond2 i = 1#1), ∀ a, (k0_off2 i) a + S1x400x128.size a ≤ S2x10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x128.size a ≤ S10000x128.size a
  hwx0_10 : ∀ i : grid0.Coords, EltTy.bits .f32 = 32 ∨ (Rect.block (s := S10000x128) S400x128.size (cc0_transform_10 i) (hinb0_10 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S400x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 127
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000, .f32⟩
  | .hbm, ⟨17, _⟩ => ⟨S10000x1, .f32⟩
  | .hbm, ⟨18, _⟩ => ⟨S_, .f32⟩
  | .hbm, ⟨19, _⟩ => ⟨S10000x1, .f32⟩
  | .hbm, ⟨20, _⟩ => ⟨S10000x1, .f32⟩
  | .hbm, ⟨21, _⟩ => ⟨S_, .i32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S_, .f32⟩
  | .hbm, ⟨26, _⟩ => ⟨S10000x1, .f32⟩
  | .hbm, ⟨27, _⟩ => ⟨S10000x1, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x1, .f32⟩
  | .hbm, ⟨38, _⟩ => ⟨S10000x1, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S10000x1, .f32⟩
  | .hbm, ⟨44, _⟩ => ⟨S10000x1, .f32⟩
  | .hbm, ⟨45, _⟩ => ⟨S10000x128, .f32⟩
  | .hbm, ⟨46, _⟩ => ⟨S10000x128, .f32⟩
  | .hbm, ⟨47, _⟩ => ⟨S_, .f32⟩
  | .hbm, ⟨48, _⟩ => ⟨S10000x1, .f32⟩
  | .hbm, ⟨49, _⟩ => ⟨S10000x1, .f32⟩
  | .hbm, ⟨50, _⟩ => ⟨S10000x1, .f32⟩
  | .hbm, ⟨51, _⟩ => ⟨S10000x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .hbm, ⟨56, _⟩ => ⟨S1x128, .f32⟩
  | .hbm, ⟨57, _⟩ => ⟨S10000x128, .f32⟩
  | .hbm, ⟨58, _⟩ => ⟨S10000x128, .f32⟩
  | .hbm, ⟨59, _⟩ => ⟨S_, .f32⟩
  | .hbm, ⟨60, _⟩ => ⟨S10000x128, .f32⟩
  | .hbm, ⟨61, _⟩ => ⟨S10000x128, .i1⟩
  | .hbm, ⟨62, _⟩ => ⟨S_, .f32⟩
  | .hbm, ⟨63, _⟩ => ⟨S10000x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000, .f32⟩
  | .hbm, ⟨73, _⟩ => ⟨S10000x1, .f32⟩
  | .hbm, ⟨74, _⟩ => ⟨S_, .f32⟩
  | .hbm, ⟨75, _⟩ => ⟨S10000x1, .f32⟩
  | .hbm, ⟨76, _⟩ => ⟨S10000x1, .f32⟩
  | .hbm, ⟨77, _⟩ => ⟨S_, .i32⟩
  | .hbm, ⟨78, _⟩ => ⟨S_, .f32⟩
  | .hbm, ⟨79, _⟩ => ⟨S10000, .f32⟩
  | .hbm, ⟨80, _⟩ => ⟨S10000x1, .f32⟩
  | .hbm, ⟨81, _⟩ => ⟨S_, .f32⟩
  | .hbm, ⟨82, _⟩ => ⟨S10000x1, .f32⟩
  | .hbm, ⟨83, _⟩ => ⟨S10000x1, .f32⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S10000, .f32⟩
  | .hbm, ⟨92, _⟩ => ⟨S10000x1, .f32⟩
  | .hbm, ⟨93, _⟩ => ⟨S10000x1, .f32⟩
  | .hbm, ⟨94, _⟩ => ⟨S10000x1, .f32⟩
  | .hbm, ⟨95, _⟩ => ⟨S_, .f32⟩
  | .hbm, ⟨96, _⟩ => ⟨S_, .i1⟩
  | .hbm, ⟨97, _⟩ => ⟨S_, .f32⟩
  | .hbm, ⟨98, _⟩ => ⟨S_, .f32⟩
  | .hbm, ⟨99, _⟩ => ⟨S10000x1, .f32⟩
  | .hbm, ⟨100, _⟩ => ⟨S10000x1, .f32⟩
  | .hbm, ⟨101, _⟩ => ⟨S10000x128, .f32⟩
  | .hbm, ⟨102, _⟩ => ⟨S10000x128, .f32⟩
  | .hbm, ⟨103, _⟩ => ⟨S_, .f32⟩
  | .hbm, ⟨104, _⟩ => ⟨S10000x1, .f32⟩
  | .hbm, ⟨105, _⟩ => ⟨S10000x1, .f32⟩
  | .hbm, ⟨106, _⟩ => ⟨S10000x1, .f32⟩
  | .hbm, ⟨107, _⟩ => ⟨S10000x128, .f32⟩
  | .hbm, ⟨108, _⟩ => ⟨S10000x128, .f32⟩
  | .hbm, ⟨109, _⟩ => ⟨S1x128, .f32⟩
  | .hbm, ⟨110, _⟩ => ⟨S10000x128, .f32⟩
  | .hbm, ⟨111, _⟩ => ⟨S10000x128, .f32⟩
  | .hbm, ⟨112, _⟩ => ⟨S1x128, .f32⟩
  | .hbm, ⟨113, _⟩ => ⟨S10000x128, .f32⟩
  | .hbm, ⟨114, _⟩ => ⟨S10000x128, .f32⟩
  | .hbm, ⟨115, _⟩ => ⟨S_, .f32⟩
  | .hbm, ⟨116, _⟩ => ⟨S10000x128, .f32⟩
  | .hbm, ⟨117, _⟩ => ⟨S10000x128, .i1⟩
  | .hbm, ⟨118, _⟩ => ⟨S_, .f32⟩
  | .hbm, ⟨119, _⟩ => ⟨S10000x128, .f32⟩
  | .hbm, ⟨120, _⟩ => ⟨S10000x128, .f32⟩
  | .hbm, ⟨121, _⟩ => ⟨S10000x128, .f32⟩
  | .hbm, ⟨122, _⟩ => ⟨S128x128, .f32⟩
  | .hbm, ⟨123, _⟩ => ⟨S10000x128, .f32⟩
  | .hbm, ⟨124, _⟩ => ⟨S1x128, .f32⟩
  | .hbm, ⟨125, _⟩ => ⟨S10000x128, .f32⟩
  | .hbm, ⟨126, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_2 : Ref sig .tc := ⟨.hbm, 59, rfl⟩
abbrev main_v23 : Ref sig .tc := ⟨.hbm, 60, rfl⟩
abbrev main_v24 : Ref sig .tc := ⟨.hbm, 61, rfl⟩
abbrev main_cst_3 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_4 : Ref sig .tc := ⟨.hbm, 71, rfl⟩
abbrev main_v33 : Ref sig .tc := ⟨.hbm, 72, rfl⟩
abbrev main_v34 : Ref sig .tc := ⟨.hbm, 73, rfl⟩
abbrev main_cst_5 : Ref sig .tc := ⟨.hbm, 74, rfl⟩
abbrev main_v35 : Ref sig .tc := ⟨.hbm, 75, rfl⟩
abbrev main_v36 : Ref sig .tc := ⟨.hbm, 76, rfl⟩
abbrev main_c_6 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_cst_3 : Ref sig .tc := ⟨.hbm, 95, rfl⟩
abbrev main_call2_v13 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_7 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_cst_8 : Ref sig .tc := ⟨.hbm, 115, rfl⟩
abbrev main_v51 : Ref sig .tc := ⟨.hbm, 116, rfl⟩
abbrev main_v52 : Ref sig .tc := ⟨.hbm, 117, rfl⟩
abbrev main_cst_9 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KB.Cases.lean ====
/-
  The grid of the fused call has 2 · 25 points, visited phase by phase: point t is (phase, block) = (t / 25, t % 25).
  Here the body's three tests and its two computed scratch offsets are put in closed form over the 50 points:
  the prologue runs at t = 0 only; the second scratch slab is written while t < 25 (rows 400·t … 400·t + 399);
  the output block is written when 25 ≤ t; the slab the body multiplies the adjacency by is slab t / 25.
  While t < 25 the output window is idle and its block is not written back.
-/
import proofs.«123332_g55173149885128_cont_9to1_m_1112_21_alg».proof.Proof.Gen.Kernel.Frame
import proofs.«123332_g55173149885128_cont_9to1_m_1112_21_alg».proof.Proof.Gen.Kernel.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test: both grid coordinates are zero. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem N50 : cfg0.N = 50 := N_0

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 25 :=
  (by decide +kernel : ∀ t : Fin grid0.N, k0_cond2 (grid0.coords t) = 1#1 ↔ t.val < 25)
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- The output window is idle exactly in the first phase, and its block is not written back there. -/
theorem idle10 : ∀ t : Fin cfg0.N, t.val < 25 → cfg0.idle 10 (grid0.coords t) = true :=
  (by decide +kernel : ∀ t : Fin grid0.N, t.val < 25 → cfg0.idle 10 (grid0.coords t) = true)
theorem live10 : ∀ t : Fin cfg0.N, 25 ≤ t.val → cfg0.idle 10 (grid0.coords t) = false :=
  (by decide +kernel : ∀ t : Fin grid0.N, 25 ≤ t.val → cfg0.idle 10 (grid0.coords t) = false)
theorem noFlush10 : ∀ t : Fin cfg0.N, t.val < 25 → (cfg0.win 10).flush t = false :=
  (by decide +kernel : ∀ t : Fin grid0.N, t.val < 25 → win0_10.flush t = false)
/-- The inputs are never idle. -/
theorem liveIn : ∀ (w : Fin 11), w.val < 10 → ∀ t : Fin cfg0.N, cfg0.idle w (grid0.coords t) = false :=
  (by decide +kernel : ∀ (w : Fin 11), w.val < 10 → ∀ t : Fin grid0.N, cfg0.idle w (grid0.coords t) = false)

/-- The grid coordinates of point t. -/
theorem coord0 : ∀ t : Fin cfg0.N, (grid0.coords t 0).val = t.val / 25 :=
  (by decide +kernel : ∀ t : Fin grid0.N, (grid0.coords t 0).val = t.val / 25)
theorem coord1 : ∀ t : Fin cfg0.N, (grid0.coords t 1).val = t.val % 25 :=
  (by decide +kernel : ∀ t : Fin grid0.N, (grid0.coords t 1).val = t.val % 25)

/-- The slab the body loads whole is slab t / 25, from its first row and column. -/
theorem off1_0 : ∀ t : Fin cfg0.N, k0_off1 (grid0.coords t) 0 = t.val / 25 :=
  (by decide +kernel : ∀ t : Fin grid0.N, k0_off1 (grid0.coords t) 0 = t.val / 25)
theorem off1_1 : ∀ t : Fin cfg0.N, k0_off1 (grid0.coords t) 1 = 0 :=
  (by decide +kernel : ∀ t : Fin grid0.N, k0_off1 (grid0.coords t) 1 = 0)
theorem off1_2 : ∀ t : Fin cfg0.N, k0_off1 (grid0.coords t) 2 = 0 :=
  (by decide +kernel : ∀ t : Fin grid0.N, k0_off1 (grid0.coords t) 2 = 0)
/-- The rows the first phase writes at point t: 400 of slab 1, from row 400 · t. -/
theorem off2_0 : ∀ t : Fin cfg0.N, k0_off2 (grid0.coords t) 0 = 1 :=
  (by decide +kernel : ∀ t : Fin grid0.N, k0_off2 (grid0.coords t) 0 = 1)
theorem off2_1 : ∀ t : Fin cfg0.N, t.val < 25 → k0_off2 (grid0.coords t) 1 = 400 * t.val :=
  (by decide +kernel : ∀ t : Fin grid0.N, t.val < 25 → k0_off2 (grid0.coords t) 1 = 400 * t.val)
theorem off2_2 : ∀ t : Fin cfg0.N, k0_off2 (grid0.coords t) 2 = 0 :=
  (by decide +kernel : ∀ t : Fin grid0.N, k0_off2 (grid0.coords t) 2 = 0)

end Cert.Kernel.Body

end
-- ==== Proof.KB.RunDefs.lean ====
/-
  Names for what the kernel body computes and leaves behind at one grid point, on any whole scratch memref.
  The scratch holds two slabs of 10000 rows of 128. The body multiplies the adjacency block by ONE slab, loaded whole
  (slab 0 in the first phase, slab 1 in the second); from that product it forms 400 rows (bias, normalisation, scale and
  shift, rectifier, a 128 × 128 matrix), which the first phase writes into slab 1 at the block's rows and the second
  phase — with the head's bias added — stores as the output block. At the very first point slab 0 is first overwritten
  with the product of the node features and the first weight matrix. What the scratch holds afterwards is named as the
  stores read back over what it held before.
-/
import proofs.«123332_g55173149885128_cont_9to1_m_1112_21_alg».proof.Proof.KB.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The slab the body multiplies the adjacency block by: slab (phase) of the scratch, whole. -/
def slabOf (i : grid0.Coords) (xs : Vec F S2x10000x128 .f32) : Vec F S1x10000x128 .f32 :=
  View.ld xs (Rect.unit (s := S2x10000x128) (k0_off1 i) S1x10000x128.size (k0_off1_inb i))

/-- The 400 rows a first-phase point writes into slab 1, -/
def tailRows (i : grid0.Coords) (x0 : Vec F S400x10000 .f32) (slab : Vec F S1x10000x128 .f32) (x3 x4 x5 x6 : Vec F S1x128 .f32)
    (x7 x8 : Vec F S128x128 .f32) : Vec F S1x400x128 .f32 :=
  k0_pay2 (BitVec.ofNat 32 (i 0).val) (k0_pay5 i x0 slab x3 x4) x5 x6 x7 x8
/-- and the block a second-phase point stores as output. -/
def outBlock (i : grid0.Coords) (x0 : Vec F S400x10000 .f32) (slab : Vec F S1x10000x128 .f32) (x3 x4 x5 x6 : Vec F S1x128 .f32)
    (x7 x8 : Vec F S128x128 .f32) (x9 : Vec F S1x128 .f32) : Vec F S400x128 .f32 :=
  k0_pay3 (BitVec.ofNat 32 (i 0).val) (k0_pay5 i x0 slab x3 x4) x5 x6 x7 x8 x9

section Scratch
variable (arg13 : Memref sig .tc .vmem S2x10000x128 .f32) (harg13 : arg13.IsWhole)

/-- The scratch after the prologue's store: slab 0 overwritten. -/
def scrPro (x1 : Vec F S10000x128 .f32) (x2 : Vec F S128x128 .f32) (xs : Vec F S2x10000x128 .f32) : Vec F S2x10000x128 .f32 :=
  arg13.view.read (Elt F) (arg13.view.writes (Elt F) (harg13.unread xs)
    [⟨Rect.unit (s := S2x10000x128) ![0, 0, 0] S1x10000x128.size inb_S2x10000x128_S1x10000x128_0_0_0, k0_pay4 x1 x2⟩])

/-- The scratch after a first-phase point other than the first: 400 rows of slab 1 overwritten. -/
def scrRows (i : grid0.Coords) (hc2 : k0_cond2 i = 1#1) (x0 : Vec F S400x10000 .f32) (x3 x4 x5 x6 : Vec F S1x128 .f32)
    (x7 x8 : Vec F S128x128 .f32) (xs : Vec F S2x10000x128 .f32) : Vec F S2x10000x128 .f32 :=
  arg13.view.read (Elt F) (arg13.view.writes (Elt F) (harg13.unread xs)
    [⟨Rect.unit (s := S2x10000x128) (k0_off2 i) S1x400x128.size (k0_off2_inb i hc2), tailRows i x0 (slabOf i xs) x3 x4 x5 x6 x7 x8⟩])

/-- The scratch after the first point: slab 0 overwritten, then 400 rows of slab 1, computed from the new slab. -/
def scrFirst (i : grid0.Coords) (hc2 : k0_cond2 i = 1#1) (x0 : Vec F S400x10000 .f32) (x1 : Vec F S10000x128 .f32) (x2 : Vec F S128x128 .f32)
    (x3 x4 x5 x6 : Vec F S1x128 .f32) (x7 x8 : Vec F S128x128 .f32) (xs : Vec F S2x10000x128 .f32) : Vec F S2x10000x128 .f32 :=
  arg13.view.read (Elt F) (arg13.view.writes (Elt F) (harg13.unread xs)
    [⟨Rect.unit (s := S2x10000x128) (k0_off2 i) S1x400x128.size (k0_off2_inb i hc2), tailRows i x0 (slabOf i (scrPro arg13 harg13 x1 x2 xs)) x3 x4 x5 x6 x7 x8⟩,
     ⟨Rect.unit (s := S2x10000x128) ![0, 0, 0] S1x10000x128.size inb_S2x10000x128_S1x10000x128_0_0_0, k0_pay4 x1 x2⟩])

end Scratch

theorem hz2 : (![0, 0] : Fin 2 → ℕ) = fun _ => 0 := funext fun a => by fin_cases a <;> rfl

/-- One store through the whole-shape rectangle leaves its payload, whatever the buffer held. -/
theorem read_store_whole {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, by
    subst h; show y ∈ (Rect.whole S).set; rw [Rect.set_whole]; exact Finset.mem_univ y⟩), View.canon_unit_zero h]

end Cert.Kernel.Body

end
-- ==== Proof.KB.State.lean ====
/-
  What the scratch holds between grid points, as far as later points read it.
  After the first point slab 0 is the product of the node features and the first weight matrix; after point t of the
  first phase the rows 0 … 400·(t + 1) − 1 of slab 1 are the first layer's rows (times the second weight matrix), block by
  block. One total array `held` collects those values; the invariant before point n says the scratch agrees with it on the
  region written so far. A whole-slab load inside that region then reads `held`; the first point establishes the
  invariant, each later point of the first phase extends the region by its 400 rows, and the second phase keeps it.
-/
import proofs.«123332_g55173149885128_cont_9to1_m_1112_21_alg».proof.Proof.KB.RunDefs
import Idealize.ShloMosaic.Lib.ValueIdx
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Grid point number j. -/
def pt (j : ℕ) (h : j < 50) : Fin cfg0.N := ⟨j, lt_of_lt_of_eq h N50.symm⟩

/-- Slab 0 once the first point has run: node features times first weights. -/
def firstSlab (c : Dev nD) : Vec F S1x10000x128 .f32 :=
  k0_pay4 (iblk m c 1 (pt 0 (by omega))) (iblk m c 2 (pt 0 (by omega)))

/-- The 400 rows point j of the first phase writes into slab 1. -/
def blockRows (c : Dev nD) (j : ℕ) (hj : j < 25) : Vec F S1x400x128 .f32 :=
  tailRows (grid0.coords (pt j (by omega))) (iblk m c 0 (pt j (by omega))) (firstSlab m c) (iblk m c 3 (pt j (by omega))) (iblk m c 4 (pt j (by omega)))
    (iblk m c 5 (pt j (by omega))) (iblk m c 6 (pt j (by omega))) (iblk m c 7 (pt j (by omega))) (iblk m c 8 (pt j (by omega)))

theorem blockRows_at (c : Dev nD) (t : Fin cfg0.N) (ht : t.val < 25) :
    blockRows m c t.val ht = tailRows (grid0.coords t) (iblk m c 0 t) (firstSlab m c) (iblk m c 3 t) (iblk m c 4 t) (iblk m c 5 t) (iblk m c 6 t) (iblk m c 7 t) (iblk m c 8 t) := rfl

theorem y0_lt (y : S2x10000x128.Idx) : (y 0).val < 2 := (y 0).isLt
theorem y1_lt (y : S2x10000x128.Idx) : (y 1).val < 10000 := (y 1).isLt
theorem y2_lt (y : S2x10000x128.Idx) : (y 2).val < 128 := (y 2).isLt

/-- The scratch's contents as later points read them: slab 0 the first product, slab 1 the first layer's rows by blocks. -/
def held (c : Dev nD) : Vec F S2x10000x128 .f32 := fun y =>
  if (y 0).val = 0 then firstSlab m c (ix3 (0 : Fin 1) (⟨(y 1).val, y1_lt y⟩ : Fin 10000) (⟨(y 2).val, y2_lt y⟩ : Fin 128))
  else if h : (y 1).val / 400 < 25 then
    blockRows m c ((y 1).val / 400) h (ix3 (0 : Fin 1) (⟨(y 1).val % 400, Nat.mod_lt _ (by decide)⟩ : Fin 400) (⟨(y 2).val, y2_lt y⟩ : Fin 128))
  else firstSlab m c (ix3 (0 : Fin 1) (⟨(y 1).val, y1_lt y⟩ : Fin 10000) (⟨(y 2).val, y2_lt y⟩ : Fin 128))

/-- The region written before point n: slab 0 once a point has run, and the first 400 · min n 25 rows of slab 1. -/
def known (n : ℕ) (y : S2x10000x128.Idx) : Prop :=
  ((y 0).val = 0 ∧ 1 ≤ n) ∨ ((y 0).val = 1 ∧ (y 1).val < 400 * min n 25)

/-- Before point n the scratch agrees with `held` on the region written so far. -/
def Inv (c : Dev nD) (n : ℕ) (X : Vec F S2x10000x128 .f32) : Prop := ∀ y, known n y → X y = held m c y

/-- A slab load reads the scratch at slab (phase), the same row and column. -/
theorem slabOf_apply (i : grid0.Coords) (X : Vec F S2x10000x128 .f32) (x : S1x10000x128.Idx) :
    slabOf i X x = X ((Rect.unit (s := S2x10000x128) (k0_off1 i) S1x10000x128.size (k0_off1_inb i)).idx x) := rfl

/-- Inside the written region a whole-slab load reads `held`. -/
theorem slab_of_inv (c : Dev nD) (t : Fin cfg0.N) (n : ℕ) (hn : 1 ≤ n) (h25 : 25 ≤ t.val → 25 ≤ n)
    (X : Vec F S2x10000x128 .f32) (hX : Inv m c n X) : slabOf (grid0.coords t) X = slabOf (grid0.coords t) (held m c) := by
  funext x
  rw [slabOf_apply, slabOf_apply]
  refine hX _ ?_
  have hN : t.val < 50 := lt_of_lt_of_eq t.isLt N50
  have hx0 : (x 0).val < 1 := (x 0).isLt
  have hx1 : (x 1).val < 10000 := (x 1).isLt
  have e0 : (((Rect.unit (s := S2x10000x128) (k0_off1 (grid0.coords t)) S1x10000x128.size (k0_off1_inb (grid0.coords t))).idx x) 0).val = t.val / 25 + 1 * (x 0).val := by
    rw [LoadRect.idx_apply]; show k0_off1 (grid0.coords t) 0 + 1 * (x 0).val = _; rw [off1_0]
  have e1 : (((Rect.unit (s := S2x10000x128) (k0_off1 (grid0.coords t)) S1x10000x128.size (k0_off1_inb (grid0.coords t))).idx x) 1).val = 0 + 1 * (x 1).val := by
    rw [LoadRect.idx_apply]; show k0_off1 (grid0.coords t) 1 + 1 * (x 1).val = _; rw [off1_1]
  unfold known
  by_cases ht : t.val < 25
  · left; refine ⟨?_, hn⟩; rw [e0]; omega
  · right; have := h25 (by omega); refine ⟨?_, ?_⟩
    · rw [e0]; omega
    · rw [e1]; omega

/-- In the first phase the slab loaded out of `held` is the first product. -/
theorem slab_held_first (c : Dev nD) (t : Fin cfg0.N) (ht : t.val < 25) : slabOf (grid0.coords t) (held m c) = firstSlab m c := by
  funext x
  rw [slabOf_apply]
  have hx0 : (x 0).val < 1 := (x 0).isLt
  have e0 : (((Rect.unit (s := S2x10000x128) (k0_off1 (grid0.coords t)) S1x10000x128.size (k0_off1_inb (grid0.coords t))).idx x) 0).val = t.val / 25 + 1 * (x 0).val := by
    rw [LoadRect.idx_apply]; show k0_off1 (grid0.coords t) 0 + 1 * (x 0).val = _; rw [off1_0]
  have e1 : (((Rect.unit (s := S2x10000x128) (k0_off1 (grid0.coords t)) S1x10000x128.size (k0_off1_inb (grid0.coords t))).idx x) 1).val = 0 + 1 * (x 1).val := by
    rw [LoadRect.idx_apply]; show k0_off1 (grid0.coords t) 1 + 1 * (x 1).val = _; rw [off1_1]
  have e2 : (((Rect.unit (s := S2x10000x128) (k0_off1 (grid0.coords t)) S1x10000x128.size (k0_off1_inb (grid0.coords t))).idx x) 2).val = 0 + 1 * (x 2).val := by
    rw [LoadRect.idx_apply]; show k0_off1 (grid0.coords t) 2 + 1 * (x 2).val = _; rw [off1_2]
  unfold held
  beta_reduce
  rw [if_pos (by rw [e0]; omega)]
  refine congrArg (firstSlab m c) (funext fun a => ?_)
  match a with
  | ⟨0, _⟩ => exact Fin.ext (by show 0 = (x 0).val; omega)
  | ⟨1, _⟩ => exact Fin.ext (by show _ = (x 1).val; rw [e1]; omega)
  | ⟨2, _⟩ => exact Fin.ext (by show _ = (x 2).val; rw [e2]; omega)

theorem blockRows_congr (c : Dev nD) {j j' : ℕ} (h : j = j') (hj : j < 25) (hj' : j' < 25) {x x' : S1x400x128.Idx} (hx : x = x') :
    blockRows m c j hj x = blockRows m c j' hj' x' := by subst h; subst hx; rfl

theorem inv_keep (c : Dev nD) (n : ℕ) (hn : 25 ≤ n) (X : Vec F S2x10000x128 .f32) (hX : Inv m c n X) : Inv m c (n + 1) X := by
  intro y hy
  refine hX y ?_
  unfold known at hy ⊢
  rw [Nat.min_eq_right (by omega)] at hy
  rw [Nat.min_eq_right hn]
  rcases hy with ⟨h0, _⟩ | h1
  · exact Or.inl ⟨h0, by omega⟩
  · exact Or.inr h1

section Preserve
variable (arg13 : Memref sig .tc .vmem S2x10000x128 .f32) (harg13 : arg13.IsWhole)

/-- A point t of the first phase, not the first, extends the written region by its 400 rows. -/
theorem inv_rows (c : Dev nD) (t : Fin cfg0.N) (h1 : 1 ≤ t.val) (h25 : t.val < 25) (hc2 : k0_cond2 (grid0.coords t) = 1#1)
    (X : Vec F S2x10000x128 .f32) (hX : Inv m c t.val X) :
    Inv m c (t.val + 1) (scrRows arg13 harg13 (grid0.coords t) hc2 (iblk m c 0 t) (iblk m c 3 t) (iblk m c 4 t) (iblk m c 5 t) (iblk m c 6 t) (iblk m c 7 t) (iblk m c 8 t) X) := by
  intro y hy
  have hslab : slabOf (grid0.coords t) X = firstSlab m c :=
    (slab_of_inv m c t t.val h1 (by omega) X hX).trans (slab_held_first m c t h25)
  have hoff : k0_off2 (grid0.coords t) = ![1, 400 * t.val, 0] := funext fun a => by
    match a with
    | ⟨0, _⟩ => exact off2_0 t
    | ⟨1, _⟩ => exact off2_1 t h25
    | ⟨2, _⟩ => exact off2_2 t
  have hy0 := y0_lt y; have hy1 := y1_lt y; have hy2 := y2_lt y
  unfold scrRows
  by_cases hin : (y 0).val = 1 ∧ 400 * t.val ≤ (y 1).val ∧ (y 1).val < 400 * t.val + 400
  · rw [View.read_writes_cons_unit_of_mem arg13.view _ (k0_off2_inb (grid0.coords t) hc2) _ [] y
      (ix3 (0 : Fin 1) (⟨(y 1).val - 400 * t.val, by omega⟩ : Fin 400) (⟨(y 2).val, hy2⟩ : Fin 128)) hoff
      (fun a => by
        match a with
        | ⟨0, _⟩ => show (y 0).val = 1 + 0; omega
        | ⟨1, _⟩ => show (y 1).val = 400 * t.val + ((y 1).val - 400 * t.val); omega
        | ⟨2, _⟩ => show (y 2).val = 0 + (y 2).val; omega)]
    rw [hslab, ← blockRows_at m c t h25]
    unfold held
    beta_reduce
    rw [if_neg (by omega), dif_pos (by omega : (y 1).val / 400 < 25)]
    refine blockRows_congr m c (by omega) _ _ (funext fun a => ?_)
    match a with
    | ⟨0, _⟩ => rfl
    | ⟨1, _⟩ => exact Fin.ext (by show (y 1).val - 400 * t.val = (y 1).val % 400; omega)
    | ⟨2, _⟩ => rfl
  · have hrest : arg13.view.read (Elt F) (arg13.view.writes (Elt F) (harg13.unread X)
          [⟨Rect.unit (s := S2x10000x128) (k0_off2 (grid0.coords t)) S1x400x128.size (k0_off2_inb (grid0.coords t) hc2),
            tailRows (grid0.coords t) (iblk m c 0 t) (slabOf (grid0.coords t) X) (iblk m c 3 t) (iblk m c 4 t) (iblk m c 5 t) (iblk m c 6 t) (iblk m c 7 t) (iblk m c 8 t)⟩]) y
        = X y := by
      have hr : arg13.view.read (Elt F) (arg13.view.writes (Elt F) (harg13.unread X) []) y = X y := by
        rw [View.writes_nil, harg13.read_unread]
      by_cases ha : (y 0).val = 1
      · refine (View.read_writes_cons_unit_of_not_mem arg13.view _ (k0_off2_inb (grid0.coords t) hc2) _ [] y hoff 1 ?_).trans hr
        show (y 1).val < 400 * t.val ∨ 400 * t.val + 400 ≤ (y 1).val
        omega
      · refine (View.read_writes_cons_unit_of_not_mem arg13.view _ (k0_off2_inb (grid0.coords t) hc2) _ [] y hoff 0 ?_).trans hr
        show (y 0).val < 1 ∨ 1 + 1 ≤ (y 0).val
        omega
    rw [hrest]
    refine hX y ?_
    unfold known at hy ⊢
    rw [Nat.min_eq_left (by omega)] at hy
    rw [Nat.min_eq_left (by omega)]
    rcases hy with ⟨h0, _⟩ | ⟨ha, hb⟩
    · exact Or.inl ⟨h0, h1⟩
    · exact Or.inr ⟨ha, by omega⟩

/-- The first point establishes the invariant: slab 0 and the first 400 rows of slab 1. -/
theorem inv_first (c : Dev nD) (t : Fin cfg0.N) (h0 : t.val = 0) (hc2 : k0_cond2 (grid0.coords t) = 1#1)
    (xs : Vec F S2x10000x128 .f32) :
    Inv m c 1 (scrFirst arg13 harg13 (grid0.coords t) hc2 (iblk m c 0 t) (iblk m c 1 t) (iblk m c 2 t) (iblk m c 3 t) (iblk m c 4 t) (iblk m c 5 t) (iblk m c 6 t) (iblk m c 7 t) (iblk m c 8 t) xs) := by
  obtain ⟨tv, ht⟩ := t
  dsimp only at h0
  subst h0
  intro y hy
  have hoff : k0_off2 (grid0.coords ⟨0, ht⟩) = ![1, 0, 0] := funext fun a => by
    match a with
    | ⟨0, _⟩ => exact off2_0 _
    | ⟨1, _⟩ => exact (off2_1 ⟨0, ht⟩ (by show 0 < 25; omega)).trans (by show 400 * 0 = 0; omega)
    | ⟨2, _⟩ => exact off2_2 _
  have hy0 := y0_lt y; have hy1 := y1_lt y; have hy2 := y2_lt y
  -- the slab loaded right after the prologue's store is the first product
  have hslab : slabOf (grid0.coords ⟨0, ht⟩) (scrPro arg13 harg13 (iblk m c 1 ⟨0, ht⟩) (iblk m c 2 ⟨0, ht⟩) xs) = firstSlab m c := by
    funext x
    rw [slabOf_apply]
    have hx0 : (x 0).val < 1 := (x 0).isLt
    unfold scrPro
    rw [View.read_writes_cons_unit_of_mem arg13.view _ inb_S2x10000x128_S1x10000x128_0_0_0 _ [] _ x rfl
      (fun a => by
        match a with
        | ⟨0, _⟩ => show k0_off1 (grid0.coords ⟨0, ht⟩) 0 + 1 * (x 0).val = 0 + (x 0).val; rw [off1_0]; show 0 / 25 + 1 * (x 0).val = _; omega
        | ⟨1, _⟩ => show k0_off1 (grid0.coords ⟨0, ht⟩) 1 + 1 * (x 1).val = 0 + (x 1).val; rw [off1_1]; omega
        | ⟨2, _⟩ => show k0_off1 (grid0.coords ⟨0, ht⟩) 2 + 1 * (x 2).val = 0 + (x 2).val; rw [off1_2]; omega)]
    rfl
  unfold scrFirst
  unfold known at hy
  rw [Nat.min_eq_left (by omega)] at hy
  rcases hy with ⟨ha, _⟩ | ⟨ha, hb⟩
  · -- slab 0: outside the rows' rectangle, inside the prologue's
    rw [View.read_writes_cons_unit_of_not_mem arg13.view _ (k0_off2_inb (grid0.coords ⟨0, ht⟩) hc2) _ _ y hoff 0
      (by show (y 0).val < 1 ∨ 1 + 1 ≤ (y 0).val; omega)]
    rw [View.read_writes_cons_unit_of_mem arg13.view _ inb_S2x10000x128_S1x10000x128_0_0_0 _ [] y
      (ix3 (0 : Fin 1) (⟨(y 1).val, hy1⟩ : Fin 10000) (⟨(y 2).val, hy2⟩ : Fin 128)) rfl
      (fun a => by
        match a with
        | ⟨0, _⟩ => show (y 0).val = 0 + 0; omega
        | ⟨1, _⟩ => show (y 1).val = 0 + (y 1).val; omega
        | ⟨2, _⟩ => show (y 2).val = 0 + (y 2).val; omega)]
    unfold held
    beta_reduce
    rw [if_pos ha]
    rfl
  · -- the first 400 rows of slab 1
    rw [View.read_writes_cons_unit_of_mem arg13.view _ (k0_off2_inb (grid0.coords ⟨0, ht⟩) hc2) _ _ y
      (ix3 (0 : Fin 1) (⟨(y 1).val, by omega⟩ : Fin 400) (⟨(y 2).val, hy2⟩ : Fin 128)) hoff
      (fun a => by
        match a with
        | ⟨0, _⟩ => show (y 0).val = 1 + 0; omega
        | ⟨1, _⟩ => show (y 1).val = 0 + (y 1).val; omega
        | ⟨2, _⟩ => show (y 2).val = 0 + (y 2).val; omega)]
    rw [hslab, ← blockRows_at m c ⟨0, ht⟩ (by show 0 < 25; omega)]
    unfold held
    beta_reduce
    rw [if_neg (by omega), dif_pos (by omega : (y 1).val / 400 < 25)]
    refine blockRows_congr m c (by show 0 = (y 1).val / 400; omega) _ _ (funext fun a => ?_)
    match a with
    | ⟨0, _⟩ => rfl
    | ⟨1, _⟩ => exact Fin.ext (by show (y 1).val = (y 1).val % 400; omega)
    | ⟨2, _⟩ => rfl

end Preserve

end Cert.Kernel.Body

end
-- ==== Proof.KB.RunOut.lean ====
/-
  The kernel body at a point of the second phase: every input is read and handed back, slab 1 of the scratch is loaded whole and left as found, and the output buffer, whatever it held, is overwritten whole with the block's rows.
-/
import proofs.«123332_g55173149885128_cont_9to1_m_1112_21_alg».proof.Proof.KB.RunDefs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runOut (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S400x128 .f32) (harg12 : arg12.IsWhole) (arg13 : Memref sig .tc .vmem S2x10000x128 .f32) (harg13 : arg13.IsWhole) (hc1 : ¬cond1 i) (hc2 : ¬k0_cond2 i = 1#1) (hc3 : k0_cond3 i = 1#1)
    (x0 : Vec F S400x10000 .f32) (x1 : Vec F S10000x128 .f32) (x2 : Vec F S128x128 .f32) (x3 x4 x5 x6 : Vec F S1x128 .f32) (x7 x8 : Vec F S128x128 .f32) (x9 : Vec F S1x128 .f32) (xs : Vec F S2x10000x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outBlock i x0 (slabOf i xs) x3 x4 x5 x6 x7 x8 x9) ∗ owns (c : Thread nD τ) arg13 fullShare xs) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg13.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro
      refine (read_store_whole (S := S400x128) arg12.view _ hz2 inb_S400x128_S400x128_0_0 _).trans ?_
      unfold outBlock slabOf
      simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
      View.ld_unit_zero (S := S400x10000) hz2, View.ld_unit_zero (S := S10000x128) hz2, View.ld_unit_zero (S := S128x128) hz2, View.ld_unit_zero (S := S1x128) hz2, View.ld_unit_zero (S := S400x128) hz2]
    iexists _; isplitr; · ipureintro; exact harg13.read_unread _
    iexact HS

end Cert.Kernel.Body

end
-- ==== Proof.KB.RunRows.lean ====
/-
  The kernel body at a point of the first phase other than the first: every input is read and handed back, the output buffer is left as found, slab 0 of the scratch is loaded whole and the block's 400 rows are written into slab 1.
-/
import proofs.«123332_g55173149885128_cont_9to1_m_1112_21_alg».proof.Proof.KB.RunDefs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runRows (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S400x128 .f32) (harg12 : arg12.IsWhole) (arg13 : Memref sig .tc .vmem S2x10000x128 .f32) (harg13 : arg13.IsWhole) (hc1 : ¬cond1 i) (hc2 : k0_cond2 i = 1#1) (hc3 : ¬k0_cond3 i = 1#1)
    (x0 : Vec F S400x10000 .f32) (x1 : Vec F S10000x128 .f32) (x2 : Vec F S128x128 .f32) (x3 x4 x5 x6 : Vec F S1x128 .f32) (x7 x8 : Vec F S128x128 .f32) (x9 : Vec F S1x128 .f32) (d : Vec F S400x128 .f32) (xs : Vec F S2x10000x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare (scrRows arg13 harg13 i hc2 x0 x3 x4 x5 x6 x7 x8 xs)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg12.eq_unread hf10; obtain rfl := harg13.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr
    swap; · iexact HS
    ipureintro
    unfold scrRows tailRows slabOf
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
      View.ld_unit_zero (S := S400x10000) hz2, View.ld_unit_zero (S := S10000x128) hz2, View.ld_unit_zero (S := S128x128) hz2, View.ld_unit_zero (S := S1x128) hz2, View.ld_unit_zero (S := S400x128) hz2]

end Cert.Kernel.Body

end
-- ==== Proof.KB.RunFirst.lean ====
/-
  The kernel body at the first point: slab 0 of the scratch is overwritten with the product of the node features and the first weight matrix, then loaded whole, and the block's 400 rows are written into slab 1; every input is read and handed back and the output buffer is left as found.
-/
import proofs.«123332_g55173149885128_cont_9to1_m_1112_21_alg».proof.Proof.KB.RunDefs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runFirst (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S400x128 .f32) (harg12 : arg12.IsWhole) (arg13 : Memref sig .tc .vmem S2x10000x128 .f32) (harg13 : arg13.IsWhole) (hc1 : cond1 i) (hc2 : k0_cond2 i = 1#1) (hc3 : ¬k0_cond3 i = 1#1)
    (x0 : Vec F S400x10000 .f32) (x1 : Vec F S10000x128 .f32) (x2 : Vec F S128x128 .f32) (x3 x4 x5 x6 : Vec F S1x128 .f32) (x7 x8 : Vec F S128x128 .f32) (x9 : Vec F S1x128 .f32) (d : Vec F S400x128 .f32) (xs : Vec F S2x10000x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare (scrFirst arg13 harg13 i hc2 x0 x1 x2 x3 x4 x5 x6 x7 x8 xs)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg12.eq_unread hf10; obtain rfl := harg13.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr
    swap; · iexact HS
    ipureintro
    unfold scrFirst scrPro tailRows slabOf runFirst.sl.HS_1
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
      View.ld_unit_zero (S := S400x10000) hz2, View.ld_unit_zero (S := S10000x128) hz2, View.ld_unit_zero (S := S128x128) hz2, View.ld_unit_zero (S := S1x128) hz2, View.ld_unit_zero (S := S400x128) hz2]

end Cert.Kernel.Body

end
-- ==== Proof.KB.Body.lean ====
/-
  The proof data of the fused call on one core, and the body's obligation at every grid point.
  Every input window's buffer holds its block and is handed back unchanged. The output window is idle in the first
  phase — its buffer is handed back as found and its block is not written back — and in the second phase its buffer
  is left at the block's rows, named through the payloads of the point's input blocks and of slab 1 of `held`.
  Between points the scratch is held at SOME contents that agree with `held` on the region written so far
  (`Inv`); before the first point at anything. The three cases of the body are the three runs: the first point
  establishes the invariant, the other first-phase points extend it, the second phase keeps it and reads it.
-/
import proofs.«123332_g55173149885128_cont_9to1_m_1112_21_alg».proof.Proof.KB.State
import proofs.«123332_g55173149885128_cont_9to1_m_1112_21_alg».proof.Proof.KB.RunOut
import proofs.«123332_g55173149885128_cont_9to1_m_1112_21_alg».proof.Proof.KB.RunRows
import proofs.«123332_g55173149885128_cont_9to1_m_1112_21_alg».proof.Proof.KB.RunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole scoped buffer of the kernel's own. -/
abbrev scM : Memref sig .tc .vmem S2x10000x128 .f32 := Memref.whole cc0_scratch0

/-- What the launch hands the region: the scratch at some contents and the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point n: before the first point what the launch hands over; afterwards the scratch at some
    contents agreeing with `held` on the region written so far. -/
def Phi (c : Dev nD) : ℕ → sProp 𝕄
  | 0 => Pipeline.ΦA spec0 c
  | n + 1 => iprop(iprop((∃ X, ⌜Inv m c (n + 1) X⌝ ∗ owns (c : Thread nD τ) scM fullShare X)) ∗ (∃ r, prngReg c r))

theorem Phi_pos (c : Dev nD) (n : ℕ) (hn : n ≠ 0) :
    Phi m c n = iprop(iprop((∃ X, ⌜Inv m c n X⌝ ∗ owns (c : Thread nD τ) scM fullShare X)) ∗ (∃ r, prngReg c r)) := by
  cases n with
  | zero => exact absurd rfl hn
  | succ n => rfl

/-- The output block a second-phase point leaves: the block's rows of the second layer times the head's matrix, plus the head's bias. -/
def outAt (c : Dev nD) (t : Fin cfg0.N) : Vec F S400x128 .f32 :=
  outBlock (grid0.coords t) (iblk m c 0 t) (slabOf (grid0.coords t) (held m c)) (iblk m c 3 t) (iblk m c 4 t) (iblk m c 5 t) (iblk m c 6 t) (iblk m c 7 t) (iblk m c 8 t) (iblk m c 9 t)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem Phi_castSucc (c : Dev nD) (t : Fin cfg0.N) : (dats m 0 c).Φ t.castSucc = Phi m c t.val := by
  dsimp only [dats]; simp only [Fin.coe_castSucc]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Phi m c (t.val + 1) from rfl, Phi_castSucc]
  have hN : t.val < 50 := lt_of_lt_of_eq t.isLt N50
  rw [show (dats m 0 c).leavesExact 0 t = owns (c : Thread nD τ) (st0_0 t) fullShare ((dats m 0 c).after 0 t) from by
    unfold Dat.leavesExact; rw [liveIn 0 (by decide) t], after0_0]
  rw [show (dats m 0 c).leavesExact 1 t = owns (c : Thread nD τ) (st0_1 t) fullShare ((dats m 0 c).after 1 t) from by
    unfold Dat.leavesExact; rw [liveIn 1 (by decide) t], after0_1]
  rw [show (dats m 0 c).leavesExact 2 t = owns (c : Thread nD τ) (st0_2 t) fullShare ((dats m 0 c).after 2 t) from by
    unfold Dat.leavesExact; rw [liveIn 2 (by decide) t], after0_2]
  rw [show (dats m 0 c).leavesExact 3 t = owns (c : Thread nD τ) (st0_3 t) fullShare ((dats m 0 c).after 3 t) from by
    unfold Dat.leavesExact; rw [liveIn 3 (by decide) t], after0_3]
  rw [show (dats m 0 c).leavesExact 4 t = owns (c : Thread nD τ) (st0_4 t) fullShare ((dats m 0 c).after 4 t) from by
    unfold Dat.leavesExact; rw [liveIn 4 (by decide) t], after0_4]
  rw [show (dats m 0 c).leavesExact 5 t = owns (c : Thread nD τ) (st0_5 t) fullShare ((dats m 0 c).after 5 t) from by
    unfold Dat.leavesExact; rw [liveIn 5 (by decide) t], after0_5]
  rw [show (dats m 0 c).leavesExact 6 t = owns (c : Thread nD τ) (st0_6 t) fullShare ((dats m 0 c).after 6 t) from by
    unfold Dat.leavesExact; rw [liveIn 6 (by decide) t], after0_6]
  rw [show (dats m 0 c).leavesExact 7 t = owns (c : Thread nD τ) (st0_7 t) fullShare ((dats m 0 c).after 7 t) from by
    unfold Dat.leavesExact; rw [liveIn 7 (by decide) t], after0_7]
  rw [show (dats m 0 c).leavesExact 8 t = owns (c : Thread nD τ) (st0_8 t) fullShare ((dats m 0 c).after 8 t) from by
    unfold Dat.leavesExact; rw [liveIn 8 (by decide) t], after0_8]
  rw [show (dats m 0 c).leavesExact 9 t = owns (c : Thread nD τ) (st0_9 t) fullShare ((dats m 0 c).after 9 t) from by
    unfold Dat.leavesExact; rw [liveIn 9 (by decide) t], after0_9]
  by_cases h0 : t.val = 0
  · -- the first point
    have hc1 : cond1 (grid0.coords t) := (hcond1 t).mpr h0
    have hc2 : k0_cond2 (grid0.coords t) = 1#1 := (hcond2 t).mpr (by omega)
    have hc3 : ¬k0_cond3 (grid0.coords t) = 1#1 := fun h => by have := (hcond3 t).mp h; omega
    rw [Dat.leavesExact_idle (dats m 0 c) 10 t (idle10 t (by omega)) (noFlush10 t (by omega))]
    rw [show Phi m c t.val = Pipeline.ΦA spec0 c from by rw [h0]; rfl, PhiA_eq]
    rw [show Phi m c (t.val + 1) = iprop(iprop((∃ X, ⌜Inv m c (t.val + 1) X⌝ ∗ owns (c : Thread nD τ) scM fullShare X)) ∗ (∃ r, prngReg c r)) from rfl]
    iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runFirst c (grid0.coords t) _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]
      · iexists _; isplitr
        · ipureintro
          rw [h0]
          exact inv_first m scM (Memref.isWhole_whole _) c t h0 hc2 xs
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h25 : t.val < 25
    · -- a later point of the first phase
      have hc1 : ¬cond1 (grid0.coords t) := fun h => h0 ((hcond1 t).mp h)
      have hc2 : k0_cond2 (grid0.coords t) = 1#1 := (hcond2 t).mpr h25
      have hc3 : ¬k0_cond3 (grid0.coords t) = 1#1 := fun h => by have := (hcond3 t).mp h; omega
      rw [Dat.leavesExact_idle (dats m 0 c) 10 t (idle10 t h25) (noFlush10 t h25)]
      rw [Phi_pos m c t.val h0, Phi_pos m c (t.val + 1) (by omega)]
      iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runRows c (grid0.coords t) _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) X Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hg]
      · isplitl [HS]
        · iexists _; isplitr
          · ipureintro
            exact inv_rows m scM (Memref.isWhole_whole _) c t (by omega) h25 hc2 X hX
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- the second phase
      have hc1 : ¬cond1 (grid0.coords t) := fun h => h0 ((hcond1 t).mp h)
      have hc2 : ¬k0_cond2 (grid0.coords t) = 1#1 := fun h => h25 ((hcond2 t).mp h)
      have hc3 : k0_cond3 (grid0.coords t) = 1#1 := (hcond3 t).mpr (by omega)
      rw [show (dats m 0 c).leavesExact 10 t = owns (c : Thread nD τ) (st0_10 t) fullShare ((dats m 0 c).after 10 t) from by
        unfold Dat.leavesExact; rw [live10 t (by omega)], after0_10]
      rw [Phi_pos m c t.val h0, Phi_pos m c (t.val + 1) (by omega)]
      iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runOut c (grid0.coords t) _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) (iblk m c 9 t) X Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS Hg]
      · isplitl [HS]
        · iexists _; isplitr
          · ipureintro
            exact inv_keep m c t.val (by omega) X hX
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iapply (show (owns (c : Thread nD τ) (st0_10 t) fullShare (outBlock (grid0.coords t) (iblk m c 0 t) (slabOf (grid0.coords t) X) (iblk m c 3 t) (iblk m c 4 t) (iblk m c 5 t) (iblk m c 6 t) (iblk m c 7 t) (iblk m c 8 t) (iblk m c 9 t)) : sProp 𝕄)
          ⊢ owns (c : Thread nD τ) (st0_10 t) fullShare ((dats m 0 c).after 10 t) from by
        rw [after0_10]; unfold outAt
        rw [slab_of_inv m c t t.val (by omega) (fun _ => by omega) X hX])
      iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl]
  exact Idealize.SL.BI.Entails.refl _

/-- After the last point the invariant gives it back: the scratch's contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 50 := N50; omega), PhiA_eq]
  iintro ⟨⟨%X, -, HS⟩, Hg⟩
  isplitl [HS]
  · iexists _; iexact HS
  iexact Hg

set_option backward.isDefEq.respectTransparency.types false in
/-- Every weakly fair execution of @main terminates, and every final state has each windowed array at what the proof data
    computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Body

end
-- ==== Proof.KI.Cases.lean ====
/-
  The grid of the fused call has 2 · 25 points, visited phase by phase: point t is (phase, block) = (t / 25, t % 25).
  Here the body's three tests and its two computed scratch offsets are put in closed form over the 50 points:
  the prologue runs at t = 0 only; the second scratch slab is written while t < 25 (rows 400·t … 400·t + 399);
  the output block is written when 25 ≤ t; the slab the body multiplies the adjacency by is slab t / 25.
  While t < 25 the output window is idle and its block is not written back.
-/
import proofs.«123332_g55173149885128_cont_9to1_m_1112_21_alg».proof.Proof.Gen.KernelIdeal.Frame
import proofs.«123332_g55173149885128_cont_9to1_m_1112_21_alg».proof.Proof.Gen.KernelIdeal.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test: both grid coordinates are zero. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem N50 : cfg0.N = 50 := N_0

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 25 :=
  (by decide +kernel : ∀ t : Fin grid0.N, k0_cond2 (grid0.coords t) = 1#1 ↔ t.val < 25)
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- The output window is idle exactly in the first phase, and its block is not written back there. -/
theorem idle10 : ∀ t : Fin cfg0.N, t.val < 25 → cfg0.idle 10 (grid0.coords t) = true :=
  (by decide +kernel : ∀ t : Fin grid0.N, t.val < 25 → cfg0.idle 10 (grid0.coords t) = true)
theorem live10 : ∀ t : Fin cfg0.N, 25 ≤ t.val → cfg0.idle 10 (grid0.coords t) = false :=
  (by decide +kernel : ∀ t : Fin grid0.N, 25 ≤ t.val → cfg0.idle 10 (grid0.coords t) = false)
theorem noFlush10 : ∀ t : Fin cfg0.N, t.val < 25 → (cfg0.win 10).flush t = false :=
  (by decide +kernel : ∀ t : Fin grid0.N, t.val < 25 → win0_10.flush t = false)
/-- The inputs are never idle. -/
theorem liveIn : ∀ (w : Fin 11), w.val < 10 → ∀ t : Fin cfg0.N, cfg0.idle w (grid0.coords t) = false :=
  (by decide +kernel : ∀ (w : Fin 11), w.val < 10 → ∀ t : Fin grid0.N, cfg0.idle w (grid0.coords t) = false)

/-- The grid coordinates of point t. -/
theorem coord0 : ∀ t : Fin cfg0.N, (grid0.coords t 0).val = t.val / 25 :=
  (by decide +kernel : ∀ t : Fin grid0.N, (grid0.coords t 0).val = t.val / 25)
theorem coord1 : ∀ t : Fin cfg0.N, (grid0.coords t 1).val = t.val % 25 :=
  (by decide +kernel : ∀ t : Fin grid0.N, (grid0.coords t 1).val = t.val % 25)

/-- The slab the body loads whole is slab t / 25, from its first row and column. -/
theorem off1_0 : ∀ t : Fin cfg0.N, k0_off1 (grid0.coords t) 0 = t.val / 25 :=
  (by decide +kernel : ∀ t : Fin grid0.N, k0_off1 (grid0.coords t) 0 = t.val / 25)
theorem off1_1 : ∀ t : Fin cfg0.N, k0_off1 (grid0.coords t) 1 = 0 :=
  (by decide +kernel : ∀ t : Fin grid0.N, k0_off1 (grid0.coords t) 1 = 0)
theorem off1_2 : ∀ t : Fin cfg0.N, k0_off1 (grid0.coords t) 2 = 0 :=
  (by decide +kernel : ∀ t : Fin grid0.N, k0_off1 (grid0.coords t) 2 = 0)
/-- The rows the first phase writes at point t: 400 of slab 1, from row 400 · t. -/
theorem off2_0 : ∀ t : Fin cfg0.N, k0_off2 (grid0.coords t) 0 = 1 :=
  (by decide +kernel : ∀ t : Fin grid0.N, k0_off2 (grid0.coords t) 0 = 1)
theorem off2_1 : ∀ t : Fin cfg0.N, t.val < 25 → k0_off2 (grid0.coords t) 1 = 400 * t.val :=
  (by decide +kernel : ∀ t : Fin grid0.N, t.val < 25 → k0_off2 (grid0.coords t) 1 = 400 * t.val)
theorem off2_2 : ∀ t : Fin cfg0.N, k0_off2 (grid0.coords t) 2 = 0 :=
  (by decide +kernel : ∀ t : Fin grid0.N, k0_off2 (grid0.coords t) 2 = 0)

end Cert.KernelIdeal.Body

end
-- ==== Proof.KI.RunDefs.lean ====
/-
  Names for what the kernel body computes and leaves behind at one grid point, on any whole scratch memref.
  The scratch holds two slabs of 10000 rows of 128. The body multiplies the adjacency block by ONE slab, loaded whole
  (slab 0 in the first phase, slab 1 in the second); from that product it forms 400 rows (bias, normalisation, scale and
  shift, rectifier, a 128 × 128 matrix), which the first phase writes into slab 1 at the block's rows and the second
  phase — with the head's bias added — stores as the output block. At the very first point slab 0 is first overwritten
  with the product of the node features and the first weight matrix. What the scratch holds afterwards is named as the
  stores read back over what it held before.
-/
import proofs.«123332_g55173149885128_cont_9to1_m_1112_21_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The slab the body multiplies the adjacency block by: slab (phase) of the scratch, whole. -/
def slabOf (i : grid0.Coords) (xs : Vec F S2x10000x128 .f32) : Vec F S1x10000x128 .f32 :=
  View.ld xs (Rect.unit (s := S2x10000x128) (k0_off1 i) S1x10000x128.size (k0_off1_inb i))

/-- The 400 rows a first-phase point writes into slab 1, -/
def tailRows (i : grid0.Coords) (x0 : Vec F S400x10000 .f32) (slab : Vec F S1x10000x128 .f32) (x3 x4 x5 x6 : Vec F S1x128 .f32)
    (x7 x8 : Vec F S128x128 .f32) : Vec F S1x400x128 .f32 :=
  k0_pay2 (BitVec.ofNat 32 (i 0).val) (k0_pay5 i x0 slab x3 x4) x5 x6 x7 x8
/-- and the block a second-phase point stores as output. -/
def outBlock (i : grid0.Coords) (x0 : Vec F S400x10000 .f32) (slab : Vec F S1x10000x128 .f32) (x3 x4 x5 x6 : Vec F S1x128 .f32)
    (x7 x8 : Vec F S128x128 .f32) (x9 : Vec F S1x128 .f32) : Vec F S400x128 .f32 :=
  k0_pay3 (BitVec.ofNat 32 (i 0).val) (k0_pay5 i x0 slab x3 x4) x5 x6 x7 x8 x9

section Scratch
variable (arg13 : Memref sig .tc .vmem S2x10000x128 .f32) (harg13 : arg13.IsWhole)

/-- The scratch after the prologue's store: slab 0 overwritten. -/
def scrPro (x1 : Vec F S10000x128 .f32) (x2 : Vec F S128x128 .f32) (xs : Vec F S2x10000x128 .f32) : Vec F S2x10000x128 .f32 :=
  arg13.view.read (Elt F) (arg13.view.writes (Elt F) (harg13.unread xs)
    [⟨Rect.unit (s := S2x10000x128) ![0, 0, 0] S1x10000x128.size inb_S2x10000x128_S1x10000x128_0_0_0, k0_pay4 x1 x2⟩])

/-- The scratch after a first-phase point other than the first: 400 rows of slab 1 overwritten. -/
def scrRows (i : grid0.Coords) (hc2 : k0_cond2 i = 1#1) (x0 : Vec F S400x10000 .f32) (x3 x4 x5 x6 : Vec F S1x128 .f32)
    (x7 x8 : Vec F S128x128 .f32) (xs : Vec F S2x10000x128 .f32) : Vec F S2x10000x128 .f32 :=
  arg13.view.read (Elt F) (arg13.view.writes (Elt F) (harg13.unread xs)
    [⟨Rect.unit (s := S2x10000x128) (k0_off2 i) S1x400x128.size (k0_off2_inb i hc2), tailRows i x0 (slabOf i xs) x3 x4 x5 x6 x7 x8⟩])

/-- The scratch after the first point: slab 0 overwritten, then 400 rows of slab 1, computed from the new slab. -/
def scrFirst (i : grid0.Coords) (hc2 : k0_cond2 i = 1#1) (x0 : Vec F S400x10000 .f32) (x1 : Vec F S10000x128 .f32) (x2 : Vec F S128x128 .f32)
    (x3 x4 x5 x6 : Vec F S1x128 .f32) (x7 x8 : Vec F S128x128 .f32) (xs : Vec F S2x10000x128 .f32) : Vec F S2x10000x128 .f32 :=
  arg13.view.read (Elt F) (arg13.view.writes (Elt F) (harg13.unread xs)
    [⟨Rect.unit (s := S2x10000x128) (k0_off2 i) S1x400x128.size (k0_off2_inb i hc2), tailRows i x0 (slabOf i (scrPro arg13 harg13 x1 x2 xs)) x3 x4 x5 x6 x7 x8⟩,
     ⟨Rect.unit (s := S2x10000x128) ![0, 0, 0] S1x10000x128.size inb_S2x10000x128_S1x10000x128_0_0_0, k0_pay4 x1 x2⟩])

end Scratch

theorem hz2 : (![0, 0] : Fin 2 → ℕ) = fun _ => 0 := funext fun a => by fin_cases a <;> rfl

/-- One store through the whole-shape rectangle leaves its payload, whatever the buffer held. -/
theorem read_store_whole {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, by
    subst h; show y ∈ (Rect.whole S).set; rw [Rect.set_whole]; exact Finset.mem_univ y⟩), View.canon_unit_zero h]

end Cert.KernelIdeal.Body

end
-- ==== Proof.KI.State.lean ====
/-
  What the scratch holds between grid points, as far as later points read it.
  After the first point slab 0 is the product of the node features and the first weight matrix; after point t of the
  first phase the rows 0 … 400·(t + 1) − 1 of slab 1 are the first layer's rows (times the second weight matrix), block by
  block. One total array `held` collects those values; the invariant before point n says the scratch agrees with it on the
  region written so far. A whole-slab load inside that region then reads `held`; the first point establishes the
  invariant, each later point of the first phase extends the region by its 400 rows, and the second phase keeps it.
-/
import proofs.«123332_g55173149885128_cont_9to1_m_1112_21_alg».proof.Proof.KI.RunDefs
import Idealize.ShloMosaic.Lib.ValueIdx
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- Grid point number j. -/
def pt (j : ℕ) (h : j < 50) : Fin cfg0.N := ⟨j, lt_of_lt_of_eq h N50.symm⟩

/-- Slab 0 once the first point has run: node features times first weights. -/
def firstSlab (c : Dev nD) : Vec F S1x10000x128 .f32 :=
  k0_pay4 (iblk m c 1 (pt 0 (by omega))) (iblk m c 2 (pt 0 (by omega)))

/-- The 400 rows point j of the first phase writes into slab 1. -/
def blockRows (c : Dev nD) (j : ℕ) (hj : j < 25) : Vec F S1x400x128 .f32 :=
  tailRows (grid0.coords (pt j (by omega))) (iblk m c 0 (pt j (by omega))) (firstSlab m c) (iblk m c 3 (pt j (by omega))) (iblk m c 4 (pt j (by omega)))
    (iblk m c 5 (pt j (by omega))) (iblk m c 6 (pt j (by omega))) (iblk m c 7 (pt j (by omega))) (iblk m c 8 (pt j (by omega)))

theorem blockRows_at (c : Dev nD) (t : Fin cfg0.N) (ht : t.val < 25) :
    blockRows m c t.val ht = tailRows (grid0.coords t) (iblk m c 0 t) (firstSlab m c) (iblk m c 3 t) (iblk m c 4 t) (iblk m c 5 t) (iblk m c 6 t) (iblk m c 7 t) (iblk m c 8 t) := rfl

theorem y0_lt (y : S2x10000x128.Idx) : (y 0).val < 2 := (y 0).isLt
theorem y1_lt (y : S2x10000x128.Idx) : (y 1).val < 10000 := (y 1).isLt
theorem y2_lt (y : S2x10000x128.Idx) : (y 2).val < 128 := (y 2).isLt

/-- The scratch's contents as later points read them: slab 0 the first product, slab 1 the first layer's rows by blocks. -/
def held (c : Dev nD) : Vec F S2x10000x128 .f32 := fun y =>
  if (y 0).val = 0 then firstSlab m c (ix3 (0 : Fin 1) (⟨(y 1).val, y1_lt y⟩ : Fin 10000) (⟨(y 2).val, y2_lt y⟩ : Fin 128))
  else if h : (y 1).val / 400 < 25 then
    blockRows m c ((y 1).val / 400) h (ix3 (0 : Fin 1) (⟨(y 1).val % 400, Nat.mod_lt _ (by decide)⟩ : Fin 400) (⟨(y 2).val, y2_lt y⟩ : Fin 128))
  else firstSlab m c (ix3 (0 : Fin 1) (⟨(y 1).val, y1_lt y⟩ : Fin 10000) (⟨(y 2).val, y2_lt y⟩ : Fin 128))

/-- The region written before point n: slab 0 once a point has run, and the first 400 · min n 25 rows of slab 1. -/
def known (n : ℕ) (y : S2x10000x128.Idx) : Prop :=
  ((y 0).val = 0 ∧ 1 ≤ n) ∨ ((y 0).val = 1 ∧ (y 1).val < 400 * min n 25)

/-- Before point n the scratch agrees with `held` on the region written so far. -/
def Inv (c : Dev nD) (n : ℕ) (X : Vec F S2x10000x128 .f32) : Prop := ∀ y, known n y → X y = held m c y

/-- A slab load reads the scratch at slab (phase), the same row and column. -/
theorem slabOf_apply (i : grid0.Coords) (X : Vec F S2x10000x128 .f32) (x : S1x10000x128.Idx) :
    slabOf i X x = X ((Rect.unit (s := S2x10000x128) (k0_off1 i) S1x10000x128.size (k0_off1_inb i)).idx x) := rfl

/-- Inside the written region a whole-slab load reads `held`. -/
theorem slab_of_inv (c : Dev nD) (t : Fin cfg0.N) (n : ℕ) (hn : 1 ≤ n) (h25 : 25 ≤ t.val → 25 ≤ n)
    (X : Vec F S2x10000x128 .f32) (hX : Inv m c n X) : slabOf (grid0.coords t) X = slabOf (grid0.coords t) (held m c) := by
  funext x
  rw [slabOf_apply, slabOf_apply]
  refine hX _ ?_
  have hN : t.val < 50 := lt_of_lt_of_eq t.isLt N50
  have hx0 : (x 0).val < 1 := (x 0).isLt
  have hx1 : (x 1).val < 10000 := (x 1).isLt
  have e0 : (((Rect.unit (s := S2x10000x128) (k0_off1 (grid0.coords t)) S1x10000x128.size (k0_off1_inb (grid0.coords t))).idx x) 0).val = t.val / 25 + 1 * (x 0).val := by
    rw [LoadRect.idx_apply]; show k0_off1 (grid0.coords t) 0 + 1 * (x 0).val = _; rw [off1_0]
  have e1 : (((Rect.unit (s := S2x10000x128) (k0_off1 (grid0.coords t)) S1x10000x128.size (k0_off1_inb (grid0.coords t))).idx x) 1).val = 0 + 1 * (x 1).val := by
    rw [LoadRect.idx_apply]; show k0_off1 (grid0.coords t) 1 + 1 * (x 1).val = _; rw [off1_1]
  unfold known
  by_cases ht : t.val < 25
  · left; refine ⟨?_, hn⟩; rw [e0]; omega
  · right; have := h25 (by omega); refine ⟨?_, ?_⟩
    · rw [e0]; omega
    · rw [e1]; omega

/-- In the first phase the slab loaded out of `held` is the first product. -/
theorem slab_held_first (c : Dev nD) (t : Fin cfg0.N) (ht : t.val < 25) : slabOf (grid0.coords t) (held m c) = firstSlab m c := by
  funext x
  rw [slabOf_apply]
  have hx0 : (x 0).val < 1 := (x 0).isLt
  have e0 : (((Rect.unit (s := S2x10000x128) (k0_off1 (grid0.coords t)) S1x10000x128.size (k0_off1_inb (grid0.coords t))).idx x) 0).val = t.val / 25 + 1 * (x 0).val := by
    rw [LoadRect.idx_apply]; show k0_off1 (grid0.coords t) 0 + 1 * (x 0).val = _; rw [off1_0]
  have e1 : (((Rect.unit (s := S2x10000x128) (k0_off1 (grid0.coords t)) S1x10000x128.size (k0_off1_inb (grid0.coords t))).idx x) 1).val = 0 + 1 * (x 1).val := by
    rw [LoadRect.idx_apply]; show k0_off1 (grid0.coords t) 1 + 1 * (x 1).val = _; rw [off1_1]
  have e2 : (((Rect.unit (s := S2x10000x128) (k0_off1 (grid0.coords t)) S1x10000x128.size (k0_off1_inb (grid0.coords t))).idx x) 2).val = 0 + 1 * (x 2).val := by
    rw [LoadRect.idx_apply]; show k0_off1 (grid0.coords t) 2 + 1 * (x 2).val = _; rw [off1_2]
  unfold held
  beta_reduce
  rw [if_pos (by rw [e0]; omega)]
  refine congrArg (firstSlab m c) (funext fun a => ?_)
  match a with
  | ⟨0, _⟩ => exact Fin.ext (by show 0 = (x 0).val; omega)
  | ⟨1, _⟩ => exact Fin.ext (by show _ = (x 1).val; rw [e1]; omega)
  | ⟨2, _⟩ => exact Fin.ext (by show _ = (x 2).val; rw [e2]; omega)

theorem blockRows_congr (c : Dev nD) {j j' : ℕ} (h : j = j') (hj : j < 25) (hj' : j' < 25) {x x' : S1x400x128.Idx} (hx : x = x') :
    blockRows m c j hj x = blockRows m c j' hj' x' := by subst h; subst hx; rfl

theorem inv_keep (c : Dev nD) (n : ℕ) (hn : 25 ≤ n) (X : Vec F S2x10000x128 .f32) (hX : Inv m c n X) : Inv m c (n + 1) X := by
  intro y hy
  refine hX y ?_
  unfold known at hy ⊢
  rw [Nat.min_eq_right (by omega)] at hy
  rw [Nat.min_eq_right hn]
  rcases hy with ⟨h0, _⟩ | h1
  · exact Or.inl ⟨h0, by omega⟩
  · exact Or.inr h1

section Preserve
variable (arg13 : Memref sig .tc .vmem S2x10000x128 .f32) (harg13 : arg13.IsWhole)

/-- A point t of the first phase, not the first, extends the written region by its 400 rows. -/
theorem inv_rows (c : Dev nD) (t : Fin cfg0.N) (h1 : 1 ≤ t.val) (h25 : t.val < 25) (hc2 : k0_cond2 (grid0.coords t) = 1#1)
    (X : Vec F S2x10000x128 .f32) (hX : Inv m c t.val X) :
    Inv m c (t.val + 1) (scrRows arg13 harg13 (grid0.coords t) hc2 (iblk m c 0 t) (iblk m c 3 t) (iblk m c 4 t) (iblk m c 5 t) (iblk m c 6 t) (iblk m c 7 t) (iblk m c 8 t) X) := by
  intro y hy
  have hslab : slabOf (grid0.coords t) X = firstSlab m c :=
    (slab_of_inv m c t t.val h1 (by omega) X hX).trans (slab_held_first m c t h25)
  have hoff : k0_off2 (grid0.coords t) = ![1, 400 * t.val, 0] := funext fun a => by
    match a with
    | ⟨0, _⟩ => exact off2_0 t
    | ⟨1, _⟩ => exact off2_1 t h25
    | ⟨2, _⟩ => exact off2_2 t
  have hy0 := y0_lt y; have hy1 := y1_lt y; have hy2 := y2_lt y
  unfold scrRows
  by_cases hin : (y 0).val = 1 ∧ 400 * t.val ≤ (y 1).val ∧ (y 1).val < 400 * t.val + 400
  · rw [View.read_writes_cons_unit_of_mem arg13.view _ (k0_off2_inb (grid0.coords t) hc2) _ [] y
      (ix3 (0 : Fin 1) (⟨(y 1).val - 400 * t.val, by omega⟩ : Fin 400) (⟨(y 2).val, hy2⟩ : Fin 128)) hoff
      (fun a => by
        match a with
        | ⟨0, _⟩ => show (y 0).val = 1 + 0; omega
        | ⟨1, _⟩ => show (y 1).val = 400 * t.val + ((y 1).val - 400 * t.val); omega
        | ⟨2, _⟩ => show (y 2).val = 0 + (y 2).val; omega)]
    rw [hslab, ← blockRows_at m c t h25]
    unfold held
    beta_reduce
    rw [if_neg (by omega), dif_pos (by omega : (y 1).val / 400 < 25)]
    refine blockRows_congr m c (by omega) _ _ (funext fun a => ?_)
    match a with
    | ⟨0, _⟩ => rfl
    | ⟨1, _⟩ => exact Fin.ext (by show (y 1).val - 400 * t.val = (y 1).val % 400; omega)
    | ⟨2, _⟩ => rfl
  · have hrest : arg13.view.read (Elt F) (arg13.view.writes (Elt F) (harg13.unread X)
          [⟨Rect.unit (s := S2x10000x128) (k0_off2 (grid0.coords t)) S1x400x128.size (k0_off2_inb (grid0.coords t) hc2),
            tailRows (grid0.coords t) (iblk m c 0 t) (slabOf (grid0.coords t) X) (iblk m c 3 t) (iblk m c 4 t) (iblk m c 5 t) (iblk m c 6 t) (iblk m c 7 t) (iblk m c 8 t)⟩]) y
        = X y := by
      have hr : arg13.view.read (Elt F) (arg13.view.writes (Elt F) (harg13.unread X) []) y = X y := by
        rw [View.writes_nil, harg13.read_unread]
      by_cases ha : (y 0).val = 1
      · refine (View.read_writes_cons_unit_of_not_mem arg13.view _ (k0_off2_inb (grid0.coords t) hc2) _ [] y hoff 1 ?_).trans hr
        show (y 1).val < 400 * t.val ∨ 400 * t.val + 400 ≤ (y 1).val
        omega
      · refine (View.read_writes_cons_unit_of_not_mem arg13.view _ (k0_off2_inb (grid0.coords t) hc2) _ [] y hoff 0 ?_).trans hr
        show (y 0).val < 1 ∨ 1 + 1 ≤ (y 0).val
        omega
    rw [hrest]
    refine hX y ?_
    unfold known at hy ⊢
    rw [Nat.min_eq_left (by omega)] at hy
    rw [Nat.min_eq_left (by omega)]
    rcases hy with ⟨h0, _⟩ | ⟨ha, hb⟩
    · exact Or.inl ⟨h0, h1⟩
    · exact Or.inr ⟨ha, by omega⟩

/-- The first point establishes the invariant: slab 0 and the first 400 rows of slab 1. -/
theorem inv_first (c : Dev nD) (t : Fin cfg0.N) (h0 : t.val = 0) (hc2 : k0_cond2 (grid0.coords t) = 1#1)
    (xs : Vec F S2x10000x128 .f32) :
    Inv m c 1 (scrFirst arg13 harg13 (grid0.coords t) hc2 (iblk m c 0 t) (iblk m c 1 t) (iblk m c 2 t) (iblk m c 3 t) (iblk m c 4 t) (iblk m c 5 t) (iblk m c 6 t) (iblk m c 7 t) (iblk m c 8 t) xs) := by
  obtain ⟨tv, ht⟩ := t
  dsimp only at h0
  subst h0
  intro y hy
  have hoff : k0_off2 (grid0.coords ⟨0, ht⟩) = ![1, 0, 0] := funext fun a => by
    match a with
    | ⟨0, _⟩ => exact off2_0 _
    | ⟨1, _⟩ => exact (off2_1 ⟨0, ht⟩ (by show 0 < 25; omega)).trans (by show 400 * 0 = 0; omega)
    | ⟨2, _⟩ => exact off2_2 _
  have hy0 := y0_lt y; have hy1 := y1_lt y; have hy2 := y2_lt y
  -- the slab loaded right after the prologue's store is the first product
  have hslab : slabOf (grid0.coords ⟨0, ht⟩) (scrPro arg13 harg13 (iblk m c 1 ⟨0, ht⟩) (iblk m c 2 ⟨0, ht⟩) xs) = firstSlab m c := by
    funext x
    rw [slabOf_apply]
    have hx0 : (x 0).val < 1 := (x 0).isLt
    unfold scrPro
    rw [View.read_writes_cons_unit_of_mem arg13.view _ inb_S2x10000x128_S1x10000x128_0_0_0 _ [] _ x rfl
      (fun a => by
        match a with
        | ⟨0, _⟩ => show k0_off1 (grid0.coords ⟨0, ht⟩) 0 + 1 * (x 0).val = 0 + (x 0).val; rw [off1_0]; show 0 / 25 + 1 * (x 0).val = _; omega
        | ⟨1, _⟩ => show k0_off1 (grid0.coords ⟨0, ht⟩) 1 + 1 * (x 1).val = 0 + (x 1).val; rw [off1_1]; omega
        | ⟨2, _⟩ => show k0_off1 (grid0.coords ⟨0, ht⟩) 2 + 1 * (x 2).val = 0 + (x 2).val; rw [off1_2]; omega)]
    rfl
  unfold scrFirst
  unfold known at hy
  rw [Nat.min_eq_left (by omega)] at hy
  rcases hy with ⟨ha, _⟩ | ⟨ha, hb⟩
  · -- slab 0: outside the rows' rectangle, inside the prologue's
    rw [View.read_writes_cons_unit_of_not_mem arg13.view _ (k0_off2_inb (grid0.coords ⟨0, ht⟩) hc2) _ _ y hoff 0
      (by show (y 0).val < 1 ∨ 1 + 1 ≤ (y 0).val; omega)]
    rw [View.read_writes_cons_unit_of_mem arg13.view _ inb_S2x10000x128_S1x10000x128_0_0_0 _ [] y
      (ix3 (0 : Fin 1) (⟨(y 1).val, hy1⟩ : Fin 10000) (⟨(y 2).val, hy2⟩ : Fin 128)) rfl
      (fun a => by
        match a with
        | ⟨0, _⟩ => show (y 0).val = 0 + 0; omega
        | ⟨1, _⟩ => show (y 1).val = 0 + (y 1).val; omega
        | ⟨2, _⟩ => show (y 2).val = 0 + (y 2).val; omega)]
    unfold held
    beta_reduce
    rw [if_pos ha]
    rfl
  · -- the first 400 rows of slab 1
    rw [View.read_writes_cons_unit_of_mem arg13.view _ (k0_off2_inb (grid0.coords ⟨0, ht⟩) hc2) _ _ y
      (ix3 (0 : Fin 1) (⟨(y 1).val, by omega⟩ : Fin 400) (⟨(y 2).val, hy2⟩ : Fin 128)) hoff
      (fun a => by
        match a with
        | ⟨0, _⟩ => show (y 0).val = 1 + 0; omega
        | ⟨1, _⟩ => show (y 1).val = 0 + (y 1).val; omega
        | ⟨2, _⟩ => show (y 2).val = 0 + (y 2).val; omega)]
    rw [hslab, ← blockRows_at m c ⟨0, ht⟩ (by show 0 < 25; omega)]
    unfold held
    beta_reduce
    rw [if_neg (by omega), dif_pos (by omega : (y 1).val / 400 < 25)]
    refine blockRows_congr m c (by show 0 = (y 1).val / 400; omega) _ _ (funext fun a => ?_)
    match a with
    | ⟨0, _⟩ => rfl
    | ⟨1, _⟩ => exact Fin.ext (by show (y 1).val = (y 1).val % 400; omega)
    | ⟨2, _⟩ => rfl

end Preserve

end Cert.KernelIdeal.Body

end
-- ==== Proof.KI.RunOut.lean ====
/-
  The kernel body at a point of the second phase: every input is read and handed back, slab 1 of the scratch is loaded whole and left as found, and the output buffer, whatever it held, is overwritten whole with the block's rows.
-/
import proofs.«123332_g55173149885128_cont_9to1_m_1112_21_alg».proof.Proof.KI.RunDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runOut (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S400x128 .f32) (harg12 : arg12.IsWhole) (arg13 : Memref sig .tc .vmem S2x10000x128 .f32) (harg13 : arg13.IsWhole) (hc1 : ¬cond1 i) (hc2 : ¬k0_cond2 i = 1#1) (hc3 : k0_cond3 i = 1#1)
    (x0 : Vec F S400x10000 .f32) (x1 : Vec F S10000x128 .f32) (x2 : Vec F S128x128 .f32) (x3 x4 x5 x6 : Vec F S1x128 .f32) (x7 x8 : Vec F S128x128 .f32) (x9 : Vec F S1x128 .f32) (xs : Vec F S2x10000x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outBlock i x0 (slabOf i xs) x3 x4 x5 x6 x7 x8 x9) ∗ owns (c : Thread nD τ) arg13 fullShare xs) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg13.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro
      refine (read_store_whole (S := S400x128) arg12.view _ hz2 inb_S400x128_S400x128_0_0 _).trans ?_
      unfold outBlock slabOf
      simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
      View.ld_unit_zero (S := S400x10000) hz2, View.ld_unit_zero (S := S10000x128) hz2, View.ld_unit_zero (S := S128x128) hz2, View.ld_unit_zero (S := S1x128) hz2, View.ld_unit_zero (S := S400x128) hz2]
    iexists _; isplitr; · ipureintro; exact harg13.read_unread _
    iexact HS

end Cert.KernelIdeal.Body

end
-- ==== Proof.KI.RunRows.lean ====
/-
  The kernel body at a point of the first phase other than the first: every input is read and handed back, the output buffer is left as found, slab 0 of the scratch is loaded whole and the block's 400 rows are written into slab 1.
-/
import proofs.«123332_g55173149885128_cont_9to1_m_1112_21_alg».proof.Proof.KI.RunDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runRows (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S400x128 .f32) (harg12 : arg12.IsWhole) (arg13 : Memref sig .tc .vmem S2x10000x128 .f32) (harg13 : arg13.IsWhole) (hc1 : ¬cond1 i) (hc2 : k0_cond2 i = 1#1) (hc3 : ¬k0_cond3 i = 1#1)
    (x0 : Vec F S400x10000 .f32) (x1 : Vec F S10000x128 .f32) (x2 : Vec F S128x128 .f32) (x3 x4 x5 x6 : Vec F S1x128 .f32) (x7 x8 : Vec F S128x128 .f32) (x9 : Vec F S1x128 .f32) (d : Vec F S400x128 .f32) (xs : Vec F S2x10000x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare (scrRows arg13 harg13 i hc2 x0 x3 x4 x5 x6 x7 x8 xs)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg12.eq_unread hf10; obtain rfl := harg13.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr
    swap; · iexact HS
    ipureintro
    unfold scrRows tailRows slabOf
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
      View.ld_unit_zero (S := S400x10000) hz2, View.ld_unit_zero (S := S10000x128) hz2, View.ld_unit_zero (S := S128x128) hz2, View.ld_unit_zero (S := S1x128) hz2, View.ld_unit_zero (S := S400x128) hz2]

end Cert.KernelIdeal.Body

end
-- ==== Proof.KI.RunFirst.lean ====
/-
  The kernel body at the first point: slab 0 of the scratch is overwritten with the product of the node features and the first weight matrix, then loaded whole, and the block's 400 rows are written into slab 1; every input is read and handed back and the output buffer is left as found.
-/
import proofs.«123332_g55173149885128_cont_9to1_m_1112_21_alg».proof.Proof.KI.RunDefs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runFirst (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S400x128 .f32) (harg12 : arg12.IsWhole) (arg13 : Memref sig .tc .vmem S2x10000x128 .f32) (harg13 : arg13.IsWhole) (hc1 : cond1 i) (hc2 : k0_cond2 i = 1#1) (hc3 : ¬k0_cond3 i = 1#1)
    (x0 : Vec F S400x10000 .f32) (x1 : Vec F S10000x128 .f32) (x2 : Vec F S128x128 .f32) (x3 x4 x5 x6 : Vec F S1x128 .f32) (x7 x8 : Vec F S128x128 .f32) (x9 : Vec F S1x128 .f32) (d : Vec F S400x128 .f32) (xs : Vec F S2x10000x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare d ∗ owns (c : Thread nD τ) arg13 fullShare (scrFirst arg13 harg13 i hc2 x0 x1 x2 x3 x4 x5 x6 x7 x8 xs)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
    simp only [cc0__fused_kernel_eq_skeleton]; unfold cc0__fused_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    obtain rfl := harg11.eq_unread hf9; obtain rfl := harg12.eq_unread hf10; obtain rfl := harg13.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr
    swap; · iexact HS
    ipureintro
    unfold scrFirst scrPro tailRows slabOf runFirst.sl.HS_1
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread,
      View.ld_unit_zero (S := S400x10000) hz2, View.ld_unit_zero (S := S10000x128) hz2, View.ld_unit_zero (S := S128x128) hz2, View.ld_unit_zero (S := S1x128) hz2, View.ld_unit_zero (S := S400x128) hz2]

end Cert.KernelIdeal.Body

end
-- ==== Proof.KI.Body.lean ====
/-
  The proof data of the fused call on one core, and the body's obligation at every grid point.
  Every input window's buffer holds its block and is handed back unchanged. The output window is idle in the first
  phase — its buffer is handed back as found and its block is not written back — and in the second phase its buffer
  is left at the block's rows, named through the payloads of the point's input blocks and of slab 1 of `held`.
  Between points the scratch is held at SOME contents that agree with `held` on the region written so far
  (`Inv`); before the first point at anything. The three cases of the body are the three runs: the first point
  establishes the invariant, the other first-phase points extend it, the second phase keeps it and reads it.
-/
import proofs.«123332_g55173149885128_cont_9to1_m_1112_21_alg».proof.Proof.KI.State
import proofs.«123332_g55173149885128_cont_9to1_m_1112_21_alg».proof.Proof.KI.RunOut
import proofs.«123332_g55173149885128_cont_9to1_m_1112_21_alg».proof.Proof.KI.RunRows
import proofs.«123332_g55173149885128_cont_9to1_m_1112_21_alg».proof.Proof.KI.RunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole scoped buffer of the kernel's own. -/
abbrev scM : Memref sig .tc .vmem S2x10000x128 .f32 := Memref.whole cc0_scratch0

/-- What the launch hands the region: the scratch at some contents and the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The invariant before point n: before the first point what the launch hands over; afterwards the scratch at some
    contents agreeing with `held` on the region written so far. -/
def Phi (c : Dev nD) : ℕ → sProp 𝕄
  | 0 => Pipeline.ΦA spec0 c
  | n + 1 => iprop(iprop((∃ X, ⌜Inv m c (n + 1) X⌝ ∗ owns (c : Thread nD τ) scM fullShare X)) ∗ (∃ r, prngReg c r))

theorem Phi_pos (c : Dev nD) (n : ℕ) (hn : n ≠ 0) :
    Phi m c n = iprop(iprop((∃ X, ⌜Inv m c n X⌝ ∗ owns (c : Thread nD τ) scM fullShare X)) ∗ (∃ r, prngReg c r)) := by
  cases n with
  | zero => exact absurd rfl hn
  | succ n => rfl

/-- The output block a second-phase point leaves: the block's rows of the second layer times the head's matrix, plus the head's bias. -/
def outAt (c : Dev nD) (t : Fin cfg0.N) : Vec F S400x128 .f32 :=
  outBlock (grid0.coords t) (iblk m c 0 t) (slabOf (grid0.coords t) (held m c)) (iblk m c 3 t) (iblk m c 4 t) (iblk m c 5 t) (iblk m c 6 t) (iblk m c 7 t) (iblk m c 8 t) (iblk m c 9 t)

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem Phi_castSucc (c : Dev nD) (t : Fin cfg0.N) : (dats m 0 c).Φ t.castSucc = Phi m c t.val := by
  dsimp only [dats]; simp only [Fin.coe_castSucc]

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Phi m c (t.val + 1) from rfl, Phi_castSucc]
  have hN : t.val < 50 := lt_of_lt_of_eq t.isLt N50
  rw [show (dats m 0 c).leavesExact 0 t = owns (c : Thread nD τ) (st0_0 t) fullShare ((dats m 0 c).after 0 t) from by
    unfold Dat.leavesExact; rw [liveIn 0 (by decide) t], after0_0]
  rw [show (dats m 0 c).leavesExact 1 t = owns (c : Thread nD τ) (st0_1 t) fullShare ((dats m 0 c).after 1 t) from by
    unfold Dat.leavesExact; rw [liveIn 1 (by decide) t], after0_1]
  rw [show (dats m 0 c).leavesExact 2 t = owns (c : Thread nD τ) (st0_2 t) fullShare ((dats m 0 c).after 2 t) from by
    unfold Dat.leavesExact; rw [liveIn 2 (by decide) t], after0_2]
  rw [show (dats m 0 c).leavesExact 3 t = owns (c : Thread nD τ) (st0_3 t) fullShare ((dats m 0 c).after 3 t) from by
    unfold Dat.leavesExact; rw [liveIn 3 (by decide) t], after0_3]
  rw [show (dats m 0 c).leavesExact 4 t = owns (c : Thread nD τ) (st0_4 t) fullShare ((dats m 0 c).after 4 t) from by
    unfold Dat.leavesExact; rw [liveIn 4 (by decide) t], after0_4]
  rw [show (dats m 0 c).leavesExact 5 t = owns (c : Thread nD τ) (st0_5 t) fullShare ((dats m 0 c).after 5 t) from by
    unfold Dat.leavesExact; rw [liveIn 5 (by decide) t], after0_5]
  rw [show (dats m 0 c).leavesExact 6 t = owns (c : Thread nD τ) (st0_6 t) fullShare ((dats m 0 c).after 6 t) from by
    unfold Dat.leavesExact; rw [liveIn 6 (by decide) t], after0_6]
  rw [show (dats m 0 c).leavesExact 7 t = owns (c : Thread nD τ) (st0_7 t) fullShare ((dats m 0 c).after 7 t) from by
    unfold Dat.leavesExact; rw [liveIn 7 (by decide) t], after0_7]
  rw [show (dats m 0 c).leavesExact 8 t = owns (c : Thread nD τ) (st0_8 t) fullShare ((dats m 0 c).after 8 t) from by
    unfold Dat.leavesExact; rw [liveIn 8 (by decide) t], after0_8]
  rw [show (dats m 0 c).leavesExact 9 t = owns (c : Thread nD τ) (st0_9 t) fullShare ((dats m 0 c).after 9 t) from by
    unfold Dat.leavesExact; rw [liveIn 9 (by decide) t], after0_9]
  by_cases h0 : t.val = 0
  · -- the first point
    have hc1 : cond1 (grid0.coords t) := (hcond1 t).mpr h0
    have hc2 : k0_cond2 (grid0.coords t) = 1#1 := (hcond2 t).mpr (by omega)
    have hc3 : ¬k0_cond3 (grid0.coords t) = 1#1 := fun h => by have := (hcond3 t).mp h; omega
    rw [Dat.leavesExact_idle (dats m 0 c) 10 t (idle10 t (by omega)) (noFlush10 t (by omega))]
    rw [show Phi m c t.val = Pipeline.ΦA spec0 c from by rw [h0]; rfl, PhiA_eq]
    rw [show Phi m c (t.val + 1) = iprop(iprop((∃ X, ⌜Inv m c (t.val + 1) X⌝ ∗ owns (c : Thread nD τ) scM fullShare X)) ∗ (∃ r, prngReg c r)) from rfl]
    iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runFirst c (grid0.coords t) _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hg]
    · isplitl [HS]
      · iexists _; isplitr
        · ipureintro
          rw [h0]
          exact inv_first m scM (Memref.isWhole_whole _) c t h0 hc2 xs
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h25 : t.val < 25
    · -- a later point of the first phase
      have hc1 : ¬cond1 (grid0.coords t) := fun h => h0 ((hcond1 t).mp h)
      have hc2 : k0_cond2 (grid0.coords t) = 1#1 := (hcond2 t).mpr h25
      have hc3 : ¬k0_cond3 (grid0.coords t) = 1#1 := fun h => by have := (hcond3 t).mp h; omega
      rw [Dat.leavesExact_idle (dats m 0 c) 10 t (idle10 t h25) (noFlush10 t h25)]
      rw [Phi_pos m c t.val h0, Phi_pos m c (t.val + 1) (by omega)]
      iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runRows c (grid0.coords t) _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) X Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, H5, H6, H7, H8, H9, H10, HS⟩
      isplitl [HS Hg]
      · isplitl [HS]
        · iexists _; isplitr
          · ipureintro
            exact inv_rows m scM (Memref.isWhole_whole _) c t (by omega) h25 hc2 X hX
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- the second phase
      have hc1 : ¬cond1 (grid0.coords t) := fun h => h0 ((hcond1 t).mp h)
      have hc2 : ¬k0_cond2 (grid0.coords t) = 1#1 := fun h => h25 ((hcond2 t).mp h)
      have hc3 : k0_cond3 (grid0.coords t) = 1#1 := (hcond3 t).mpr (by omega)
      rw [show (dats m 0 c).leavesExact 10 t = owns (c : Thread nD τ) (st0_10 t) fullShare ((dats m 0 c).after 10 t) from by
        unfold Dat.leavesExact; rw [live10 t (by omega)], after0_10]
      rw [Phi_pos m c t.val h0, Phi_pos m c (t.val + 1) (by omega)]
      iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runOut c (grid0.coords t) _ _ _ _ _ _ _ _ _ _ _ _ _ _ _ _ _ _ _ _ _ _ _ _ hc1 hc2 hc3 (iblk m c 0 t) (iblk m c 1 t) (iblk m c 2 t) (iblk m c 3 t) (iblk m c 4 t) (iblk m c 5 t) (iblk m c 6 t) (iblk m c 7 t) (iblk m c 8 t) (iblk m c 9 t) X Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS Hg]
      · isplitl [HS]
        · iexists _; isplitr
          · ipureintro
            exact inv_keep m c t.val (by omega) X hX
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iapply (show (owns (c : Thread nD τ) (st0_10 t) fullShare (outBlock (grid0.coords t) (iblk m c 0 t) (slabOf (grid0.coords t) X) (iblk m c 3 t) (iblk m c 4 t) (iblk m c 5 t) (iblk m c 6 t) (iblk m c 7 t) (iblk m c 8 t) (iblk m c 9 t)) : sProp 𝕄)
          ⊢ owns (c : Thread nD τ) (st0_10 t) fullShare ((dats m 0 c).after 10 t) from by
        rw [after0_10]; unfold outAt
        rw [slab_of_inv m c t t.val (by omega) (fun _ => by omega) X hX])
      iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl]
  exact Idealize.SL.BI.Entails.refl _

/-- After the last point the invariant gives it back: the scratch's contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 50 := N50; omega), PhiA_eq]
  iintro ⟨⟨%X, -, HS⟩, Hg⟩
  isplitl [HS]
  · iexists _; iexact HS
  iexact Hg

set_option backward.isDefEq.respectTransparency.types false in
/-- Every weakly fair execution of @main terminates, and every final state has each windowed array at what the proof data
    computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Body

end
-- ==== Proof.Spec.lean ====
/-
  Two graph-convolution layers and a linear head over the extended reals, entry by entry.

  A layer takes node features s (one row of 128 per node), mixes them along the graph by the dense adjacency
  (row r of the result is the adjacency's row r times s, plus a bias row), normalises each node's row to mean zero and
  variance one over its 128 channels (the variance shifted by a small positive constant before the inverse square root),
  applies a per-channel scale and shift and the leaky rectifier (x for x ≥ 0, a small slope times x otherwise), and
  multiplies by the next weight matrix. Two such layers and a final bias give the result.

  The normalisation step is a parameter: one program multiplies the deviation by the inverse square root of the shifted
  variance, the other divides it by the square root. The shifted variance is positive — a sum of squares is nonnegative
  on the extended reals even at the infinities — and at a positive argument (a positive real or +∞) the two agree,
  whatever the deviation: `normMul_eq_normDiv`, and with it `layers_eq`.
-/
import Idealize.ShloMosaic.Lib.ValueIdx
import Idealize.ShloMosaic.PureOps.Ideal
import Idealize.ShloMosaic.PureOps.Ideal.Laws

noncomputable section

namespace Cert.Gcn

open Idealize.ShloMosaic Idealize.ShloMosaic.ValueIdx

/-- A rank-two array read by coordinates. -/
def mat {A B : Nat} (v : (⟨2, ![A, B]⟩ : Shape).Idx → EReal) (p : Fin A) (q : Fin B) : EReal := v (ix2 p q)
/-- A rank-one array read by its coordinate. -/
def vec {A : Nat} (v : (⟨1, ![A]⟩ : Shape).Idx → EReal) (q : Fin A) : EReal := v (ix1 q)

/-- The channel count 128, the variance shift and the rectifier's slope, each the value of its binary pattern. -/
def chan : EReal := Ideal.ofBits .f32 0x43000000#32
def shift : EReal := Ideal.ofBits .f32 0x3727C5AC#32
def slope : EReal := Ideal.ofBits .f32 0x3C23D70A#32
def zero : EReal := Ideal.ofBits .f32 0x00000000#32

/-- The matrix product: entry (p, q) is the sum over k of l (p, k) · r (k, q). -/
def mm {M K N : Nat} (l : Fin M → Fin K → EReal) (r : Fin K → Fin N → EReal) (p : Fin M) (q : Fin N) : EReal :=
  ∑ k : Fin K, l p k * r k q

/-- A row's mean over its 128 channels, its deviations from the mean, and the mean of their squares. -/
def mean (h : Fin 128 → EReal) : EReal := Ideal.div (∑ q : Fin 128, h q) chan
def dev (h : Fin 128 → EReal) (q : Fin 128) : EReal := h q - mean h
def var (h : Fin 128 → EReal) : EReal := Ideal.div (∑ q : Fin 128, dev h q * dev h q) chan

/-- The normalised row, the deviation TIMES the inverse square root of the shifted variance, -/
def normMul (h : Fin 128 → EReal) (q : Fin 128) : EReal := dev h q * Ideal.rsqrt (var h + shift)
/-- and the deviation DIVIDED BY the square root of the shifted variance. -/
def normDiv (h : Fin 128 → EReal) (q : Fin 128) : EReal := Ideal.div (dev h q) (Ideal.sqrt (var h + shift))

/-- The leaky rectifier: x where x ≥ 0, slope · x elsewhere. -/
def lrelu (x : EReal) : EReal := Scalar.select (FloatOps.cmpf (F := Ideal) (φ := .f32) .oge x zero) x (slope * x)

/-- A node's activated row: normalise, scale and shift per channel, rectify. -/
def act (n : (Fin 128 → EReal) → Fin 128 → EReal) (γ β : Fin 128 → EReal) (h : Fin 128 → EReal) (q : Fin 128) : EReal :=
  lrelu (n h q * γ q + β q)

/-- The graph mixing of node features s with a bias row: row r is the adjacency's row r times s, plus b. -/
def conv {N : Nat} (adj : Fin N → Fin N → EReal) (s : Fin N → Fin 128 → EReal) (b : Fin 128 → EReal) (r : Fin N) (q : Fin 128) : EReal :=
  mm adj s r q + b q

/-- One layer after the mixing: the activated rows times the next weight matrix. -/
def tail {N : Nat} (n : (Fin 128 → EReal) → Fin 128 → EReal) (γ β : Fin 128 → EReal) (w : Fin 128 → Fin 128 → EReal)
    (h : Fin N → Fin 128 → EReal) (r : Fin N) (q : Fin 128) : EReal :=
  mm (fun r' => act n γ β (h r')) w r q

/-- The two layers and the head, over any normalisation step `n`. -/
def layers {N : Nat} (n : (Fin 128 → EReal) → Fin 128 → EReal)
    (x : Fin N → Fin 128 → EReal) (adj : Fin N → Fin N → EReal) (w1 : Fin 128 → Fin 128 → EReal) (b1 : Fin 128 → EReal)
    (w2 : Fin 128 → Fin 128 → EReal) (b2 γ β : Fin 128 → EReal) (w3 : Fin 128 → Fin 128 → EReal) (b3 : Fin 128 → EReal)
    (r : Fin N) (q : Fin 128) : EReal :=
  tail n γ β w3 (conv adj (tail n γ β w2 (conv adj (mm x w1) b1)) b2) r q + b3 q

end Cert.Gcn

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.PayloadRead.lean ====
/-
  The kernel body's arithmetic read entry by entry, over the extended reals.

  Each value the body stores is a composition of whole-array operations. Read at one output entry it becomes a
  formula in the entries of its operands: a matrix product is the sum over the shared index, a shape cast that adds
  or drops a leading axis of extent one keeps every entry where it is, a row [1, 128] repeated over 400 rows is read
  at its one row, a column [400, 1] repeated over 128 channels is read at its one column, and a sum over the channel
  axis is the sum of the row's 128 entries. Composed, these give the specification's per-row normalisation, its
  rectifier and its matrix products.
-/
import proofs.«123332_g55173149885128_cont_9to1_m_1112_21_alg».proof.Proof.Gen.KernelIdeal.Skeleton
import proofs.«123332_g55173149885128_cont_9to1_m_1112_21_alg».proof.Proof.Spec
import proofs.«123332_g55173149885128_cont_9to1_m_1112_21_alg».proof.Proof.LibPlainDot
import proofs.«123332_g55173149885128_cont_9to1_m_1112_21_alg».proof.Proof.LibColumn
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The first layer's features: the product of the node features with the first weight matrix, stored as one slab
    [1, 10000, 128]; entry (0, r, q) of the slab is entry (r, q) of the product. -/
theorem pay4_apply (x : FVec Ideal S10000x128 .f32) (w : FVec Ideal S128x128 .f32) (r : Fin 10000) (q : Fin 128) :
    k0_pay4 (F := Ideal) x w (ix3 (0 : Fin 1) r q) = Cert.Gcn.mm (Cert.Gcn.mat x) (Cert.Gcn.mat w) r q := by
  unfold k0_pay4
  refine (shapeCast_ab_1ab_apply _ _ (0 : Fin 1) r q).trans ?_
  exact Cert.Lib.matmul_zero_apply _ none x w r q

/-! ## The mixed rows and their normalisation -/

/-- A row's sum over its 128 channels, kept as a column [400, 1]. -/
def colSum (h : FVec Ideal S400x128 .f32) : FVec Ideal S400x1 .f32 :=
  shapeCast S400x1 (multiReduction (F := Ideal) .add [1] S400 h 0x00000000#32 reduces_S400x128_S400 (.inl rfl) rfl)
    shapeCasts_S400_S400x1

/-- The column of sums at row p is the sum of row p's entries. -/
theorem colSum_apply (h : FVec Ideal S400x128 .f32) (p : Fin 400) (u : Fin 1) :
    colSum h (ix2 p u) = ∑ k : Fin 128, h (ix2 p k) := by
  unfold colSum
  refine (Cert.Lib.shapeCast_a_a1_apply _ _ p u).trans ?_
  refine (Ideal.multiReduction_add_single h 0x00000000#32 reduces_S400x128_S400 (.inl rfl) rfl (ix1 p)).trans ?_
  show ∑ k : Fin 128, h (reduces_S400x128_S400.lift (ix1 p) k) = _
  refine Finset.sum_congr rfl fun k _ => congrArg h ?_
  funext a
  match a with
  | ⟨0, _⟩ => exact Fin.ext rfl
  | ⟨1, _⟩ => exact Fin.ext rfl

/-- A row's mean over its 128 channels, as a column: the column of sums divided by the channel count. -/
def colMean (h : FVec Ideal S400x128 .f32) : FVec Ideal S400x1 .f32 :=
  divf (colSum h) (broadcast S400x1 (Scalar.ofBits (F := Ideal) .f32 0x43000000#32))

theorem colMean_apply (h : FVec Ideal S400x128 .f32) (p : Fin 400) (u : Fin 1) :
    colMean h (ix2 p u) = Cert.Gcn.mean (fun q' => h (ix2 p q')) := by
  unfold colMean Cert.Gcn.mean
  show Ideal.div (colSum h (ix2 p u)) Cert.Gcn.chan = _
  rw [colSum_apply]

/-- The deviations of every entry from its row's mean. -/
def devs (h : FVec Ideal S400x128 .f32) : FVec Ideal S400x128 .f32 :=
  subf h (broadcastTo S400x128 (colMean h) broadcasts_S400x1_S400x128)

theorem devs_apply (h : FVec Ideal S400x128 .f32) (p : Fin 400) (c : Fin 128) :
    devs h (ix2 p c) = Cert.Gcn.dev (fun q' => h (ix2 p q')) c := by
  unfold devs Cert.Gcn.dev
  show h (ix2 p c) - broadcastTo S400x128 (colMean h) broadcasts_S400x1_S400x128 (ix2 p c) = _
  rw [Cert.Lib.broadcastTo_a1_ab_apply, colMean_apply]

/-- The inverse square root of each row's shifted variance, as a column. -/
def invDev (h : FVec Ideal S400x128 .f32) : FVec Ideal S400x1 .f32 :=
  rsqrt (addf (colMean (mulf (devs h) (devs h))) (broadcast S400x1 (Scalar.ofBits (F := Ideal) .f32 0x3727C5AC#32)))

theorem invDev_apply (h : FVec Ideal S400x128 .f32) (p : Fin 400) (u : Fin 1) :
    invDev h (ix2 p u) = Ideal.rsqrt (Cert.Gcn.var (fun q' => h (ix2 p q')) + Cert.Gcn.shift) := by
  unfold invDev
  show Ideal.rsqrt (colMean (mulf (devs h) (devs h)) (ix2 p u) + Cert.Gcn.shift) = _
  rw [colMean_apply]
  unfold Cert.Gcn.var Cert.Gcn.mean
  refine congrArg (fun z => Ideal.rsqrt (Ideal.div z Cert.Gcn.chan + Cert.Gcn.shift)) ?_
  refine Finset.sum_congr rfl fun k _ => ?_
  show devs h (ix2 p k) * devs h (ix2 p k) = _
  rw [devs_apply]

/-- The normalised rows: every deviation times its row's inverse square root of the shifted variance. -/
def normRows (h : FVec Ideal S400x128 .f32) : FVec Ideal S400x128 .f32 :=
  mulf (devs h) (broadcastTo S400x128 (invDev h) broadcasts_S400x1_S400x128)

theorem normRows_apply (h : FVec Ideal S400x128 .f32) (p : Fin 400) (q : Fin 128) :
    normRows h (ix2 p q) = Cert.Gcn.normMul (fun q' => h (ix2 p q')) q := by
  unfold normRows Cert.Gcn.normMul
  show devs h (ix2 p q) * broadcastTo S400x128 (invDev h) broadcasts_S400x1_S400x128 (ix2 p q) = _
  rw [Cert.Lib.broadcastTo_a1_ab_apply, devs_apply, invDev_apply]

/-- The graph mixing of a block of 400 rows: the adjacency block times the node features held as one slab
    [1, 10000, 128], plus the bias row of the layer the grid's first coordinate names. -/
def mixRows (i : grid0.Coords) (a : FVec Ideal S400x10000 .f32) (s : FVec Ideal S1x10000x128 .f32)
    (b1 b2 : FVec Ideal S1x128 .f32) : FVec Ideal S400x128 .f32 :=
  addf (matmul dot_S400x10000_S10000x128_S400x128_1_0_0_1_n_n none a
      (shapeCast S10000x128 s shapeCasts_S1x10000x128_S10000x128) (constant (F := Ideal) S400x128 .f32 0x00000000#32))
    (broadcastTo S400x128
      (Scalar.select (Scalar.cmpi .eq (BitVec.ofNat 32 (i 0).val) 0#32) (shapeCast S1x128 b1 shapeCasts_S1x128_S1x128)
        (shapeCast S1x128 b2 shapeCasts_S1x128_S1x128))
      broadcasts_S1x128_S400x128)

theorem mixRows_apply (i : grid0.Coords) (a : FVec Ideal S400x10000 .f32) (s : FVec Ideal S1x10000x128 .f32)
    (b1 b2 : FVec Ideal S1x128 .f32) (p : Fin 400) (q : Fin 128) :
    mixRows i a s b1 b2 (ix2 p q)
      = (∑ k : Fin 10000, a (ix2 p k) * s (ix3 (0 : Fin 1) k q)) + (if (i 0).val = 0 then b1 else b2) (ix2 (0 : Fin 1) q) := by
  unfold mixRows
  refine congrArg₂ (· + ·) ?_ ?_
  · refine (Cert.Lib.matmul_zero_apply _ none a _ p q).trans ?_
    refine Finset.sum_congr rfl fun k _ => congrArg (a (ix2 p k) * ·) ?_
    exact shapeCast_1ab_ab_apply s _ k q
  · refine (broadcastTo_1b_ab_apply _ _ p q).trans ?_
    rw [shapeCast_self, shapeCast_self]
    have hi : (i 0).val < 2 := (i 0).isLt
    have hsel : Scalar.select (Scalar.cmpi .eq (BitVec.ofNat 32 (i 0).val) 0#32) b1 b2
        = if (i 0).val = 0 then b1 else b2 := select_eq0 (i 0).val hi b1 b2
    rw [hsel]

/-- The body's normalised rows are the normalisation of its mixed rows: the same operations, grouped. -/
theorem pay5_eq (i : grid0.Coords) (a : FVec Ideal S400x10000 .f32) (s : FVec Ideal S1x10000x128 .f32)
    (b1 b2 : FVec Ideal S1x128 .f32) : k0_pay5 (F := Ideal) i a s b1 b2 = normRows (mixRows i a s b1 b2) := rfl

/-- The body's normalised block at (p, q): the specification's normalisation of the mixed row p, at channel q. -/
theorem pay5_apply (i : grid0.Coords) (a : FVec Ideal S400x10000 .f32) (s : FVec Ideal S1x10000x128 .f32)
    (b1 b2 : FVec Ideal S1x128 .f32) (p : Fin 400) (q : Fin 128) :
    k0_pay5 (F := Ideal) i a s b1 b2 (ix2 p q)
      = Cert.Gcn.normMul (fun q' => (∑ k : Fin 10000, a (ix2 p k) * s (ix3 (0 : Fin 1) k q'))
          + (if (i 0).val = 0 then b1 else b2) (ix2 (0 : Fin 1) q')) q := by
  rw [pay5_eq, normRows_apply]
  exact congrArg (fun f => Cert.Gcn.normMul f q) (funext fun q' => mixRows_apply i a s b1 b2 p q')

/-! ## The activated rows times the next weight matrix -/

/-- A select on the test "x = y" of two words is the choice by that equation. -/
theorem select_cmpi_eq {α : Type} (x y : BitVec 32) (A B : α) :
    Scalar.select (Scalar.cmpi .eq x y) A B = if x = y then A else B := by
  show (if BitVec.ofBool (x == y) = 1#1 then A else B) = _
  by_cases h : x = y
  · rw [if_pos h, if_pos (by rw [beq_iff_eq.mpr h]; rfl)]
  · rw [if_neg h, if_neg (by rw [beq_eq_false_iff_ne.mpr h]; decide)]

/-- The per-channel scale and shift of every row: entry (p, k) times the scale's entry k, plus the shift's entry k. -/
def affRows (v : FVec Ideal S400x128 .f32) (g bt : FVec Ideal S1x128 .f32) : FVec Ideal S400x128 .f32 :=
  addf (mulf v (broadcastTo S400x128 (shapeCast S1x128 g shapeCasts_S1x128_S1x128) broadcasts_S1x128_S400x128))
    (broadcastTo S400x128 (shapeCast S1x128 bt shapeCasts_S1x128_S1x128) broadcasts_S1x128_S400x128)

theorem affRows_apply (v : FVec Ideal S400x128 .f32) (g bt : FVec Ideal S1x128 .f32) (p : Fin 400) (k : Fin 128) :
    affRows v g bt (ix2 p k) = v (ix2 p k) * g (ix2 (0 : Fin 1) k) + bt (ix2 (0 : Fin 1) k) := by
  unfold affRows
  show v (ix2 p k) * broadcastTo S400x128 (shapeCast S1x128 g shapeCasts_S1x128_S1x128) broadcasts_S1x128_S400x128 (ix2 p k)
      + broadcastTo S400x128 (shapeCast S1x128 bt shapeCasts_S1x128_S1x128) broadcasts_S1x128_S400x128 (ix2 p k) = _
  rw [broadcastTo_1b_ab_apply, broadcastTo_1b_ab_apply, shapeCast_self, shapeCast_self]

/-- The leaky rectifier applied to every entry: the entry where it is at least zero, the slope times it elsewhere. -/
def rectRows (z : FVec Ideal S400x128 .f32) : FVec Ideal S400x128 .f32 :=
  select (cmpf .oge z (broadcast S400x128 (Scalar.ofBits (F := Ideal) .f32 0x00000000#32))) z
    (mulf (broadcast S400x128 (Scalar.ofBits (F := Ideal) .f32 0x3C23D70A#32)) z)

theorem rectRows_apply (z : FVec Ideal S400x128 .f32) (j : S400x128.Idx) : rectRows z j = Cert.Gcn.lrelu (z j) := rfl

/-- The body's last product is the rectified, scaled and shifted rows times the weight matrix the first grid
    coordinate's word selects: the same operations, grouped. -/
theorem pay1_eq (arg0 : BitVec 32) (v35 : FVec Ideal S400x128 .f32) (g bt : FVec Ideal S1x128 .f32)
    (wa wb : FVec Ideal S128x128 .f32) :
    k0_pay1 (F := Ideal) arg0 v35 g bt wa wb
      = matmul dot_S400x128_S128x128_S400x128_1_0_0_1_n_n none (rectRows (affRows v35 g bt))
          (Scalar.select (Scalar.cmpi .eq arg0 0#32) wa (shapeCast S128x128 wb shapeCasts_S128x128_S128x128))
          (constant (F := Ideal) S400x128 .f32 0x00000000#32) := rfl

/-- The body's last product at (p, q): the sum over the channels k of the rectified row p at k times the chosen
    weight matrix at (k, q). -/
theorem pay1_apply (arg0 : BitVec 32) (v35 : FVec Ideal S400x128 .f32) (g bt : FVec Ideal S1x128 .f32)
    (wa wb : FVec Ideal S128x128 .f32) (p : Fin 400) (q : Fin 128) :
    k0_pay1 (F := Ideal) arg0 v35 g bt wa wb (ix2 p q)
      = ∑ k : Fin 128, Cert.Gcn.lrelu (v35 (ix2 p k) * g (ix2 (0 : Fin 1) k) + bt (ix2 (0 : Fin 1) k))
          * (if arg0 = 0#32 then wa else wb) (ix2 k q) := by
  rw [pay1_eq]
  refine (Cert.Lib.matmul_zero_apply _ none _ _ p q).trans ?_
  rw [shapeCast_self, select_cmpi_eq]
  refine Finset.sum_congr rfl fun k _ => ?_
  rw [rectRows_apply, affRows_apply]

/-! ## The two stores of the last product -/

/-- Stored into the scratch slab [1, 400, 128], entry (0, p, q) is the product's entry (p, q). -/
theorem pay2_apply (arg0 : BitVec 32) (v35 : FVec Ideal S400x128 .f32) (g bt : FVec Ideal S1x128 .f32)
    (wa wb : FVec Ideal S128x128 .f32) (p : Fin 400) (q : Fin 128) :
    k0_pay2 (F := Ideal) arg0 v35 g bt wa wb (ix3 (0 : Fin 1) p q) = k0_pay1 (F := Ideal) arg0 v35 g bt wa wb (ix2 p q) := by
  unfold k0_pay2
  exact shapeCast_ab_1ab_apply _ _ (0 : Fin 1) p q

/-- Stored into the output block, entry (p, q) is the product's entry (p, q) plus the final bias at q. -/
theorem pay3_apply (arg0 : BitVec 32) (v35 : FVec Ideal S400x128 .f32) (g bt : FVec Ideal S1x128 .f32)
    (wa wb : FVec Ideal S128x128 .f32) (b3 : FVec Ideal S1x128 .f32) (p : Fin 400) (q : Fin 128) :
    k0_pay3 (F := Ideal) arg0 v35 g bt wa wb b3 (ix2 p q)
      = k0_pay1 (F := Ideal) arg0 v35 g bt wa wb (ix2 p q) + b3 (ix2 (0 : Fin 1) q) := by
  unfold k0_pay3
  refine congrArg (k0_pay1 (F := Ideal) arg0 v35 g bt wa wb (ix2 p q) + ·) ?_
  refine (broadcastTo_1b_ab_apply _ _ p q).trans ?_
  rw [shapeCast_self]

end Cert.KernelIdeal.Payload

end
-- ==== Proof.PayloadCompose.lean ====
/-
  The rows a grid point writes, read entry by entry against the specification's layer.

  A block of 400 rows goes through the same steps whichever phase it is in: the adjacency block times the node
  features plus a bias row, the per-row normalisation, the per-channel scale and shift, the rectifier, and a product
  with a 128 × 128 matrix. The first grid coordinate chooses the bias row and the matrix: at 0 the first layer's bias
  and the second weight matrix, at 1 the second layer's bias and the head's matrix, and there the head's bias row is
  added to every row at the end. Entry (p, q) of the result is therefore the specification's layer tail at row p of
  the block and channel q, over the mixed rows of the block.
-/
import proofs.«123332_g55173149885128_cont_9to1_m_1112_21_alg».proof.Proof.PayloadRead
import proofs.«123332_g55173149885128_cont_9to1_m_1112_21_alg».proof.Proof.KI.RunDefs

noncomputable section

namespace Cert.KernelIdeal.Payload

open Idealize.ShloMosaic Idealize.ShloMosaic.ValueIdx Cert.KernelIdeal Cert.KernelIdeal.Gen

/-- A row vector held as a [1, 128] array, read by its channel. -/
def rowOf (f : FVec Ideal S1x128 .f32) (k : Fin 128) : EReal := f (ix2 (0 : Fin 1) k)

/-- A first-phase point's rows, stored as a slab [1, 400, 128]: entry (0, p, q) is the first layer's tail at row p
    and channel q — the mixed rows carry the first bias, the product is with the second weight matrix. -/
theorem tailRows_apply (a : FVec Ideal S400x10000 .f32) (s : FVec Ideal S1x10000x128 .f32)
    (b1 b2 g bt : FVec Ideal S1x128 .f32) (wa wb : FVec Ideal S128x128 .f32) (i : grid0.Coords)
    (p : Fin 400) (q : Fin 128) (hi : (i 0).val = 0) :
    Cert.KernelIdeal.Body.tailRows (F := Ideal) i a s b1 b2 g bt wa wb (ix3 (0 : Fin 1) p q)
      = Cert.Gcn.tail Cert.Gcn.normMul (rowOf g) (rowOf bt) (Cert.Gcn.mat wa)
          (fun p' q' => (∑ k : Fin 10000, a (ix2 p' k) * s (ix3 (0 : Fin 1) k q')) + rowOf b1 q') p q := by
  unfold Cert.KernelIdeal.Body.tailRows
  rw [pay2_apply, pay1_apply]
  have hw : BitVec.ofNat 32 (i 0).val = 0#32 := by rw [hi]
  rw [if_pos hw]
  unfold Cert.Gcn.tail Cert.Gcn.mm Cert.Gcn.act
  refine Finset.sum_congr rfl fun k _ => ?_
  rw [pay5_apply, if_pos hi]
  rfl

/-- A second-phase point's output block: entry (p, q) is the second layer's tail at row p and channel q — the mixed
    rows carry the second bias, the product is with the head's matrix — plus the head's bias at q. -/
theorem outBlock_apply (a : FVec Ideal S400x10000 .f32) (s : FVec Ideal S1x10000x128 .f32)
    (b1 b2 g bt : FVec Ideal S1x128 .f32) (wa wb : FVec Ideal S128x128 .f32) (b3 : FVec Ideal S1x128 .f32)
    (i : grid0.Coords) (p : Fin 400) (q : Fin 128) (hi : (i 0).val = 1) :
    Cert.KernelIdeal.Body.outBlock (F := Ideal) i a s b1 b2 g bt wa wb b3 (ix2 p q)
      = Cert.Gcn.tail Cert.Gcn.normMul (rowOf g) (rowOf bt) (Cert.Gcn.mat wb)
          (fun p' q' => (∑ k : Fin 10000, a (ix2 p' k) * s (ix3 (0 : Fin 1) k q')) + rowOf b2 q') p q
        + rowOf b3 q := by
  unfold Cert.KernelIdeal.Body.outBlock
  rw [pay3_apply, pay1_apply]
  have hw : ¬ BitVec.ofNat 32 (i 0).val = 0#32 := by rw [hi]; decide
  have h0 : ¬ (i 0).val = 0 := by omega
  rw [if_neg hw]
  unfold Cert.Gcn.tail Cert.Gcn.mm Cert.Gcn.act
  refine congrArg₂ (· + ·) (Finset.sum_congr rfl fun k _ => ?_) rfl
  rw [pay5_apply, if_neg h0]
  rfl

end Cert.KernelIdeal.Payload

end
-- ==== Proof.BlockRead.lean ====
/-
  Each input window's block at a grid point, read back to the argument arrays.

  A window cuts its array into blocks; the block at a point holds the array's entries at block index × block size +
  the coordinate inside the block, axis by axis. The adjacency is cut into 25 blocks of 400 rows, and the block at
  point t is block t mod 25: its row p is row 400 · (t mod 25) + p of the adjacency. Every other input is one block,
  the whole array, at every point. Five of those arrays are vectors of 128 entries that were reshaped to one row
  [1, 128] before the call, so entry (0, q) of the block is entry q of the vector; one is the transpose of a
  128 × 128 argument.
-/
import proofs.«123332_g55173149885128_cont_9to1_m_1112_21_alg».proof.Proof.Gen.KernelIdeal.Frame
import proofs.«123332_g55173149885128_cont_9to1_m_1112_21_alg».proof.Proof.KI.Cases
import proofs.«123332_g55173149885128_cont_9to1_m_1112_21_alg».proof.Proof.LibColumn
import Idealize.ShloMosaic.Lib.ValueLayout
import Idealize.ShloMosaic.Lib.Pipeline.Value

noncomputable section

namespace Cert.KernelIdeal.Blocks

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]
variable (m : (ℓ : Loc nD τ sig) → Buf (Elt F) ℓ)

/-! ## The block indices over the grid -/

/-- The adjacency window's block index at point t is (t mod 25, 0). -/
theorem idx0 : ∀ t : Fin cfg0.N, win0_0.index t (0 : Fin 2) = t.val % 25 ∧ win0_0.index t (1 : Fin 2) = 0 :=
  (by decide +kernel : ∀ t : Fin grid0.N, _)

/-- Every other input window stays at block (0, 0). -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-! ## A window of one block holds its whole array -/

/-- A block's entry sits in its array at block index × block size + 1 × its coordinate, axis by axis. When both block
    indices are 0 that position is the coordinate itself. -/
theorem idx2_eq_of_zero {A B : Nat} (e y : (⟨2, ![A, B]⟩ : Shape).Idx) (i0 i1 : Nat) (h0 : i0 = 0) (h1 : i1 = 0)
    (he0 : (e 0).val = i0 * A + 1 * (y 0).val) (he1 : (e 1).val = i1 * B + 1 * (y 1).val) : e = y := by
  subst h0 h1
  funext a; apply Fin.ext
  match a with
  | ⟨0, _⟩ => show (e 0).val = (y 0).val; omega
  | ⟨1, _⟩ => show (e 1).val = (y 1).val; omega

theorem iblk1_eq (c : Dev nD) (t : Fin cfg0.N) : (iblk m c 1 t : S10000x128.Idx → Elt F .f32) = V m c main_arg0 := by
  funext y
  unfold iblk
  show V m c main_arg0 (((cfg0.win 1).blk t).view.emb y) = V m c main_arg0 y
  exact congrArg _ (idx2_eq_of_zero _ y _ _ (idx1 t).1 (idx1 t).2 rfl rfl)

theorem iblk2_eq (c : Dev nD) (t : Fin cfg0.N) : (iblk m c 2 t : S128x128.Idx → Elt F .f32) = V m c main_arg2 := by
  funext y
  unfold iblk
  show V m c main_arg2 (((cfg0.win 2).blk t).view.emb y) = V m c main_arg2 y
  exact congrArg _ (idx2_eq_of_zero _ y _ _ (idx2 t).1 (idx2 t).2 rfl rfl)

theorem iblk3_eq (c : Dev nD) (t : Fin cfg0.N) : (iblk m c 3 t : S1x128.Idx → Elt F .f32) = V m c main_v0 := by
  funext y
  unfold iblk
  show V m c main_v0 (((cfg0.win 3).blk t).view.emb y) = V m c main_v0 y
  exact congrArg _ (idx2_eq_of_zero _ y _ _ (idx3 t).1 (idx3 t).2 rfl rfl)

theorem iblk4_eq (c : Dev nD) (t : Fin cfg0.N) : (iblk m c 4 t : S1x128.Idx → Elt F .f32) = V m c main_v1 := by
  funext y
  unfold iblk
  show V m c main_v1 (((cfg0.win 4).blk t).view.emb y) = V m c main_v1 y
  exact congrArg _ (idx2_eq_of_zero _ y _ _ (idx4 t).1 (idx4 t).2 rfl rfl)

theorem iblk5_eq (c : Dev nD) (t : Fin cfg0.N) : (iblk m c 5 t : S1x128.Idx → Elt F .f32) = V m c main_v2 := by
  funext y
  unfold iblk
  show V m c main_v2 (((cfg0.win 5).blk t).view.emb y) = V m c main_v2 y
  exact congrArg _ (idx2_eq_of_zero _ y _ _ (idx5 t).1 (idx5 t).2 rfl rfl)

theorem iblk6_eq (c : Dev nD) (t : Fin cfg0.N) : (iblk m c 6 t : S1x128.Idx → Elt F .f32) = V m c main_v3 := by
  funext y
  unfold iblk
  show V m c main_v3 (((cfg0.win 6).blk t).view.emb y) = V m c main_v3 y
  exact congrArg _ (idx2_eq_of_zero _ y _ _ (idx6 t).1 (idx6 t).2 rfl rfl)

theorem iblk7_eq (c : Dev nD) (t : Fin cfg0.N) : (iblk m c 7 t : S128x128.Idx → Elt F .f32) = V m c main_arg4 := by
  funext y
  unfold iblk
  show V m c main_arg4 (((cfg0.win 7).blk t).view.emb y) = V m c main_arg4 y
  exact congrArg _ (idx2_eq_of_zero _ y _ _ (idx7 t).1 (idx7 t).2 rfl rfl)

theorem iblk8_eq (c : Dev nD) (t : Fin cfg0.N) : (iblk m c 8 t : S128x128.Idx → Elt F .f32) = V m c main_v4 := by
  funext y
  unfold iblk
  show V m c main_v4 (((cfg0.win 8).blk t).view.emb y) = V m c main_v4 y
  exact congrArg _ (idx2_eq_of_zero _ y _ _ (idx8 t).1 (idx8 t).2 rfl rfl)

theorem iblk9_eq (c : Dev nD) (t : Fin cfg0.N) : (iblk m c 9 t : S1x128.Idx → Elt F .f32) = V m c main_v5 := by
  funext y
  unfold iblk
  show V m c main_v5 (((cfg0.win 9).blk t).view.emb y) = V m c main_v5 y
  exact congrArg _ (idx2_eq_of_zero _ y _ _ (idx9 t).1 (idx9 t).2 rfl rfl)

/-! ## What the host wrote before the call -/

/-- The reshaped vectors: each [1, 128] array is the cast of its [128] argument. -/
theorem V_main_v0 (c : Dev nD) : (V m c main_v0 : S1x128.Idx → Elt F .f32)
    = shapeCast S1x128 (m ((c : Thread nD τ).loc main_arg3)) shapeCasts_S128_S1x128 := by
  dsimp only [Gen.V, Gen.hostOps0]; after_results; rfl
theorem V_main_v1 (c : Dev nD) : (V m c main_v1 : S1x128.Idx → Elt F .f32)
    = shapeCast S1x128 (m ((c : Thread nD τ).loc main_arg5)) shapeCasts_S128_S1x128 := by
  dsimp only [Gen.V, Gen.hostOps0]; after_results; rfl
theorem V_main_v2 (c : Dev nD) : (V m c main_v2 : S1x128.Idx → Elt F .f32)
    = shapeCast S1x128 (m ((c : Thread nD τ).loc main_arg6)) shapeCasts_S128_S1x128 := by
  dsimp only [Gen.V, Gen.hostOps0]; after_results; rfl
theorem V_main_v3 (c : Dev nD) : (V m c main_v3 : S1x128.Idx → Elt F .f32)
    = shapeCast S1x128 (m ((c : Thread nD τ).loc main_arg7)) shapeCasts_S128_S1x128 := by
  dsimp only [Gen.V, Gen.hostOps0]; after_results; rfl
theorem V_main_v5 (c : Dev nD) : (V m c main_v5 : S1x128.Idx → Elt F .f32)
    = shapeCast S1x128 (m ((c : Thread nD τ).loc main_arg9)) shapeCasts_S128_S1x128 := by
  dsimp only [Gen.V, Gen.hostOps0]; after_results; rfl
/-- The transposed matrix. -/
theorem V_main_v4 (c : Dev nD) : (V m c main_v4 : S128x128.Idx → Elt F .f32)
    = transpose S128x128 [1, 0] (m ((c : Thread nD τ).loc main_arg8)) transposes_S128x128_S128x128_1_0 := by
  dsimp only [Gen.V, Gen.hostOps0]; after_results

/-! ## The blocks read back to the arguments -/

/-- Row p of the adjacency block at point t is row 400 · (t mod 25) + p of the adjacency. -/
theorem iblk0_apply (c : Dev nD) (t : Fin cfg0.N) (p : Fin 400) (k : Fin 10000) :
    (iblk m c 0 t : S400x10000.Idx → Elt F .f32) (ix2 p k)
      = m ((c : Thread nD τ).loc main_arg1) (ix2 (⟨400 * (t.val % 25) + p.val, by omega⟩ : Fin 10000) k) := by
  refine Eq.trans ?_ (congrFun (V_main_arg1 m c) _)
  unfold iblk
  show V m c main_arg1 (((cfg0.win 0).blk t).view.emb (ix2 p k)) = V m c main_arg1 _
  refine congrArg _ ?_
  obtain ⟨e0, e1⟩ := idx0 t
  funext a; apply Fin.ext
  match a with
  | ⟨0, _⟩ => show win0_0.index t (0 : Fin 2) * 400 + 1 * p.val = 400 * (t.val % 25) + p.val; omega
  | ⟨1, _⟩ => show win0_0.index t (1 : Fin 2) * 10000 + 1 * k.val = k.val; omega

/-- The node features, the first and the second weight matrix: the arguments themselves. -/
theorem iblk1 (c : Dev nD) (t : Fin cfg0.N) :
    (iblk m c 1 t : S10000x128.Idx → Elt F .f32) = m ((c : Thread nD τ).loc main_arg0) :=
  (iblk1_eq m c t).trans (V_main_arg0 m c)
theorem iblk2 (c : Dev nD) (t : Fin cfg0.N) :
    (iblk m c 2 t : S128x128.Idx → Elt F .f32) = m ((c : Thread nD τ).loc main_arg2) :=
  (iblk2_eq m c t).trans (V_main_arg2 m c)
theorem iblk7 (c : Dev nD) (t : Fin cfg0.N) :
    (iblk m c 7 t : S128x128.Idx → Elt F .f32) = m ((c : Thread nD τ).loc main_arg4) :=
  (iblk7_eq m c t).trans (V_main_arg4 m c)

/-- The five row vectors: entry (0, q) of the block is entry q of the argument. -/
theorem iblk3_apply (c : Dev nD) (t : Fin cfg0.N) (q : Fin 128) :
    (iblk m c 3 t : S1x128.Idx → Elt F .f32) (ix2 (0 : Fin 1) q) = m ((c : Thread nD τ).loc main_arg3) (ix1 q) :=
  (congrFun ((iblk3_eq m c t).trans (V_main_v0 m c)) _).trans (shapeCast_a_1a_apply _ _ (0 : Fin 1) q)
theorem iblk4_apply (c : Dev nD) (t : Fin cfg0.N) (q : Fin 128) :
    (iblk m c 4 t : S1x128.Idx → Elt F .f32) (ix2 (0 : Fin 1) q) = m ((c : Thread nD τ).loc main_arg5) (ix1 q) :=
  (congrFun ((iblk4_eq m c t).trans (V_main_v1 m c)) _).trans (shapeCast_a_1a_apply _ _ (0 : Fin 1) q)
theorem iblk5_apply (c : Dev nD) (t : Fin cfg0.N) (q : Fin 128) :
    (iblk m c 5 t : S1x128.Idx → Elt F .f32) (ix2 (0 : Fin 1) q) = m ((c : Thread nD τ).loc main_arg6) (ix1 q) :=
  (congrFun ((iblk5_eq m c t).trans (V_main_v2 m c)) _).trans (shapeCast_a_1a_apply _ _ (0 : Fin 1) q)
theorem iblk6_apply (c : Dev nD) (t : Fin cfg0.N) (q : Fin 128) :
    (iblk m c 6 t : S1x128.Idx → Elt F .f32) (ix2 (0 : Fin 1) q) = m ((c : Thread nD τ).loc main_arg7) (ix1 q) :=
  (congrFun ((iblk6_eq m c t).trans (V_main_v3 m c)) _).trans (shapeCast_a_1a_apply _ _ (0 : Fin 1) q)
theorem iblk9_apply (c : Dev nD) (t : Fin cfg0.N) (q : Fin 128) :
    (iblk m c 9 t : S1x128.Idx → Elt F .f32) (ix2 (0 : Fin 1) q) = m ((c : Thread nD τ).loc main_arg9) (ix1 q) :=
  (congrFun ((iblk9_eq m c t).trans (V_main_v5 m c)) _).trans (shapeCast_a_1a_apply _ _ (0 : Fin 1) q)

/-- The head's matrix: the transpose of its argument. -/
theorem iblk8 (c : Dev nD) (t : Fin cfg0.N) :
    (iblk m c 8 t : S128x128.Idx → Elt F .f32)
      = transpose S128x128 [1, 0] (m ((c : Thread nD τ).loc main_arg8)) transposes_S128x128_S128x128_1_0 :=
  (iblk8_eq m c t).trans (V_main_v4 m c)

end Cert.KernelIdeal.Blocks

end
-- ==== Proof.Law.lean ====
/-
  The two normalisation steps agree on the extended reals, with no finiteness assumption.

  A square is nonnegative even at the infinities: a real's square is a nonnegative real, and each infinity times
  itself is +∞. So a row's sum of squared deviations is nonnegative; dividing by the channel count 128 multiplies it
  by the positive real 1/128 and keeps it nonnegative; adding the positive shift makes it positive. It may be +∞.

  At a positive argument v, multiplying by the inverse square root and dividing by the square root are the same
  operation. If v is a positive real r, the inverse square root is the real 1/√r, the square root is the nonzero real
  √r, and division by a nonzero real is multiplication by its reciprocal. If v is +∞, the inverse square root is 0 and
  the square root is +∞, whose reciprocal is 0: both sides are the deviation times 0, that is 0, whatever the
  deviation (also when it is infinite).
-/
import proofs.«123332_g55173149885128_cont_9to1_m_1112_21_alg».proof.Proof.Spec
import Idealize.ShloMosaic.PureOps.Ideal
import Idealize.ShloMosaic.PureOps.Ideal.Laws

noncomputable section

namespace Cert.Gcn

open Idealize.ShloMosaic

/-- A square is nonnegative on the extended reals: a real's square is, and ⊥ · ⊥ = ⊤ · ⊤ = ⊤. -/
theorem mul_self_nonneg' (d : EReal) : 0 ≤ d * d := by
  induction d using EReal.rec with
  | bot => simp
  | coe r => rw [← EReal.coe_mul]; exact EReal.coe_nonneg.mpr (mul_self_nonneg r)
  | top => simp

/-- The channel count's pattern denotes the real 128 = 2²³ · 2⁻¹⁶. -/
theorem chan_eq : chan = ((128 : ℝ) : EReal) := by
  unfold chan
  simp [Ideal.ofBits, Ideal.ieee, -EReal.coe_mul]
  norm_num

/-- The variance shift's pattern denotes a positive number. -/
theorem shift_pos : 0 < shift := by
  unfold shift
  simp [Ideal.ofBits, Ideal.ieee, -EReal.coe_mul]

/-- A row's variance is nonnegative: a sum of squares times the positive real 1/128. -/
theorem var_nonneg (h : Fin 128 → EReal) : 0 ≤ var h := by
  unfold var
  rw [chan_eq, Ideal.div_coe (by norm_num : (128 : ℝ) ≠ 0)]
  refine mul_nonneg (Finset.sum_nonneg fun q _ => mul_self_nonneg' _) ?_
  exact EReal.coe_nonneg.mpr (by norm_num)

/-- The shifted variance is positive (possibly +∞). -/
theorem shifted_var_pos (h : Fin 128 → EReal) : 0 < var h + shift :=
  shift_pos.trans_le (le_add_of_nonneg_left (var_nonneg h))

/-- At a positive argument, times the inverse square root is divided by the square root. -/
theorem mul_rsqrt_eq_div_sqrt (d v : EReal) (hv : 0 < v) : d * Ideal.rsqrt v = Ideal.div d (Ideal.sqrt v) := by
  induction v using EReal.rec with
  | bot => exact absurd hv (by simp)
  | top =>
    rw [Ideal.rsqrt_top, Ideal.sqrt_top, mul_zero]
    unfold Ideal.div
    rw [if_neg EReal.top_ne_zero, EReal.inv_top, mul_zero]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- The two normalisation steps are the same function. -/
theorem normMul_eq_normDiv : normMul = normDiv := by
  funext h q
  unfold normMul normDiv
  exact mul_rsqrt_eq_div_sqrt _ _ (shifted_var_pos h)

/-- So the two layers and the head computed with either step are the same. -/
theorem layers_eq {N : Nat} (x : Fin N → Fin 128 → EReal) (adj : Fin N → Fin N → EReal)
    (w1 : Fin 128 → Fin 128 → EReal) (b1 : Fin 128 → EReal) (w2 : Fin 128 → Fin 128 → EReal) (b2 γ β : Fin 128 → EReal)
    (w3 : Fin 128 → Fin 128 → EReal) (b3 : Fin 128 → EReal) :
    layers (N := N) normMul x adj w1 b1 w2 b2 γ β w3 b3 = layers normDiv x adj w1 b1 w2 b2 γ β w3 b3 := by
  rw [normMul_eq_normDiv]

end Cert.Gcn

end
-- ==== Proof.KernelValue.lean ====
/-
  What the fused call leaves, entry by entry, in terms of the argument arrays.

  The scratch's first slab is the product of the node features with the first weight matrix. Block j of the first
  phase (j < 25) writes rows 400·j … 400·j + 399 of the second slab: the first layer's tail — mixing by the
  adjacency's rows 400·j + p, bias, normalisation, scale and shift, rectifier — times the second weight matrix.
  Read over all 25 blocks, row k of the second slab is row k of that layer (k = 400·(k / 400) + k mod 400). A
  second-phase point t (25 ≤ t) multiplies the adjacency's rows 400·(t − 25) + p by the second slab and goes through
  the same steps with the second bias and the head's matrix, then adds the head's bias: the specification's two layers
  and head at row 400·(t − 25) + p.

  A layer's tail at row r reads only row r of the mixed rows it is given, so the rows of one block and the rows of
  the whole array give the same entry wherever they agree on that row.
-/
import proofs.«123332_g55173149885128_cont_9to1_m_1112_21_alg».proof.Proof.KI.Body
import proofs.«123332_g55173149885128_cont_9to1_m_1112_21_alg».proof.Proof.PayloadCompose
import proofs.«123332_g55173149885128_cont_9to1_m_1112_21_alg».proof.Proof.BlockRead
import proofs.«123332_g55173149885128_cont_9to1_m_1112_21_alg».proof.Proof.Law

noncomputable section

namespace Cert.KernelIdeal.Final

open Idealize.ShloMosaic Idealize.ShloMosaic.TcCoe
open Idealize.SL Idealize.SL.Sem
open Idealize.ShloMosaic.ValueIdx
open Cert.KernelIdeal Cert.KernelIdeal.Gen Cert.KernelIdeal.Body Cert.KernelIdeal.Payload Cert.KernelIdeal.Blocks

variable (m : (ℓ : Loc nD τ sig) → Buf (Elt Ideal) ℓ) (c : Dev nD)

/-! ## The argument arrays by coordinates -/

/-- The node features, the adjacency, the three weight matrices (the head's transposed), the three bias rows and the
    normalisation's scale and shift. -/
abbrev X : Fin 10000 → Fin 128 → EReal := Cert.Gcn.mat (m ((c : Thread nD τ).loc main_arg0))
abbrev A : Fin 10000 → Fin 10000 → EReal := Cert.Gcn.mat (m ((c : Thread nD τ).loc main_arg1))
abbrev W1 : Fin 128 → Fin 128 → EReal := Cert.Gcn.mat (m ((c : Thread nD τ).loc main_arg2))
abbrev B1 : Fin 128 → EReal := Cert.Gcn.vec (m ((c : Thread nD τ).loc main_arg3))
abbrev W2 : Fin 128 → Fin 128 → EReal := Cert.Gcn.mat (m ((c : Thread nD τ).loc main_arg4))
abbrev B2 : Fin 128 → EReal := Cert.Gcn.vec (m ((c : Thread nD τ).loc main_arg5))
abbrev Gam : Fin 128 → EReal := Cert.Gcn.vec (m ((c : Thread nD τ).loc main_arg6))
abbrev Bet : Fin 128 → EReal := Cert.Gcn.vec (m ((c : Thread nD τ).loc main_arg7))
abbrev W3 : Fin 128 → Fin 128 → EReal :=
  Cert.Gcn.mat (transpose S128x128 [1, 0] (m ((c : Thread nD τ).loc main_arg8)) transposes_S128x128_S128x128_1_0)
abbrev B3 : Fin 128 → EReal := Cert.Gcn.vec (m ((c : Thread nD τ).loc main_arg9))

/-- The first layer's rows times the second weight matrix. -/
abbrev L1 : Fin 10000 → Fin 128 → EReal :=
  Cert.Gcn.tail Cert.Gcn.normMul (Gam m c) (Bet m c) (W2 m c) (Cert.Gcn.conv (A m c) (Cert.Gcn.mm (X m c) (W1 m c)) (B1 m c))

/-- A layer's tail at row r reads only row r of the mixed rows: two families of rows that agree there give the same
    entry, whatever their other rows and however many they are. -/
theorem tail_congr_row {N N' : Nat} (n : (Fin 128 → EReal) → Fin 128 → EReal) {γ γ' β β' : Fin 128 → EReal}
    {w w' : Fin 128 → Fin 128 → EReal} {h : Fin N → Fin 128 → EReal} {h' : Fin N' → Fin 128 → EReal}
    {r : Fin N} {r' : Fin N'} (hγ : γ = γ') (hβ : β = β') (hw : w = w') (hh : h r = h' r') (q : Fin 128) :
    Cert.Gcn.tail n γ β w h r q = Cert.Gcn.tail n γ' β' w' h' r' q := by
  subst hγ hβ hw
  show ∑ k : Fin 128, Cert.Gcn.act n γ β (h r) k * w k q = ∑ k : Fin 128, Cert.Gcn.act n γ β (h' r') k * w k q
  rw [hh]

/-! ## The scratch -/

/-- The first slab: the node features times the first weight matrix. -/
theorem firstSlab_apply (r : Fin 10000) (q : Fin 128) :
    firstSlab m c (ix3 (0 : Fin 1) r q) = Cert.Gcn.mm (X m c) (W1 m c) r q := by
  unfold firstSlab
  refine (congrArg₂ (fun u v => k0_pay4 (F := Ideal) u v (ix3 (0 : Fin 1) r q)) (iblk1 m c _) (iblk2 m c _)).trans ?_
  exact pay4_apply _ _ r q

/-- Block j of the first phase: rows 400·j … 400·j + 399 of the first layer's rows. -/
theorem blockRows_apply (j : ℕ) (hj : j < 25) (p : Fin 400) (q : Fin 128) :
    blockRows m c j hj (ix3 (0 : Fin 1) p q) = L1 m c (⟨400 * j + p.val, by omega⟩ : Fin 10000) q := by
  have hi : (grid0.coords (pt j (by omega)) 0).val = 0 := by
    rw [coord0]; show j / 25 = 0; omega
  unfold blockRows
  refine (tailRows_apply _ _ _ _ _ _ _ _ _ p q hi).trans ?_
  refine tail_congr_row Cert.Gcn.normMul ?_ ?_ ?_ ?_ q
  · funext k; exact iblk5_apply m c _ k
  · funext k; exact iblk6_apply m c _ k
  · exact congrArg (Cert.Gcn.mat (A := 128) (B := 128)) (iblk7 m c _)
  · funext q'
    refine congrArg₂ (fun x y : EReal => x + y)
      (Finset.sum_congr rfl fun k _ => congrArg₂ (fun x y : EReal => x * y) ?_ (firstSlab_apply m c k q'))
      (iblk3_apply m c _ q')
    refine (iblk0_apply m c _ p k).trans ?_
    refine congrArg (fun z : Fin 10000 => m ((c : Thread nD τ).loc main_arg1) (ix2 z k)) (Fin.ext ?_)
    show 400 * (j % 25) + p.val = 400 * j + p.val
    omega

/-- The second slab as later points read it: row k is row k of the first layer's rows. -/
theorem held_slab1 (k : Fin 10000) (q : Fin 128) : held m c (ix3 (1 : Fin 2) k q) = L1 m c k q := by
  have hk : k.val / 400 < 25 := by omega
  unfold held
  beta_reduce
  rw [if_neg (show ¬ ((ix3 (1 : Fin 2) k q) 0).val = 0 from Nat.one_ne_zero),
    dif_pos (show ((ix3 (1 : Fin 2) k q) 1).val / 400 < 25 from hk)]
  refine (blockRows_apply m c (k.val / 400) hk (⟨k.val % 400, Nat.mod_lt _ (by decide)⟩ : Fin 400) q).trans ?_
  refine congrArg (fun z : Fin 10000 => L1 m c z q) (Fin.ext ?_)
  show 400 * (k.val / 400) + k.val % 400 = k.val
  omega

/-- In the second phase the slab the body loads is the second slab. -/
theorem slab_held_second (t : Fin cfg0.N) (ht : 25 ≤ t.val) (k : Fin 10000) (q : Fin 128) :
    slabOf (grid0.coords t) (held m c) (ix3 (0 : Fin 1) k q) = held m c (ix3 (1 : Fin 2) k q) := by
  have hN : t.val < 50 := lt_of_lt_of_eq t.isLt N50
  rw [slabOf_apply]
  refine congrArg (held m c) (funext fun a => Fin.ext ?_)
  match a with
  | ⟨0, _⟩ =>
    rw [LoadRect.idx_apply]; show k0_off1 (grid0.coords t) 0 + 1 * 0 = 1; rw [off1_0]; omega
  | ⟨1, _⟩ =>
    rw [LoadRect.idx_apply]; show k0_off1 (grid0.coords t) 1 + 1 * k.val = k.val; rw [off1_1]; omega
  | ⟨2, _⟩ =>
    rw [LoadRect.idx_apply]; show k0_off1 (grid0.coords t) 2 + 1 * q.val = q.val; rw [off1_2]; omega

/-! ## The output -/

/-- The output block of a second-phase point t: rows 400·(t − 25) … 400·(t − 25) + 399 of the two layers and head. -/
theorem outAt_apply (t : Fin cfg0.N) (ht : 25 ≤ t.val) (p : Fin 400) (q : Fin 128) :
    outAt m c t (ix2 p q)
      = Cert.Gcn.layers Cert.Gcn.normMul (X m c) (A m c) (W1 m c) (B1 m c) (W2 m c) (B2 m c) (Gam m c) (Bet m c) (W3 m c) (B3 m c)
          (⟨400 * (t.val - 25) + p.val, by have := lt_of_lt_of_eq t.isLt N50; omega⟩ : Fin 10000) q := by
  have hN : t.val < 50 := lt_of_lt_of_eq t.isLt N50
  have hi : (grid0.coords t 0).val = 1 := by rw [coord0]; omega
  unfold outAt
  refine (outBlock_apply _ _ _ _ _ _ _ _ _ _ p q hi).trans ?_
  refine congrArg₂ (fun x y : EReal => x + y) (tail_congr_row Cert.Gcn.normMul ?_ ?_ ?_ ?_ q) (iblk9_apply m c t q)
  · funext k; exact iblk5_apply m c _ k
  · funext k; exact iblk6_apply m c _ k
  · exact congrArg (Cert.Gcn.mat (A := 128) (B := 128)) (iblk8 m c t)
  · funext q'
    refine congrArg₂ (fun x y : EReal => x + y)
      (Finset.sum_congr rfl fun k _ => congrArg₂ (fun x y : EReal => x * y) ?_
        ((slab_held_second m c t ht k q').trans (held_slab1 m c k q')))
      (iblk4_apply m c t q')
    refine (iblk0_apply m c t p k).trans ?_
    refine congrArg (fun z : Fin 10000 => m ((c : Thread nD τ).loc main_arg1) (ix2 z k)) (Fin.ext ?_)
    show 400 * (t.val % 25) + p.val = 400 * (t.val - 25) + p.val
    omega

end Cert.KernelIdeal.Final

end
-- ==== Proof.KI.Final.lean ====
/-
  From the blocks the second phase writes back to the whole result array.
  Point t of the second phase (25 ≤ t < 50) writes back rows 400·(t − 25) … 400·(t − 25) + 399; those 25 blocks tile the
  10000 rows, each written once, so the array ends holding, entry by entry, the two layers and the head of the argument
  arrays. The first phase writes nothing back.
-/
import proofs.«123332_g55173149885128_cont_9to1_m_1112_21_alg».proof.Proof.KI.Body
import proofs.«123332_g55173149885128_cont_9to1_m_1112_21_alg».proof.Proof.KernelValue
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

open Idealize.ShloMosaic.ValueIdx Cert.Gcn

variable (m : (ℓ : Loc nD τ sig) → Buf (Elt Ideal) ℓ) (ρ : Dev nD → PrngReg)

/-- The result array: entry (r, q) of the two layers and the head of the kernel's own argument arrays (the head's weight
    matrix transposed by the host), with the normalisation as the kernel computes it. -/
def result (c : Dev nD) : S10000x128.Idx → EReal := fun i =>
  layers normMul (X m c) (A m c) (W1 m c) (B1 m c) (W2 m c) (B2 m c) (Gam m c) (Bet m c) (W3 m c) (B3 m c) (i 0) (i 1)

/-- The output window's block index at point t: row block (t % 25) · (t / 25), column block 0. -/
theorem idx10 : ∀ t : Fin cfg0.N, win0_10.index t (0 : Fin 2) = (t.val % 25) * (t.val / 25) ∧ win0_10.index t (1 : Fin 2) = 0 :=
  (by decide +kernel : ∀ t : Fin grid0.N, win0_10.index t (0 : Fin 2) = (t.val % 25) * (t.val / 25) ∧ win0_10.index t (1 : Fin 2) = 0)
/-- Every point of the second phase writes its block back. -/
theorem flush10 : ∀ t : Fin cfg0.N, 25 ≤ t.val → (cfg0.win 10).flush t = true :=
  (by decide +kernel : ∀ t : Fin grid0.N, 25 ≤ t.val → win0_10.flush t = true)

/-- What a point writes back is its block of the result array: point t of the second phase holds rows 400·(t − 25) … -/
theorem flushed_eq (c : Dev nD) (t : Fin cfg0.N) (hf : (cfg0.win 10).flush t = true) :
    (dats m 0 c).flushed 10 t = ((cfg0.win 10).blk t).view.read (Elt Ideal) (result m c) := by
  have hN : t.val < 50 := lt_of_lt_of_eq t.isLt N50
  have ht : 25 ≤ t.val := by
    by_contra h
    have := noFlush10 t (by omega)
    rw [this] at hf
    exact Bool.false_ne_true hf
  show (cfg0.win 10).cut (grid0.coords t) ((dats m 0 c).after 10 t) = _
  rw [after0_10]
  funext j
  obtain ⟨p, q, rfl⟩ : ∃ (p : Fin 400) (q : Fin 128), j = ix2 p q := ⟨j 0, j 1, eq_ix2 j⟩
  show outAt m c t (ix2 p q) = result m c (((cfg0.win 10).blk t).view.emb (ix2 p q))
  rw [outAt_apply m c t ht p q]
  obtain ⟨e0, e1⟩ := idx10 t
  have h1 : t.val / 25 = 1 := by omega
  have h2 : t.val % 25 = t.val - 25 := by omega
  unfold result
  have a0 : (((cfg0.win 10).blk t).view.emb (ix2 p q)) 0 = (⟨400 * (t.val - 25) + p.val, by omega⟩ : Fin 10000) := Fin.ext (by
    show win0_10.index t (0 : Fin 2) * 400 + 1 * p.val = 400 * (t.val - 25) + p.val
    rw [e0, h1, h2]; omega)
  have a1 : (((cfg0.win 10).blk t).view.emb (ix2 p q)) 1 = q := Fin.ext (by
    show win0_10.index t (1 : Fin 2) * 128 + 1 * q.val = q.val
    rw [e1]; omega)
  rw [a0, a1]

/-- An index of the result array lies in point t's block iff each coordinate lies in the block's range. -/
theorem mem_blk10 (t : Fin cfg0.N) (i : S10000x128.Idx) :
    i ∈ ((cfg0.win 10).blk t).view.set ↔ ∀ a : Fin 2, win0_10.index t a * S400x128.size a ≤ (i a).val ∧ (i a).val < win0_10.index t a * S400x128.size a + S400x128.size a := by
  show i ∈ ((View.whole main_v6).slice (win0_10.rect t)).set ↔ _
  rw [View.set_slice_whole, Rect.mem_set_unit]
  exact Iff.rfl

/-- The blocks of the second phase tile the result array: row r lies in the block of point 25 + r / 400. -/
theorem cover (i : S10000x128.Idx) : ∃ t : Fin cfg0.N, (cfg0.win 10).flush t = true ∧ i ∈ ((cfg0.win 10).blk t).view.set := by
  have hi0 : (i 0).val < 10000 := (i 0).isLt
  have hi1 : (i 1).val < 128 := (i 1).isLt
  refine ⟨pt (25 + (i 0).val / 400) (by omega), flush10 _ (by show 25 ≤ 25 + (i 0).val / 400; omega), ?_⟩
  rw [mem_blk10]
  obtain ⟨e0, e1⟩ := idx10 (pt (25 + (i 0).val / 400) (by omega))
  have tv : (pt (25 + (i 0).val / 400) (by omega) : Fin cfg0.N).val = 25 + (i 0).val / 400 := rfl
  have h1 : (25 + (i 0).val / 400) / 25 = 1 := by omega
  have h2 : (25 + (i 0).val / 400) % 25 = (i 0).val / 400 := by omega
  rw [tv, h1, h2] at e0
  intro a
  match a with
  | ⟨0, _⟩ =>
    show win0_10.index _ (0 : Fin 2) * 400 ≤ (i 0).val ∧ (i 0).val < win0_10.index _ (0 : Fin 2) * 400 + 400
    rw [e0]; omega
  | ⟨1, _⟩ =>
    show win0_10.index _ (1 : Fin 2) * 128 ≤ (i 1).val ∧ (i 1).val < win0_10.index _ (1 : Fin 2) * 128 + 128
    rw [e1]; omega

/-- The result array after the run. -/
theorem final (c : Dev nD) : (dats m 0 c).arrAt 10 cfg0.N = result m c :=
  (dats m 0 c).arrAt_eq_of_cover 10 (result m c) (fun t hf => flushed_eq m c t hf) cover

/-- The kernel's run, read: every weakly fair execution ends with the result array at the two layers and the head of the
    argument arrays, and the arguments unchanged. -/
theorem run : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Final

end
-- ==== Proof.LibTypedRef.lean ====
/-
  A typed reference carries a proof that its buffer's type is the value's type, and moves contents between the two by
  transport along that proof. Moving contents to the buffer and back is the identity, whatever the reference: the two
  transports cancel. (A host program that calls an outlined function reads each of the function's stages through such a
  pair; removing the pairs by this equation, rather than by unfolding, keeps the stages' terms small.)
-/
import Idealize.ShloMosaic.Lib.StableHlo

noncomputable section

namespace Cert.Lib

open Idealize.ShloMosaic

/-- Contents moved to a typed reference's buffer and back are unchanged. -/
theorem ofBuf_toBuf {sig : RefSig} {Val : EltTy → Type} {T : BufTy} (x : StableHlo.TRef sig T) (v : T.Contents Val) :
    x.ofBuf (x.toBuf v) = v := by
  obtain ⟨r, h, h1, h2⟩ := x
  subst h
  rfl

end Cert.Lib

end
-- ==== Proof.RefRun.lean ====
/-
  The reference program's run, read back as one pure term of its ten argument arrays.

  The program is a straight line of host operations once its three outlined helpers (the row variance, and the two
  selections) are put in place of their calls: 117 operations in all. They fall into five stretches: a graph mixing (the
  adjacency times the features times a weight matrix, plus a bias row), a row normalisation with scale, shift and leaky
  rectifier, the second mixing, the second normalisation, and the linear head. Each stretch reads a handful of arrays
  written before it and leaves one array the next stretch reads, so the result is the composition of five functions,
  two of them occurring twice.

  The normalisation of an array h, row by row: the mean column is the row sums over 128; the deviations are h less the
  mean repeated across the row; the variance column is the row sums of the squared deviations over (128 − n) for the
  integer n the program passes (zero), selected against a not-a-number filler where 128 − n is not positive; the
  normalised array is the deviations over the square root of the variance plus a small constant, times the scale row,
  plus the shift row; and the rectifier keeps an entry that is at least zero and multiplies any other by a small slope.
-/
import proofs.«123332_g55173149885128_cont_9to1_m_1112_21_alg».proof.Proof.Gen.ReferenceIdeal
import proofs.«123332_g55173149885128_cont_9to1_m_1112_21_alg».proof.Proof.LibTypedRef
import Idealize.ShloMosaic.Lib.StableHlo.Run
import Idealize.ShloMosaic.Lib.Pipeline.Frame
import Idealize.ShloMosaic.PureOps.Ideal

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The five stretches as functions of array contents -/

/-- A per-channel vector repeated down the 10000 rows. -/
def rows {α : Type} (b : S128.Idx → α) : S10000x128.Idx → α :=
  broadcastInDim S10000x128 ![0, 1] bcast_S1x128_S10000x128_0_1 (broadcastInDim S1x128 ![1] bcast_S128_S1x128_1 b)

/-- A per-row column repeated across the 128 channels. -/
def across {α : Type} (v : S10000x1.Idx → α) : S10000x128.Idx → α :=
  broadcastInDim S10000x128 ![0, 1] bcast_S10000x1_S10000x128_0_1 v

/-- A scalar repeated down a column. -/
def colOf {α : Type} (v : S_.Idx → α) : S10000x1.Idx → α := broadcastInDim S10000x1 ![] bcast_S_S10000x1 v

/-- A scalar repeated over the whole array. -/
def allOf {α : Type} (v : S_.Idx → α) : S10000x128.Idx → α := broadcastInDim S10000x128 ![] bcast_S_S10000x128 v

/-- The row sums of an array, as a column. -/
def rowSum (h : (⟨S10000x128, .f32⟩ : BufTy).Contents (Elt F)) : (⟨S10000x1, .f32⟩ : BufTy).Contents (Elt F) :=
  broadcastInDim S10000x1 ![0] bcast_S10000_S10000x1_0
    (Host.reduceAdd h (constant S_ .f32 0x00000000#32 : (⟨S_, .f32⟩ : BufTy).Contents (Elt F)) reducesTo_S10000x128_S10000_d1 h_S_)

/-- The row means: the row sums over 128. -/
def meanCol (h : (⟨S10000x128, .f32⟩ : BufTy).Contents (Elt F)) : (⟨S10000x1, .f32⟩ : BufTy).Contents (Elt F) :=
  Host.divf (rowSum h) (colOf (constant S_ .f32 0x43000000#32 : (⟨S_, .f32⟩ : BufTy).Contents (Elt F)))

/-- The deviations from the row means. -/
def devMat (h : (⟨S10000x128, .f32⟩ : BufTy).Contents (Elt F)) : (⟨S10000x128, .f32⟩ : BufTy).Contents (Elt F) := subf h (across (meanCol h))

/-- The divisor of the variance: 128 less the integer the program passes. -/
def count (n : (⟨S_, .i32⟩ : BufTy).Contents (Elt F)) : (⟨S_, .f32⟩ : BufTy).Contents (Elt F) :=
  subf (constant S_ .f32 0x43000000#32 : (⟨S_, .f32⟩ : BufTy).Contents (Elt F)) (sitofp .f32 n)

/-- The row variances: the row sums of the squared deviations over the divisor, where the divisor is positive; a
    not-a-number filler elsewhere. -/
def varCol (h : (⟨S10000x128, .f32⟩ : BufTy).Contents (Elt F)) (n : (⟨S_, .i32⟩ : BufTy).Contents (Elt F)) : (⟨S10000x1, .f32⟩ : BufTy).Contents (Elt F) :=
  select (colOf (cmpf .ogt (count n) (constant S_ .f32 0x00000000#32 : (⟨S_, .f32⟩ : BufTy).Contents (Elt F))))
    (Host.divf (rowSum (mulf (devMat h) (devMat h))) (colOf (count n)))
    (colOf (id (constant S_ .f32 0x7FC00000#32 : (⟨S_, .f32⟩ : BufTy).Contents (Elt F))))

/-- The normalised array with its per-channel scale and shift. -/
def affine (h : (⟨S10000x128, .f32⟩ : BufTy).Contents (Elt F)) (g bt : (⟨S128, .f32⟩ : BufTy).Contents (Elt F)) : (⟨S10000x128, .f32⟩ : BufTy).Contents (Elt F) :=
  addf (mulf (Host.divf (devMat h)
      (across (Host.sqrt (addf (varCol h (constantI S_ 32 0#32)) (colOf (constant S_ .f32 0x3727C5AC#32 : (⟨S_, .f32⟩ : BufTy).Contents (Elt F)))))))
    (rows g)) (rows bt)

/-- The leaky rectifier over an array. -/
def leaky (a : (⟨S10000x128, .f32⟩ : BufTy).Contents (Elt F)) : (⟨S10000x128, .f32⟩ : BufTy).Contents (Elt F) :=
  select (cmpf .oge a (allOf (constant S_ .f32 0x00000000#32 : (⟨S_, .f32⟩ : BufTy).Contents (Elt F))))
    a (mulf (allOf (constant S_ .f32 0x3C23D70A#32 : (⟨S_, .f32⟩ : BufTy).Contents (Elt F))) a)

/-- One layer's normalisation, scale, shift and rectifier. -/
def nact (h : (⟨S10000x128, .f32⟩ : BufTy).Contents (Elt F)) (g bt : (⟨S128, .f32⟩ : BufTy).Contents (Elt F)) : (⟨S10000x128, .f32⟩ : BufTy).Contents (Elt F) := leaky (affine h g bt)

/-- The graph mixing: the adjacency times (the features times the weights), plus the bias row. -/
def mix (s : (⟨S10000x128, .f32⟩ : BufTy).Contents (Elt F)) (adj : (⟨S10000x10000, .f32⟩ : BufTy).Contents (Elt F)) (w : (⟨S128x128, .f32⟩ : BufTy).Contents (Elt F)) (b : (⟨S128, .f32⟩ : BufTy).Contents (Elt F)) : (⟨S10000x128, .f32⟩ : BufTy).Contents (Elt F) :=
  addf (Host.dotGeneral dot_S10000x10000_S10000x128_S10000x128_1_0_0_1_n_n none adj
      (Host.dotGeneral dot_S10000x128_S128x128_S10000x128_1_0_0_1_n_n none s w))
    (rows b)

/-- The linear head: the features times the transposed weights, plus the bias row. -/
def head (s : (⟨S10000x128, .f32⟩ : BufTy).Contents (Elt F)) (w : (⟨S128x128, .f32⟩ : BufTy).Contents (Elt F)) (b : (⟨S128, .f32⟩ : BufTy).Contents (Elt F)) : (⟨S10000x128, .f32⟩ : BufTy).Contents (Elt F) :=
  addf (Host.dotGeneral dot_S10000x128_S128x128_S10000x128_1_0_0_1_n_n none s
      (transpose S128x128 [1, 0] w transposes_S128x128_S128x128_1_0))
    (rows b)

/-- The program's result as a function of its ten arguments. -/
def refOutF (x : (⟨S10000x128, .f32⟩ : BufTy).Contents (Elt F)) (adj : (⟨S10000x10000, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 g bt : (⟨S128, .f32⟩ : BufTy).Contents (Elt F)) (w3 : (⟨S128x128, .f32⟩ : BufTy).Contents (Elt F)) (b3 : (⟨S128, .f32⟩ : BufTy).Contents (Elt F)) : (⟨S10000x128, .f32⟩ : BufTy).Contents (Elt F) :=
  head (nact (mix (nact (mix x adj w1 b1) g bt) adj w2 b2) g bt) w3 b3

/-! ## The program as a list of operations -/

/-- The first mixing: operations 1 … 5. -/
abbrev opsA : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)) ]

/-- The first normalisation and rectifier, the row variance and the two selections in place of their calls: operations 6 … 56. -/
abbrev opsB : List (HloOp τ sig (Elt F)) :=
  [ nullary main_cst (constant S_ .f32 0x00000000#32),
    binary main_v4 main_cst main_v5 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v5 main_v6 (broadcastInDim S10000x1 ![0] bcast_S10000_S10000x1_0 : (⟨S10000, .f32⟩ : BufTy).Contents (Elt F) → (⟨S10000x1, .f32⟩ : BufTy).Contents (Elt F)),
    nullary main_cst_0 (constant S_ .f32 0x43000000#32),
    unary main_cst_0 main_v7 (broadcastInDim S10000x1 ![] bcast_S_S10000x1 : (⟨S_, .f32⟩ : BufTy).Contents (Elt F) → (⟨S10000x1, .f32⟩ : BufTy).Contents (Elt F)),
    binary main_v6 main_v7 main_v8 (Host.divf : (⟨S10000x1, .f32⟩ : BufTy).Contents (Elt F) → (⟨S10000x1, .f32⟩ : BufTy).Contents (Elt F) → (⟨S10000x1, .f32⟩ : BufTy).Contents (Elt F)),
    nullary main_c (constantI S_ 32 0#32),
    TRef.nullary main_call0.cst (constant S_ .f32 0x00000000#32),
    TRef.binary (TRef.of (T := ⟨S10000x128, .f32⟩) main_v4) main_call0.cst main_call0.v0 (fun x v => Host.reduceAdd x v reducesTo_S10000x128_S10000_d1 h_S_),
    TRef.unary main_call0.v0 main_call0.v1 (broadcastInDim S10000x1 ![0] bcast_S10000_S10000x1_0),
    TRef.nullary main_call0.cst_0 (constant S_ .f32 0x43000000#32),
    TRef.unary main_call0.cst_0 main_call0.v2 (broadcastInDim S10000x1 ![] bcast_S_S10000x1),
    TRef.binary main_call0.v1 main_call0.v2 main_call0.v3 Host.divf,
    TRef.unary main_call0.v3 main_call0.v4 (broadcastInDim S10000x128 ![0, 1] bcast_S10000x1_S10000x128_0_1),
    TRef.binary (TRef.of (T := ⟨S10000x128, .f32⟩) main_v4) main_call0.v4 main_call0.v5 subf,
    TRef.binary main_call0.v5 main_call0.v5 main_call0.v6 mulf,
    TRef.unary (TRef.of (T := ⟨S_, .i32⟩) main_c) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S10000_d1 h_S_),
    TRef.unary main_call0.v9 main_call0.v10 (broadcastInDim S10000x1 ![0] bcast_S10000_S10000x1_0),
    TRef.unary main_call0.v8 main_call0.v11 (broadcastInDim S10000x1 ![] bcast_S_S10000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S10000x1 ![] bcast_S_S10000x1),
    TRef.ternary main_call0.v13 main_call0.v12 main_call0.call0.v1 main_call0.call0.v2 (fun p a b => select (broadcastInDim S10000x1 ![] bcast_S_S10000x1 p) a b),
    unary main_v8 main_v10 (broadcastInDim S10000x128 ![0, 1] bcast_S10000x1_S10000x128_0_1 : (⟨S10000x1, .f32⟩ : BufTy).Contents (Elt F) → (⟨S10000x128, .f32⟩ : BufTy).Contents (Elt F)),
    binary main_v4 main_v10 main_v11 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v12 (broadcastInDim S10000x1 ![] bcast_S_S10000x1 : (⟨S_, .f32⟩ : BufTy).Contents (Elt F) → (⟨S10000x1, .f32⟩ : BufTy).Contents (Elt F)),
    binary main_v9 main_v12 main_v13 (addf : (⟨S10000x1, .f32⟩ : BufTy).Contents (Elt F) → (⟨S10000x1, .f32⟩ : BufTy).Contents (Elt F) → (⟨S10000x1, .f32⟩ : BufTy).Contents (Elt F)),
    unary main_v13 main_v14 (Host.sqrt : (⟨S10000x1, .f32⟩ : BufTy).Contents (Elt F) → (⟨S10000x1, .f32⟩ : BufTy).Contents (Elt F)),
    unary main_v14 main_v15 (broadcastInDim S10000x128 ![0, 1] bcast_S10000x1_S10000x128_0_1 : (⟨S10000x1, .f32⟩ : BufTy).Contents (Elt F) → (⟨S10000x128, .f32⟩ : BufTy).Contents (Elt F)),
    binary main_v11 main_v15 main_v16 (Host.divf : (⟨S10000x128, .f32⟩ : BufTy).Contents (Elt F) → (⟨S10000x128, .f32⟩ : BufTy).Contents (Elt F) → (⟨S10000x128, .f32⟩ : BufTy).Contents (Elt F)),
    unary main_arg6 main_v17 (broadcastInDim S1x128 ![1] bcast_S128_S1x128_1 : (⟨S128, .f32⟩ : BufTy).Contents (Elt F) → (⟨S1x128, .f32⟩ : BufTy).Contents (Elt F)),
    unary main_v17 main_v18 (broadcastInDim S10000x128 ![0, 1] bcast_S1x128_S10000x128_0_1 : (⟨S1x128, .f32⟩ : BufTy).Contents (Elt F) → (⟨S10000x128, .f32⟩ : BufTy).Contents (Elt F)),
    binary main_v16 main_v18 main_v19 (mulf : (⟨S10000x128, .f32⟩ : BufTy).Contents (Elt F) → (⟨S10000x128, .f32⟩ : BufTy).Contents (Elt F) → (⟨S10000x128, .f32⟩ : BufTy).Contents (Elt F)),
    unary main_arg7 main_v20 (broadcastInDim S1x128 ![1] bcast_S128_S1x128_1 : (⟨S128, .f32⟩ : BufTy).Contents (Elt F) → (⟨S1x128, .f32⟩ : BufTy).Contents (Elt F)),
    unary main_v20 main_v21 (broadcastInDim S10000x128 ![0, 1] bcast_S1x128_S10000x128_0_1 : (⟨S1x128, .f32⟩ : BufTy).Contents (Elt F) → (⟨S10000x128, .f32⟩ : BufTy).Contents (Elt F)),
    binary main_v19 main_v21 main_v22 (addf : (⟨S10000x128, .f32⟩ : BufTy).Contents (Elt F) → (⟨S10000x128, .f32⟩ : BufTy).Contents (Elt F) → (⟨S10000x128, .f32⟩ : BufTy).Contents (Elt F)),
    nullary main_cst_2 (constant S_ .f32 0x00000000#32),
    unary main_cst_2 main_v23 (broadcastInDim S10000x128 ![] bcast_S_S10000x128 : (⟨S_, .f32⟩ : BufTy).Contents (Elt F) → (⟨S10000x128, .f32⟩ : BufTy).Contents (Elt F)),
    binary main_v22 main_v23 main_v24 (cmpf .oge : (⟨S10000x128, .f32⟩ : BufTy).Contents (Elt F) → (⟨S10000x128, .f32⟩ : BufTy).Contents (Elt F) → (⟨S10000x128, .i1⟩ : BufTy).Contents (Elt F)),
    nullary main_cst_3 (constant S_ .f32 0x3C23D70A#32),
    unary main_cst_3 main_v25 (broadcastInDim S10000x128 ![] bcast_S_S10000x128 : (⟨S_, .f32⟩ : BufTy).Contents (Elt F) → (⟨S10000x128, .f32⟩ : BufTy).Contents (Elt F)),
    binary main_v25 main_v22 main_v26 (mulf : (⟨S10000x128, .f32⟩ : BufTy).Contents (Elt F) → (⟨S10000x128, .f32⟩ : BufTy).Contents (Elt F) → (⟨S10000x128, .f32⟩ : BufTy).Contents (Elt F)),
    TRef.ternary (TRef.of (T := ⟨S10000x128, .i1⟩) main_v24) (TRef.of (T := ⟨S10000x128, .f32⟩) main_v22) (TRef.of (T := ⟨S10000x128, .f32⟩) main_v26) main_call1.v0 select ]

/-- The second mixing: operations 57 … 61. -/
abbrev opsC : List (HloOp τ sig (Elt F)) :=
  [ binary main_v27 main_arg4 main_v28 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v28 main_v29 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v30 (broadcastInDim S1x128 ![1] bcast_S128_S1x128_1 : (⟨S128, .f32⟩ : BufTy).Contents (Elt F) → (⟨S1x128, .f32⟩ : BufTy).Contents (Elt F)),
    unary main_v30 main_v31 (broadcastInDim S10000x128 ![0, 1] bcast_S1x128_S10000x128_0_1 : (⟨S1x128, .f32⟩ : BufTy).Contents (Elt F) → (⟨S10000x128, .f32⟩ : BufTy).Contents (Elt F)),
    binary main_v29 main_v31 main_v32 (addf : (⟨S10000x128, .f32⟩ : BufTy).Contents (Elt F) → (⟨S10000x128, .f32⟩ : BufTy).Contents (Elt F) → (⟨S10000x128, .f32⟩ : BufTy).Contents (Elt F)) ]

/-- The second normalisation up to its scale and shift rows: operations 62 … 104. -/
abbrev opsD0 : List (HloOp τ sig (Elt F)) :=
  [ nullary main_cst_4 (constant S_ .f32 0x00000000#32),
    binary main_v32 main_cst_4 main_v33 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v33 main_v34 (broadcastInDim S10000x1 ![0] bcast_S10000_S10000x1_0 : (⟨S10000, .f32⟩ : BufTy).Contents (Elt F) → (⟨S10000x1, .f32⟩ : BufTy).Contents (Elt F)),
    nullary main_cst_5 (constant S_ .f32 0x43000000#32),
    unary main_cst_5 main_v35 (broadcastInDim S10000x1 ![] bcast_S_S10000x1 : (⟨S_, .f32⟩ : BufTy).Contents (Elt F) → (⟨S10000x1, .f32⟩ : BufTy).Contents (Elt F)),
    binary main_v34 main_v35 main_v36 (Host.divf : (⟨S10000x1, .f32⟩ : BufTy).Contents (Elt F) → (⟨S10000x1, .f32⟩ : BufTy).Contents (Elt F) → (⟨S10000x1, .f32⟩ : BufTy).Contents (Elt F)),
    nullary main_c_6 (constantI S_ 32 0#32),
    TRef.nullary main_call2.cst (constant S_ .f32 0x00000000#32),
    TRef.binary (TRef.of (T := ⟨S10000x128, .f32⟩) main_v32) main_call2.cst main_call2.v0 (fun x v => Host.reduceAdd x v reducesTo_S10000x128_S10000_d1 h_S_),
    TRef.unary main_call2.v0 main_call2.v1 (broadcastInDim S10000x1 ![0] bcast_S10000_S10000x1_0),
    TRef.nullary main_call2.cst_0 (constant S_ .f32 0x43000000#32),
    TRef.unary main_call2.cst_0 main_call2.v2 (broadcastInDim S10000x1 ![] bcast_S_S10000x1),
    TRef.binary main_call2.v1 main_call2.v2 main_call2.v3 Host.divf,
    TRef.unary main_call2.v3 main_call2.v4 (broadcastInDim S10000x128 ![0, 1] bcast_S10000x1_S10000x128_0_1),
    TRef.binary (TRef.of (T := ⟨S10000x128, .f32⟩) main_v32) main_call2.v4 main_call2.v5 subf,
    TRef.binary main_call2.v5 main_call2.v5 main_call2.v6 mulf,
    TRef.unary (TRef.of (T := ⟨S_, .i32⟩) main_c_6) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S10000x128_S10000_d1 h_S_),
    TRef.unary main_call2.v9 main_call2.v10 (broadcastInDim S10000x1 ![0] bcast_S10000_S10000x1_0),
    TRef.unary main_call2.v8 main_call2.v11 (broadcastInDim S10000x1 ![] bcast_S_S10000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S10000x1 ![] bcast_S_S10000x1),
    TRef.ternary main_call2.v13 main_call2.v12 main_call2.call0.v1 main_call2.call0.v2 (fun p a b => select (broadcastInDim S10000x1 ![] bcast_S_S10000x1 p) a b),
    unary main_v36 main_v38 (broadcastInDim S10000x128 ![0, 1] bcast_S10000x1_S10000x128_0_1 : (⟨S10000x1, .f32⟩ : BufTy).Contents (Elt F) → (⟨S10000x128, .f32⟩ : BufTy).Contents (Elt F)),
    binary main_v32 main_v38 main_v39 (subf : (⟨S10000x128, .f32⟩ : BufTy).Contents (Elt F) → (⟨S10000x128, .f32⟩ : BufTy).Contents (Elt F) → (⟨S10000x128, .f32⟩ : BufTy).Contents (Elt F)),
    nullary main_cst_7 (constant S_ .f32 0x3727C5AC#32),
    unary main_cst_7 main_v40 (broadcastInDim S10000x1 ![] bcast_S_S10000x1 : (⟨S_, .f32⟩ : BufTy).Contents (Elt F) → (⟨S10000x1, .f32⟩ : BufTy).Contents (Elt F)),
    binary main_v37 main_v40 main_v41 (addf : (⟨S10000x1, .f32⟩ : BufTy).Contents (Elt F) → (⟨S10000x1, .f32⟩ : BufTy).Contents (Elt F) → (⟨S10000x1, .f32⟩ : BufTy).Contents (Elt F)),
    unary main_v41 main_v42 (Host.sqrt : (⟨S10000x1, .f32⟩ : BufTy).Contents (Elt F) → (⟨S10000x1, .f32⟩ : BufTy).Contents (Elt F)),
    unary main_v42 main_v43 (broadcastInDim S10000x128 ![0, 1] bcast_S10000x1_S10000x128_0_1 : (⟨S10000x1, .f32⟩ : BufTy).Contents (Elt F) → (⟨S10000x128, .f32⟩ : BufTy).Contents (Elt F)),
    binary main_v39 main_v43 main_v44 (Host.divf : (⟨S10000x128, .f32⟩ : BufTy).Contents (Elt F) → (⟨S10000x128, .f32⟩ : BufTy).Contents (Elt F) → (⟨S10000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S10000x128 ![0, 1] bcast_S1x128_S10000x128_0_1 : (⟨S1x128, .f32⟩ : BufTy).Contents (Elt F) → (⟨S10000x128, .f32⟩ : BufTy).Contents (Elt F)),
    binary main_v44 main_v46 main_v47 (mulf : (⟨S10000x128, .f32⟩ : BufTy).Contents (Elt F) → (⟨S10000x128, .f32⟩ : BufTy).Contents (Elt F) → (⟨S10000x128, .f32⟩ : BufTy).Contents (Elt F)),
    unary main_arg7 main_v48 (broadcastInDim S1x128 ![1] bcast_S128_S1x128_1 : (⟨S128, .f32⟩ : BufTy).Contents (Elt F) → (⟨S1x128, .f32⟩ : BufTy).Contents (Elt F)),
    unary main_v48 main_v49 (broadcastInDim S10000x128 ![0, 1] bcast_S1x128_S10000x128_0_1 : (⟨S1x128, .f32⟩ : BufTy).Contents (Elt F) → (⟨S10000x128, .f32⟩ : BufTy).Contents (Elt F)) ]

/-- The rest of the second normalisation and its rectifier: operations 105 … 112. -/
abbrev opsD1 : List (HloOp τ sig (Elt F)) :=
  [ binary main_v47 main_v49 main_v50 (addf : (⟨S10000x128, .f32⟩ : BufTy).Contents (Elt F) → (⟨S10000x128, .f32⟩ : BufTy).Contents (Elt F) → (⟨S10000x128, .f32⟩ : BufTy).Contents (Elt F)),
    nullary main_cst_8 (constant S_ .f32 0x00000000#32),
    unary main_cst_8 main_v51 (broadcastInDim S10000x128 ![] bcast_S_S10000x128 : (⟨S_, .f32⟩ : BufTy).Contents (Elt F) → (⟨S10000x128, .f32⟩ : BufTy).Contents (Elt F)),
    binary main_v50 main_v51 main_v52 (cmpf .oge : (⟨S10000x128, .f32⟩ : BufTy).Contents (Elt F) → (⟨S10000x128, .f32⟩ : BufTy).Contents (Elt F) → (⟨S10000x128, .i1⟩ : BufTy).Contents (Elt F)),
    nullary main_cst_9 (constant S_ .f32 0x3C23D70A#32),
    unary main_cst_9 main_v53 (broadcastInDim S10000x128 ![] bcast_S_S10000x128 : (⟨S_, .f32⟩ : BufTy).Contents (Elt F) → (⟨S10000x128, .f32⟩ : BufTy).Contents (Elt F)),
    binary main_v53 main_v50 main_v54 (mulf : (⟨S10000x128, .f32⟩ : BufTy).Contents (Elt F) → (⟨S10000x128, .f32⟩ : BufTy).Contents (Elt F) → (⟨S10000x128, .f32⟩ : BufTy).Contents (Elt F)),
    TRef.ternary (TRef.of (T := ⟨S10000x128, .i1⟩) main_v52) (TRef.of (T := ⟨S10000x128, .f32⟩) main_v50) (TRef.of (T := ⟨S10000x128, .f32⟩) main_v54) main_call3.v0 select ]

/-- The linear head: operations 113 … 117. -/
abbrev opsE : List (HloOp τ sig (Elt F)) :=
  [ unary main_arg8 main_v56 ((transpose S128x128 [1, 0] · transposes_S128x128_S128x128_1_0) : (⟨S128x128, .f32⟩ : BufTy).Contents (Elt F) → (⟨S128x128, .f32⟩ : BufTy).Contents (Elt F)),
    binary main_v55 main_v56 main_v57 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg9 main_v58 (broadcastInDim S1x128 ![1] bcast_S128_S1x128_1 : (⟨S128, .f32⟩ : BufTy).Contents (Elt F) → (⟨S1x128, .f32⟩ : BufTy).Contents (Elt F)),
    unary main_v58 main_v59 (broadcastInDim S10000x128 ![0, 1] bcast_S1x128_S10000x128_0_1 : (⟨S1x128, .f32⟩ : BufTy).Contents (Elt F) → (⟨S10000x128, .f32⟩ : BufTy).Contents (Elt F)),
    binary main_v57 main_v59 main_v60 (addf : (⟨S10000x128, .f32⟩ : BufTy).Contents (Elt F) → (⟨S10000x128, .f32⟩ : BufTy).Contents (Elt F) → (⟨S10000x128, .f32⟩ : BufTy).Contents (Elt F)) ]

/-- All 117 operations, in order. -/
abbrev ops : List (HloOp τ sig (Elt F)) :=
  opsA ++ (opsB ++ (opsC ++ ((opsD0 ++ opsD1) ++ opsE)))

set_option maxRecDepth 16384 in
set_option maxHeartbeats 4000000 in
/-- The first sixty statements are the first 104 operations: the helpers' bodies unfold at their calls. -/
theorem main_part0_eq (c : Dev nD) : main_part0 (F := F) c = seq (opsA ++ (opsB ++ (opsC ++ opsD0))) := rfl

set_option maxRecDepth 16384 in
set_option maxHeartbeats 4000000 in
/-- The last fourteen statements are the last 13 operations. -/
theorem main_part1_eq (c : Dev nD) : main_part1 (F := F) c = seq (opsD1 ++ opsE) := rfl

set_option maxRecDepth 16384 in
theorem main_eq (c : Dev nD) : main (F := F) c = seq ops := by
  have e : (ops : List (HloOp τ sig (Elt F))) = (opsA ++ (opsB ++ (opsC ++ opsD0))) ++ (opsD1 ++ opsE) := by
    simp only [ops, List.append_assoc]
  rw [e, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Each stretch: what it writes, and what it leaves in the array the next one reads -/

/-- The buffers the operations of this stretch write. -/
abbrev opsA_W : List (Ref sig .tc) := [main_v0, main_v1, main_v2, main_v3, main_v4]

set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h

set_option maxRecDepth 8192 in
theorem opsA_sub : (opsA : List (HloOp τ sig (Elt F))).Forall fun op => op.bufs ⊆ tcRefs τ sig :=
  ⟨binary_bufs_sub .., binary_bufs_sub .., unary_bufs_sub .., unary_bufs_sub .., binary_bufs_sub ..⟩

set_option maxRecDepth 8192 in
set_option maxHeartbeats 2000000 in
/-- The first mixing leaves the mixed features, with their bias. -/
theorem opsA_out (V : Valuation τ sig (Elt F)) :
    after opsA V (Proc.devRef .tc main_v4)
      = mix (V (Proc.devRef .tc main_arg0)) (V (Proc.devRef .tc main_arg1)) (V (Proc.devRef .tc main_arg2)) (V (Proc.devRef .tc main_arg3)) := by
  simp only [opsA]
  after_results_simp <;> rfl

/-- The buffers the operations of this stretch write. -/
abbrev opsB_W : List (Ref sig .tc) := [main_cst, main_v5, main_v6, main_cst_0, main_v7, main_v8, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v9, main_v10, main_v11, main_cst_1, main_v12, main_v13, main_v14, main_v15, main_v16, main_v17, main_v18, main_v19, main_v20, main_v21, main_v22, main_cst_2, main_v23, main_v24, main_cst_3, main_v25, main_v26, main_v27]

set_option maxRecDepth 8192 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h

set_option maxRecDepth 8192 in
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

set_option maxRecDepth 8192 in
set_option maxHeartbeats 4000000 in
/-- The first normalisation leaves the activated rows. -/
theorem opsB_out (V : Valuation τ sig (Elt F)) :
    after opsB V (Proc.devRef .tc main_v27)
      = nact (V (Proc.devRef .tc main_v4)) (V (Proc.devRef .tc main_arg6)) (V (Proc.devRef .tc main_arg7)) := by
  simp only [opsB]
  after_results_simp
  simp only [Cert.Lib.ofBuf_toBuf] <;> rfl

/-- The buffers the operations of this stretch write. -/
abbrev opsC_W : List (Ref sig .tc) := [main_v28, main_v29, main_v30, main_v31, main_v32]

set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsC_keep (V : Valuation τ sig (Elt F)) (r : Ref sig .tc) (h : r ∉ opsC_W) :
    after opsC V (Proc.devRef .tc r) = V (Proc.devRef .tc r) :=
  after_of_writes_sub opsC V opsC_writes h

set_option maxRecDepth 8192 in
theorem opsC_sub : (opsC : List (HloOp τ sig (Elt F))).Forall fun op => op.bufs ⊆ tcRefs τ sig :=
  ⟨binary_bufs_sub .., binary_bufs_sub .., unary_bufs_sub .., unary_bufs_sub .., binary_bufs_sub ..⟩

set_option maxRecDepth 8192 in
set_option maxHeartbeats 2000000 in
/-- The second mixing. -/
theorem opsC_out (V : Valuation τ sig (Elt F)) :
    after opsC V (Proc.devRef .tc main_v32)
      = mix (V (Proc.devRef .tc main_v27)) (V (Proc.devRef .tc main_arg1)) (V (Proc.devRef .tc main_arg4)) (V (Proc.devRef .tc main_arg5)) := by
  simp only [opsC]
  after_results_simp <;> rfl

/-- The buffers the operations of this stretch write. -/
abbrev opsD0_W : List (Ref sig .tc) := [main_cst_4, main_v33, main_v34, main_cst_5, main_v35, main_v36, main_c_6, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v37, main_v38, main_v39, main_cst_7, main_v40, main_v41, main_v42, main_v43, main_v44, main_v45, main_v46, main_v47, main_v48, main_v49]

set_option maxRecDepth 8192 in
theorem opsD0_writes : (opsD0 : List (HloOp τ sig (Elt F))).Forall fun op => op.writes ⊆ (opsD0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsD0_keep (V : Valuation τ sig (Elt F)) (r : Ref sig .tc) (h : r ∉ opsD0_W) :
    after opsD0 V (Proc.devRef .tc r) = V (Proc.devRef .tc r) :=
  after_of_writes_sub opsD0 V opsD0_writes h

set_option maxRecDepth 8192 in
theorem opsD0_sub : (opsD0 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub ..⟩

/-- The buffers the operations of this stretch write. -/
abbrev opsD1_W : List (Ref sig .tc) := [main_v50, main_cst_8, main_v51, main_v52, main_cst_9, main_v53, main_v54, main_v55]

set_option maxRecDepth 8192 in
theorem opsD1_writes : (opsD1 : List (HloOp τ sig (Elt F))).Forall fun op => op.writes ⊆ (opsD1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsD1_keep (V : Valuation τ sig (Elt F)) (r : Ref sig .tc) (h : r ∉ opsD1_W) :
    after opsD1 V (Proc.devRef .tc r) = V (Proc.devRef .tc r) :=
  after_of_writes_sub opsD1 V opsD1_writes h

set_option maxRecDepth 8192 in
theorem opsD1_sub : (opsD1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub ..⟩

set_option maxRecDepth 8192 in
set_option maxHeartbeats 4000000 in
/-- The second normalisation leaves the activated rows. -/
theorem opsD_out (V : Valuation τ sig (Elt F)) :
    after opsD1 (after opsD0 V) (Proc.devRef .tc main_v55)
      = nact (V (Proc.devRef .tc main_v32)) (V (Proc.devRef .tc main_arg6)) (V (Proc.devRef .tc main_arg7)) := by
  simp only [opsD0, opsD1]
  after_results_simp
  simp only [Cert.Lib.ofBuf_toBuf] <;> rfl

/-- The buffers the operations of this stretch write. -/
abbrev opsE_W : List (Ref sig .tc) := [main_v56, main_v57, main_v58, main_v59, main_v60]

set_option maxRecDepth 8192 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer this stretch does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

set_option maxRecDepth 8192 in
theorem opsE_sub : (opsE : List (HloOp τ sig (Elt F))).Forall fun op => op.bufs ⊆ tcRefs τ sig :=
  ⟨unary_bufs_sub .., binary_bufs_sub .., unary_bufs_sub .., unary_bufs_sub .., binary_bufs_sub ..⟩

set_option maxRecDepth 8192 in
set_option maxHeartbeats 2000000 in
/-- The head. -/
theorem opsE_out (V : Valuation τ sig (Elt F)) :
    after opsE V (Proc.devRef .tc main_v60)
      = head (V (Proc.devRef .tc main_v55)) (V (Proc.devRef .tc main_arg8)) (V (Proc.devRef .tc main_arg9)) := by
  simp only [opsE]
  after_results_simp <;> rfl

/-! ## The whole program -/

theorem ops_sub : (ops : List (HloOp τ sig (Elt F))).Forall fun op => op.bufs ⊆ tcRefs τ sig :=
  List.forall_iff_forall_mem.mpr fun op h => by
    simp only [ops, List.mem_append] at h
    rcases h with h | h | h | (h | h) | h
    exacts [List.forall_iff_forall_mem.mp opsA_sub op h, List.forall_iff_forall_mem.mp opsB_sub op h,
      List.forall_iff_forall_mem.mp opsC_sub op h, List.forall_iff_forall_mem.mp opsD0_sub op h,
      List.forall_iff_forall_mem.mp opsD1_sub op h, List.forall_iff_forall_mem.mp opsE_sub op h]

/-- The result array after all the operations: the five stretches composed. Each stretch's value is read at the
    contents the stretches before it leave; the arrays it reads besides the previous stretch's result are arguments,
    which no stretch writes. -/
theorem out_eq (V : Valuation τ sig (Elt F)) :
    after ops V (Proc.devRef .tc main_v60)
      = refOutF (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp only [ops, after_append]
  rw [opsE_out, opsD_out,
    opsD1_keep _ main_arg8 (by decide), opsD0_keep _ main_arg8 (by decide), opsC_keep _ main_arg8 (by decide), opsB_keep _ main_arg8 (by decide), opsA_keep _ main_arg8 (by decide),
    opsD1_keep _ main_arg9 (by decide), opsD0_keep _ main_arg9 (by decide), opsC_keep _ main_arg9 (by decide), opsB_keep _ main_arg9 (by decide), opsA_keep _ main_arg9 (by decide),
    opsC_out,
    opsC_keep _ main_arg6 (by decide), opsB_keep _ main_arg6 (by decide), opsA_keep _ main_arg6 (by decide),
    opsC_keep _ main_arg7 (by decide), opsB_keep _ main_arg7 (by decide), opsA_keep _ main_arg7 (by decide),
    opsB_out,
    opsB_keep _ main_arg1 (by decide), opsA_keep _ main_arg1 (by decide),
    opsB_keep _ main_arg4 (by decide), opsA_keep _ main_arg4 (by decide),
    opsB_keep _ main_arg5 (by decide), opsA_keep _ main_arg5 (by decide),
    opsA_out]
  rfl

/-- A buffer no stretch writes holds at the end what it held at the start. -/
theorem keep_all (V : Valuation τ sig (Elt F)) (r : Ref sig .tc) (hA : r ∉ opsA_W) (hB : r ∉ opsB_W) (hC : r ∉ opsC_W)
    (hD0 : r ∉ opsD0_W) (hD1 : r ∉ opsD1_W) (hE : r ∉ opsE_W) :
    after ops V (Proc.devRef .tc r) = V (Proc.devRef .tc r) := by
  simp only [ops, after_append]
  rw [opsE_keep _ r hE, opsD1_keep _ r hD1, opsD0_keep _ r hD0, opsC_keep _ r hC, opsB_keep _ r hB, opsA_keep _ r hA]

/-- The reference's result over the extended reals, as a function of its ten arguments' contents. -/
def refOut (x : (⟨S10000x128, .f32⟩ : BufTy).Contents (Elt Ideal)) (adj : (⟨S10000x10000, .f32⟩ : BufTy).Contents (Elt Ideal)) (w1 : (⟨S128x128, .f32⟩ : BufTy).Contents (Elt Ideal)) (b1 : (⟨S128, .f32⟩ : BufTy).Contents (Elt Ideal)) (w2 : (⟨S128x128, .f32⟩ : BufTy).Contents (Elt Ideal)) (b2 g bt : (⟨S128, .f32⟩ : BufTy).Contents (Elt Ideal)) (w3 : (⟨S128x128, .f32⟩ : BufTy).Contents (Elt Ideal)) (b3 : (⟨S128, .f32⟩ : BufTy).Contents (Elt Ideal)) : (⟨S10000x128, .f32⟩ : BufTy).Contents (Elt Ideal) :=
  refOutF (F := Ideal) x adj w1 b1 w2 b2 g bt w3 b3

set_option maxRecDepth 8192 in
/-- On the device, over the extended reals, from any memory with zero counters: every weakly fair execution of the program
    terminates with the result array at `refOut` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v60).trans (out_eq (launchContents m c)),
      (h c main_arg0).trans (keep_all (launchContents m c) main_arg0 (by decide) (by decide) (by decide) (by decide) (by decide) (by decide)),
      (h c main_arg1).trans (keep_all (launchContents m c) main_arg1 (by decide) (by decide) (by decide) (by decide) (by decide) (by decide)),
      (h c main_arg2).trans (keep_all (launchContents m c) main_arg2 (by decide) (by decide) (by decide) (by decide) (by decide) (by decide)),
      (h c main_arg3).trans (keep_all (launchContents m c) main_arg3 (by decide) (by decide) (by decide) (by decide) (by decide) (by decide)),
      (h c main_arg4).trans (keep_all (launchContents m c) main_arg4 (by decide) (by decide) (by decide) (by decide) (by decide) (by decide)),
      (h c main_arg5).trans (keep_all (launchContents m c) main_arg5 (by decide) (by decide) (by decide) (by decide) (by decide) (by decide)),
      (h c main_arg6).trans (keep_all (launchContents m c) main_arg6 (by decide) (by decide) (by decide) (by decide) (by decide) (by decide)),
      (h c main_arg7).trans (keep_all (launchContents m c) main_arg7 (by decide) (by decide) (by decide) (by decide) (by decide) (by decide)),
      (h c main_arg8).trans (keep_all (launchContents m c) main_arg8 (by decide) (by decide) (by decide) (by decide) (by decide) (by decide)),
      (h c main_arg9).trans (keep_all (launchContents m c) main_arg9 (by decide) (by decide) (by decide) (by decide) (by decide) (by decide))⟩)
    (run_seq scopedRefs_eq scopedSems_eq defs main (fun _ => ops) main_eq (fun _ => ops_sub) m ρ)

/-- The same run, keeping only that the arguments end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run m ρ)

end Cert.ReferenceIdeal.RefValue

end
-- ==== Proof.RefRead.lean ====
/-
  The reference's result read at an entry: it is the two graph-convolution layers and the linear head of the common
  specification, with the normalisation that divides by the square root.

  Stage by stage. A per-channel vector repeated down the rows reads, at (p, q), the vector at q; a per-row column
  repeated across the channels reads the column at row p; a scalar repeated reads the scalar. The host's sum over the
  channel axis starts from its initial value, the zero pattern, so a row sum at row p is the sum over k of the entries
  (p, k). The mean column is that over 128. The variance divides the row sum of squared deviations by 128 less the
  integer zero, which is 128, and keeps that quotient wherever 128 less zero is positive — everywhere — so the
  not-a-number filler of the other branch is never read. The matrix products read as sums over the shared index.
-/
import proofs.«123332_g55173149885128_cont_9to1_m_1112_21_alg».proof.Proof.RefRun
import proofs.«123332_g55173149885128_cont_9to1_m_1112_21_alg».proof.Proof.Spec
import proofs.«123332_g55173149885128_cont_9to1_m_1112_21_alg».proof.Proof.LibPlainDot
import proofs.«123332_g55173149885128_cont_9to1_m_1112_21_alg».proof.Proof.LibColumn
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Gcn

/-! ## Layouts -/

theorem rows_apply {α : Type} (b : S128.Idx → α) (p : Fin 10000) (q : Fin 128) : rows b (ix2 p q) = b (ix1 q) := by
  unfold rows
  rw [Cert.Lib.broadcastInDim_1b_ab_apply, Cert.Lib.broadcastInDim_b_1b_apply]

theorem across_apply {α : Type} (v : S10000x1.Idx → α) (p : Fin 10000) (q : Fin 128) :
    across v (ix2 p q) = v (ix2 p (0 : Fin 1)) := by
  unfold across
  rw [Cert.Lib.broadcastInDim_a1_ab_apply]

theorem colOf_apply {α : Type} (v : S_.Idx → α) (i : S10000x1.Idx) : colOf v i = v ix0 := by
  unfold colOf
  exact Cert.Lib.broadcastInDim_scalar_apply v _ i

theorem allOf_apply {α : Type} (v : S_.Idx → α) (i : S10000x128.Idx) : allOf v i = v ix0 := by
  unfold allOf
  exact Cert.Lib.broadcastInDim_scalar_apply v _ i

/-! ## The row sums, the mean and the variance -/

/-- The reduced index p with the channel k put back is (p, k). -/
theorem lift_row (h : S10000x128.Reduces [1] S10000) (p : Fin 10000) (k : Fin (S10000x128.size 1)) :
    h.lift (ix1 p) k = ix2 p (⟨k.val, k.isLt⟩ : Fin 128) := by
  funext c; apply Fin.ext
  fin_cases c <;> rfl

/-- A row sum: the sum over the 128 channels of the row's entries. -/
theorem rowSum_apply (h : FVec Ideal S10000x128 .f32) (p : Fin 10000) (u : Fin 1) :
    rowSum (F := Ideal) h (ix2 p u) = ∑ k : Fin 128, h (ix2 p k) := by
  unfold rowSum
  rw [Cert.Lib.broadcastInDim_a_a1_apply, hostReduceAdd_apply,
    Ideal.hostReduceAdd_single _ (by decide : S10000x128.Reduces [1] S10000)]
  show Ideal.ofBits .f32 0x00000000#32 + _ = _
  rw [Ideal.ofBits_zero_f32, zero_add]
  exact Finset.sum_congr rfl fun k _ => congrArg h (lift_row _ p k)

/-- The mean column at row p is the specification's mean of row p. -/
theorem meanCol_apply (h : FVec Ideal S10000x128 .f32) (p : Fin 10000) (u : Fin 1) :
    meanCol (F := Ideal) h (ix2 p u) = mean (mat h p) := by
  unfold meanCol
  rw [hostDivf_apply, rowSum_apply, colOf_apply]
  rfl

/-- The deviations are the specification's. -/
theorem devMat_apply (h : FVec Ideal S10000x128 .f32) (p : Fin 10000) (q : Fin 128) :
    devMat (F := Ideal) h (ix2 p q) = dev (mat h p) q := by
  unfold devMat
  show h (ix2 p q) - across (meanCol (F := Ideal) h) (ix2 p q) = _
  rw [across_apply, meanCol_apply]
  rfl

/-- The pattern 0x43000000 is the real 128. -/
theorem chan_eq : chan = ((128 : ℝ) : EReal) := by
  unfold chan
  simp [Ideal.ofBits, Ideal.ieee, -EReal.coe_mul]
  norm_num

theorem chan_pos : (0 : EReal) < chan := by
  rw [chan_eq]
  exact EReal.coe_pos.mpr (by norm_num)

/-- The variance's divisor: 128 less the integer zero is 128. -/
theorem count_zero (i : S_.Idx) : count (F := Ideal) (constantI S_ 32 0#32) i = chan := by
  show Ideal.ofBits .f32 0x43000000#32 - (((0#32 : BitVec 32).toInt : ℝ) : EReal) = chan
  rw [show (0#32 : BitVec 32).toInt = 0 from by decide]
  simp only [Int.cast_zero, EReal.coe_zero, sub_zero]
  rfl

/-- The variance column at row p is the specification's variance of row p: the selection keeps its first branch. -/
theorem varCol_apply (h : FVec Ideal S10000x128 .f32) (p : Fin 10000) (u : Fin 1) :
    varCol (F := Ideal) h (constantI S_ 32 0#32) (ix2 p u) = var (mat h p) := by
  unfold varCol
  show Scalar.select (colOf (cmpf (F := Ideal) (φ := .f32) .ogt (count (F := Ideal) (constantI S_ 32 0#32)) (constant (F := Ideal) S_ .f32 0x00000000#32)) (ix2 p u))
      (Host.divf (F := Ideal) (φ := .f32) (rowSum (F := Ideal) (mulf (F := Ideal) (φ := .f32) (devMat (F := Ideal) h) (devMat (F := Ideal) h))) (colOf (count (F := Ideal) (constantI S_ 32 0#32))) (ix2 p u))
      (colOf (id (constant (F := Ideal) S_ .f32 0x7FC00000#32)) (ix2 p u)) = _
  have hp : colOf (cmpf (F := Ideal) (φ := .f32) .ogt (count (F := Ideal) (constantI S_ 32 0#32)) (constant (F := Ideal) S_ .f32 0x00000000#32)) (ix2 p u) = 1#1 := by
    rw [colOf_apply]
    show Ideal.cmp .ogt (count (F := Ideal) (constantI S_ 32 0#32) ix0) (Ideal.ofBits .f32 0x00000000#32) = 1#1
    rw [count_zero, Ideal.ofBits_zero_f32]
    show BitVec.ofBool (decide ((0 : EReal) < chan)) = 1#1
    rw [decide_eq_true chan_pos]
    rfl
  rw [hp]
  show Host.divf (F := Ideal) (φ := .f32) (rowSum (F := Ideal) (mulf (F := Ideal) (φ := .f32) (devMat (F := Ideal) h) (devMat (F := Ideal) h))) (colOf (count (F := Ideal) (constantI S_ 32 0#32))) (ix2 p u) = _
  rw [hostDivf_apply, rowSum_apply, colOf_apply, count_zero]
  unfold var
  refine congrArg (fun s => Ideal.div s chan) (Finset.sum_congr rfl fun k _ => ?_)
  show devMat (F := Ideal) h (ix2 p k) * devMat (F := Ideal) h (ix2 p k) = _
  rw [devMat_apply]

/-! ## The normalisation, the rectifier, the products -/

theorem affine_apply (h : FVec Ideal S10000x128 .f32) (g bt : FVec Ideal S128 .f32) (p : Fin 10000) (q : Fin 128) :
    affine (F := Ideal) h g bt (ix2 p q) = normDiv (mat h p) q * vec g q + vec bt q := by
  unfold affine
  show Ideal.div (devMat (F := Ideal) h (ix2 p q))
        (across (Host.sqrt (F := Ideal) (φ := .f32) (addf (F := Ideal) (φ := .f32) (varCol (F := Ideal) h (constantI S_ 32 0#32)) (colOf (constant (F := Ideal) S_ .f32 0x3727C5AC#32)))) (ix2 p q))
      * rows g (ix2 p q) + rows bt (ix2 p q) = _
  rw [across_apply, rows_apply, rows_apply, devMat_apply]
  show Ideal.div (dev (mat h p) q)
        (Ideal.sqrt (varCol (F := Ideal) h (constantI S_ 32 0#32) (ix2 p 0) + colOf (constant (F := Ideal) S_ .f32 0x3727C5AC#32) (ix2 p 0)))
      * g (ix1 q) + bt (ix1 q) = _
  rw [varCol_apply, colOf_apply]
  rfl

theorem leaky_apply (a : FVec Ideal S10000x128 .f32) (i : S10000x128.Idx) : leaky (F := Ideal) a i = lrelu (a i) := by
  unfold leaky lrelu
  show Scalar.select (FloatOps.cmpf (F := Ideal) (φ := .f32) .oge (a i) (allOf (constant (F := Ideal) S_ .f32 0x00000000#32) i)) (a i)
      (allOf (constant (F := Ideal) S_ .f32 0x3C23D70A#32) i * a i) = _
  rw [allOf_apply, allOf_apply]
  rfl

/-- One layer's normalisation and rectifier is the specification's activated row. -/
theorem nact_apply (h : FVec Ideal S10000x128 .f32) (g bt : FVec Ideal S128 .f32) (p : Fin 10000) (q : Fin 128) :
    nact (F := Ideal) h g bt (ix2 p q) = act normDiv (vec g) (vec bt) (mat h p) q := by
  unfold nact act
  rw [leaky_apply, affine_apply]

theorem dotS_apply (l : FVec Ideal S10000x128 .f32) (r : FVec Ideal S128x128 .f32) (p : Fin 10000) (q : Fin 128) :
    Host.dotGeneral dot_S10000x128_S128x128_S10000x128_1_0_0_1_n_n none l r (ix2 p q) = ∑ k : Fin 128, l (ix2 p k) * r (ix2 k q) :=
  Cert.Lib.dotGeneral_plain_apply Gen.dot_S10000x128_S128x128_S10000x128_1_0_0_1_n_n_wf none .single l r p q

theorem dotB_apply (l : FVec Ideal S10000x10000 .f32) (r : FVec Ideal S10000x128 .f32) (p : Fin 10000) (q : Fin 128) :
    Host.dotGeneral dot_S10000x10000_S10000x128_S10000x128_1_0_0_1_n_n none l r (ix2 p q) = ∑ k : Fin 10000, l (ix2 p k) * r (ix2 k q) :=
  Cert.Lib.dotGeneral_plain_apply Gen.dot_S10000x10000_S10000x128_S10000x128_1_0_0_1_n_n_wf none .single l r p q

/-- The graph mixing is the specification's. -/
theorem mix_apply (s : FVec Ideal S10000x128 .f32) (adj : FVec Ideal S10000x10000 .f32) (w : FVec Ideal S128x128 .f32) (b : FVec Ideal S128 .f32) (p : Fin 10000) (q : Fin 128) :
    mix (F := Ideal) s adj w b (ix2 p q) = conv (mat adj) (mm (mat s) (mat w)) (vec b) p q := by
  unfold mix
  show Host.dotGeneral dot_S10000x10000_S10000x128_S10000x128_1_0_0_1_n_n none adj
        (Host.dotGeneral dot_S10000x128_S128x128_S10000x128_1_0_0_1_n_n none s w) (ix2 p q) + rows b (ix2 p q) = _
  rw [dotB_apply, rows_apply]
  unfold conv mm
  refine congrArg (· + vec b q) (Finset.sum_congr rfl fun k _ => ?_)
  rw [dotS_apply]
  rfl

/-- The linear head. -/
theorem head_apply (s : FVec Ideal S10000x128 .f32) (w : FVec Ideal S128x128 .f32) (b : FVec Ideal S128 .f32) (p : Fin 10000) (q : Fin 128) :
    head (F := Ideal) s w b (ix2 p q)
      = mm (mat s) (mat (transpose S128x128 [1, 0] w transposes_S128x128_S128x128_1_0)) p q + vec b q := by
  unfold head
  show Host.dotGeneral dot_S10000x128_S128x128_S10000x128_1_0_0_1_n_n none s
        (transpose S128x128 [1, 0] w transposes_S128x128_S128x128_1_0) (ix2 p q) + rows b (ix2 p q) = _
  rw [dotS_apply, rows_apply]
  rfl

/-! ## The whole result -/

/-- The reference's result at (p, q) is the specification's two layers and head, with the dividing normalisation. -/
theorem refOut_apply (x : FVec Ideal S10000x128 .f32) (adj : FVec Ideal S10000x10000 .f32) (w1 : FVec Ideal S128x128 .f32) (b1 : FVec Ideal S128 .f32) (w2 : FVec Ideal S128x128 .f32) (b2 g bt : FVec Ideal S128 .f32) (w3 : FVec Ideal S128x128 .f32) (b3 : FVec Ideal S128 .f32)
    (p : Fin 10000) (q : Fin 128) :
    refOut x adj w1 b1 w2 b2 g bt w3 b3 (ix2 p q)
      = layers normDiv (mat x) (mat adj) (mat w1) (vec b1) (mat w2) (vec b2) (vec g) (vec bt)
          (mat (transpose S128x128 [1, 0] w3 transposes_S128x128_S128x128_1_0)) (vec b3) p q := by
  have hn : ∀ h : FVec Ideal S10000x128 .f32, mat (nact (F := Ideal) h g bt) = fun r => act normDiv (vec g) (vec bt) (mat h r) :=
    fun h => funext fun r => funext fun c => nact_apply h g bt r c
  have hm : ∀ (s : FVec Ideal S10000x128 .f32) (w : FVec Ideal S128x128 .f32) (b : FVec Ideal S128 .f32), mat (mix (F := Ideal) s adj w b) = conv (mat adj) (mm (mat s) (mat w)) (vec b) :=
    fun s w b => funext fun r => funext fun c => mix_apply s adj w b r c
  unfold refOut refOutF
  rw [head_apply, hn, hm, hn, hm]
  rfl

end Cert.ReferenceIdeal.RefValue

end
-- ==== Proof.lean ====
/-
  A fused kernel for two graph-convolution layers and a linear head against the plain array program.

  Both compute, for 10000 nodes with 128 features: node features times a first weight matrix; mixing along the graph by the
  dense adjacency plus a bias; per node a normalisation to mean zero and variance one over the 128 channels, a scale and
  shift and the leaky rectifier; times a second weight matrix; the same mixing, normalisation and rectifier again; times
  the head's matrix plus the head's bias.

  The kernel visits 2 · 25 grid points. In the first phase point t mixes the adjacency's row block t with the first product
  (kept in the first slab of a scratch buffer, written at the very first point) and writes the block's 400 finished rows of
  the first layer into the second slab; in the second phase point 25 + t mixes the same row block with the second slab and
  writes the block's rows of the result. Between points the scratch is known only on the region written so far, which is
  all that later points read. The 25 blocks of the second phase tile the result array.

  The two programs differ in one step: the kernel multiplies a deviation by the inverse square root of the shifted
  variance, the array program divides it by the square root. The shifted variance is positive on the extended reals even
  when entries are infinite (a sum of squares is nonnegative), and at a positive argument the two steps agree; so the
  results are equal entry by entry, and finiteness of the inputs is never used.

  The three frames: the kernel's body is run once per case of its conditionals at every grid point, at the word level and
  over the extended reals alike; the array program's run is read operation by operation.
-/
import proofs.«123332_g55173149885128_cont_9to1_m_1112_21_alg».proof.Defs
import proofs.«123332_g55173149885128_cont_9to1_m_1112_21_alg».proof.Proof.Gen.Kernel
import proofs.«123332_g55173149885128_cont_9to1_m_1112_21_alg».proof.Proof.Gen.KernelIdeal
import proofs.«123332_g55173149885128_cont_9to1_m_1112_21_alg».proof.Proof.Gen.ReferenceIdeal
import proofs.«123332_g55173149885128_cont_9to1_m_1112_21_alg».proof.Proof.Gen.Pre_finite_inputs
import proofs.«123332_g55173149885128_cont_9to1_m_1112_21_alg».proof.Proof.KB.Body
import proofs.«123332_g55173149885128_cont_9to1_m_1112_21_alg».proof.Proof.KI.Final
import proofs.«123332_g55173149885128_cont_9to1_m_1112_21_alg».proof.Proof.RefRun
import proofs.«123332_g55173149885128_cont_9to1_m_1112_21_alg».proof.Proof.RefRead
import proofs.«123332_g55173149885128_cont_9to1_m_1112_21_alg».proof.Proof.Law
import Idealize.ShloMosaic.Adequacy
import Idealize.ShloMosaic.Init

noncomputable section

namespace Cert.Proof

open Idealize.ShloMosaic Idealize.ShloMosaic.ValueIdx Idealize.SL.Sem

/-- The word-level kernel runs to the end, faults nowhere and leaves its arguments unchanged. -/
theorem frame_kernel : Cert.frame_Kernel := fun m ρ _ => Cert.Kernel.Body.frame m ρ

/-- So does the kernel read over the extended reals, -/
theorem frame_kernelIdeal : Cert.frame_KernelIdeal := fun m ρ _ => Cert.KernelIdeal.Body.frame m ρ

/-- and the array program. -/
theorem frame_reference : Cert.frame_ReferenceIdeal := fun m ρ _ => Cert.ReferenceIdeal.RefValue.frame m ρ

/-- The idealisation rewrote nothing. -/
theorem preserves : Cert.preserves_Kernel_KernelIdeal := trivial

/-- From memories agreeing on the arguments both programs end with the same result array: the two layers and the head,
    entry by entry, the two normalisation steps agreeing at the positive shifted variance. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]
  funext i
  obtain ⟨p, q, rfl⟩ : ∃ (p : Fin 10000) (q : Fin 128), i = ix2 p q := ⟨i 0, i 1, eq_ix2 i⟩
  rw [Cert.ReferenceIdeal.RefValue.refOut_apply]
  exact (congrFun (congrFun (Cert.Gcn.layers_eq (Cert.KernelIdeal.Final.X m c) (Cert.KernelIdeal.Final.A m c)
    (Cert.KernelIdeal.Final.W1 m c) (Cert.KernelIdeal.Final.B1 m c) (Cert.KernelIdeal.Final.W2 m c) (Cert.KernelIdeal.Final.B2 m c)
    (Cert.KernelIdeal.Final.Gam m c) (Cert.KernelIdeal.Final.Bet m c) (Cert.KernelIdeal.Final.W3 m c) (Cert.KernelIdeal.Final.B3 m c)) p) q).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
